-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x400000 : Shape := ⟨2, ![2, 400000]⟩
abbrev S50000 : Shape := ⟨1, ![50000]⟩
abbrev S128x16 : Shape := ⟨2, ![128, 16]⟩
abbrev S400000 : Shape := ⟨1, ![400000]⟩
abbrev S4x256 : Shape := ⟨2, ![4, 256]⟩
abbrev S256 : Shape := ⟨1, ![256]⟩
abbrev S256x256 : Shape := ⟨2, ![256, 256]⟩
abbrev S16x256 : Shape := ⟨2, ![16, 256]⟩
abbrev S512x256 : Shape := ⟨2, ![512, 256]⟩
abbrev S256x64 : Shape := ⟨2, ![256, 64]⟩
abbrev S64 : Shape := ⟨1, ![64]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S400000 : S_.BroadcastsInDim S400000 (![] : Fin 0 → Fin S400000.rank)
  reducesTo_S400000_S_d0 : S400000.ReducesTo [0] S_
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S512x256 .f32) (main_arg14 : FVec F S256 .f32) (main_arg15 : FVec F S256x64 .f32) (main_arg16 : FVec F S64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x256 .f32 := Host.absf main_arg13
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x64 .f32 := Host.absf main_arg15
  let main_cst_24 : FVec F S_ .f32 := constant S_ .f32 0x7F800000#32
  let main_v65 : FVec F S256x64 .f32 := broadcastInDim S256x64 ![] bcast_S_S256x64 main_cst_24
  let main_v66 : IVec S256x64 1 := cmpf .olt main_v64 main_v65
  let main_c_25 : IVec S_ 1 := constantI S_ 1 1#1
  let main_v67 : IVec S_ 1 := (fun x v => Host.reduce IntOp.andi x v reducesTo_S256x64_S_d0_1 h_S_) main_v66 main_c_25
  fn_part4 (F := F) main_arg16 main_v63 main_v67

def fn_part2 {F : FTy → Type} [FloatOps F] (main_arg9 : FVec F S256x256 .f32) (main_arg10 : FVec F S256 .f32) (main_arg11 : FVec F S16x256 .f32) (main_arg12 : FVec F S256 .f32) (main_arg13 : FVec F S512x256 .f32) (main_arg14 : FVec F S256 .f32) (main_arg15 : FVec F S256x64 .f32) (main_arg16 : FVec F S64 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S16x256 .f32 := Host.absf main_arg11
  let main_cst_16 : FVec F S_ .f32 := constant S_ .f32 0x7F800000#32
  let main_v45 : FVec F S16x256 .f32 := broadcastInDim S16x256 ![] bcast_S_S16x256 main_cst_16
  let main_v46 : IVec S16x256 1 := cmpf .olt main_v44 main_v45
  let main_c_17 : IVec S_ 1 := constantI S_ 1 1#1
  let main_v47 : IVec S_ 1 := (fun x v => Host.reduce IntOp.andi x v reducesTo_S16x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S16x256 .f32) (main_arg12 : FVec F S256 .f32) (main_arg13 : FVec F S512x256 .f32) (main_arg14 : FVec F S256 .f32) (main_arg15 : FVec F S256x64 .f32) (main_arg16 : FVec F S64 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x4 .f32) (main_arg1 : IVec S2x400000 32) (main_arg2 : IVec S50000 32) (main_arg3 : FVec F S128x16 .f32) (main_arg4 : FVec F S400000 .f32) (main_arg5 : FVec F S4x256 .f32) (main_arg6 : FVec F S256 .f32) (main_arg7 : FVec F S256x256 .f32) (main_arg8 : FVec F S256 .f32) (main_arg9 : FVec F S256x256 .f32) (main_arg10 : FVec F S256 .f32) (main_arg11 : FVec F S16x256 .f32) (main_arg12 : FVec F S256 .f32) (main_arg13 : FVec F S512x256 .f32) (main_arg14 : FVec F S256 .f32) (main_arg15 : FVec F S256x64 .f32) (main_arg16 : FVec F S64 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S400000 .f32 := Host.absf main_arg4
  let main_cst_2 : FVec F S_ .f32 := constant S_ .f32 0x7F800000#32
  let main_v10 : FVec F S400000 .f32 := broadcastInDim S400000 ![] bcast_S_S400000 main_cst_2
  let main_v11 : IVec S400000 1 := cmpf .olt main_v9 main_v10
  let main_c_3 : IVec S_ 1 := constantI S_ 1 1#1
  let main_v12 : IVec S_ 1 := (fun x v => Host.reduce IntOp.andi x v reducesTo_S400000_S_d0 h_S_) main_v11 main_c_3
  let main_v13 : IVec S_ 1 := andi main_v8 main_v12
  let main_v14 : FVec F S4x256 .f32 := Host.absf main_arg5
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x4 : Shape := ⟨2, ![50000, 4]⟩
abbrev S2x400000 : Shape := ⟨2, ![2, 400000]⟩
abbrev S50000 : Shape := ⟨1, ![50000]⟩
abbrev S128x16 : Shape := ⟨2, ![128, 16]⟩
abbrev S400000 : Shape := ⟨1, ![400000]⟩
abbrev S4x256 : Shape := ⟨2, ![4, 256]⟩
abbrev S256 : Shape := ⟨1, ![256]⟩
abbrev S256x256 : Shape := ⟨2, ![256, 256]⟩
abbrev S16x256 : Shape := ⟨2, ![16, 256]⟩
abbrev S512x256 : Shape := ⟨2, ![512, 256]⟩
abbrev S256x64 : Shape := ⟨2, ![256, 64]⟩
abbrev S64 : Shape := ⟨1, ![64]⟩
abbrev S1x400000 : Shape := ⟨2, ![1, 400000]⟩
abbrev S450000 : Shape := ⟨1, ![450000]⟩
abbrev S_ : Shape := ⟨0, ![]⟩
abbrev S450000x1 : Shape := ⟨2, ![450000, 1]⟩
abbrev S1x256 : Shape := ⟨2, ![1, 256]⟩
abbrev S50000x1 : Shape := ⟨2, ![50000, 1]⟩
abbrev S50000x256 : Shape := ⟨2, ![50000, 256]⟩
abbrev S2000x4 : Shape := ⟨2, ![2000, 4]⟩
abbrev S2000x1 : Shape := ⟨2, ![2000, 1]⟩
abbrev S2000x256 : Shape := ⟨2, ![2000, 256]⟩
abbrev S450000x256 : Shape := ⟨2, ![450000, 256]⟩
abbrev S5000x256 : Shape := ⟨2, ![5000, 256]⟩
abbrev S5000x1 : Shape := ⟨2, ![5000, 1]⟩
abbrev S128x256 : Shape := ⟨2, ![128, 256]⟩
abbrev S128 : Shape := ⟨1, ![128]⟩
abbrev S128x1 : Shape := ⟨2, ![128, 1]⟩
abbrev S128x512 : Shape := ⟨2, ![128, 512]⟩
abbrev S1x64 : Shape := ⟨2, ![1, 64]⟩
abbrev S128x64 : Shape := ⟨2, ![128, 64]⟩

abbrev nBuf : Space → Nat
  | .hbm => 102
  | .vmem => 34
  | .smem => 0
  | _ => 0

abbrev bufTy : (tb : Table) → Fin (tcTables nBuf tb) → BufTy
  | .hbm, ⟨0, _⟩ => ⟨S50000x4, .f32⟩
  | .hbm, ⟨1, _⟩ => ⟨S2x400000, .i32⟩
  | .hbm, ⟨2, _⟩ => ⟨S50000, .i32⟩
  | .hbm, ⟨3, _⟩ => ⟨S128x16, .f32⟩
  | .hbm, ⟨4, _⟩ => ⟨S400000, .f32⟩
  | .hbm, ⟨5, _⟩ => ⟨S4x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S16x256, .f32⟩
  | .hbm, ⟨12, _⟩ => ⟨S256, .f32⟩
  | .hbm, ⟨13, _⟩ => ⟨S512x256, .f32⟩
  | .hbm, ⟨14, _⟩ => ⟨S256, .f32⟩
  | .hbm, ⟨15, _⟩ => ⟨S256x64, .f32⟩
  | .hbm, ⟨16, _⟩ => ⟨S64, .f32⟩
  | .hbm, ⟨17, _⟩ => ⟨S1x400000, .i32⟩
  | .hbm, ⟨18, _⟩ => ⟨S400000, .i32⟩
  | .hbm, ⟨19, _⟩ => ⟨S1x400000, .i32⟩
  | .hbm, ⟨20, _⟩ => ⟨S400000, .i32⟩
  | .hbm, ⟨21, _⟩ => ⟨S50000, .i32⟩
  | .hbm, ⟨22, _⟩ => ⟨S450000, .i32⟩
  | .hbm, ⟨23, _⟩ => ⟨S450000, .i32⟩
  | .hbm, ⟨24, _⟩ => ⟨S_, .f32⟩
  | .hbm, ⟨25, _⟩ => ⟨S50000, .f32⟩
  | .hbm, ⟨26, _⟩ => ⟨S450000, .f32⟩
  | .hbm, ⟨27, _⟩ => ⟨S_, .f32⟩
  | .hbm, ⟨28, _⟩ => ⟨S50000, .f32⟩
  | .hbm, ⟨29, _⟩ => ⟨S450000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S1x256, .f32⟩
  | .hbm, ⟨40, _⟩ => ⟨S50000x1, .f32⟩
  | .hbm, ⟨41, _⟩ => ⟨S50000x256, .f32⟩
  | .hbm, ⟨42, _⟩ => ⟨S_, .i32⟩
  | .hbm, ⟨43, _⟩ => ⟨S450000, .i32⟩
  | .hbm, ⟨44, _⟩ => ⟨S450000, .i1⟩
  | .hbm, ⟨45, _⟩ => ⟨S_, .i32⟩
  | .hbm, ⟨46, _⟩ => ⟨S450000, .i32⟩
  | .hbm, ⟨47, _⟩ => ⟨S450000, .i32⟩
  | .hbm, ⟨48, _⟩ => ⟨S450000, .i32⟩
  | .hbm, ⟨49, _⟩ => ⟨S450000x1, .i32⟩
  | .hbm, ⟨50, _⟩ => ⟨S450000x256, .f32⟩
  | .hbm, ⟨51, _⟩ => ⟨S450000x1, .f32⟩
  | .hbm, ⟨52, _⟩ => ⟨S450000x256, .f32⟩
  | .hbm, ⟨53, _⟩ => ⟨S450000x256, .f32⟩
  | .hbm, ⟨54, _⟩ => ⟨S_, .f32⟩
  | .hbm, ⟨55, _⟩ => ⟨S50000x256, .f32⟩
  | .hbm, ⟨56, _⟩ => ⟨S450000x1, .i32⟩
  | .hbm, ⟨57, _⟩ => ⟨S50000x256, .f32⟩
  | .hbm, ⟨58, _⟩ => ⟨S1x256, .f32⟩
  | .hbm, ⟨59, _⟩ => ⟨S50000x1, .f32⟩
  | .hbm, ⟨60, _⟩ => ⟨S50000x256, .f32⟩
  | .hbm, ⟨61, _⟩ => ⟨S_, .i32⟩
  | .hbm, ⟨62, _⟩ => ⟨S450000, .i32⟩
  | .hbm, ⟨63, _⟩ => ⟨S450000, .i1⟩
  | .hbm, ⟨64, _⟩ => ⟨S_, .i32⟩
  | .hbm, ⟨65, _⟩ => ⟨S450000, .i32⟩
  | .hbm, ⟨66, _⟩ => ⟨S450000, .i32⟩
  | .hbm, ⟨67, _⟩ => ⟨S450000, .i32⟩
  | .hbm, ⟨68, _⟩ => ⟨S450000x1, .i32⟩
  | .hbm, ⟨69, _⟩ => ⟨S450000x256, .f32⟩
  | .hbm, ⟨70, _⟩ => ⟨S450000x1, .f32⟩
  | .hbm, ⟨71, _⟩ => ⟨S450000x256, .f32⟩
  | .hbm, ⟨72, _⟩ => ⟨S450000x256, .f32⟩
  | .hbm, ⟨73, _⟩ => ⟨S_, .f32⟩
  | .hbm, ⟨74, _⟩ => ⟨S50000x256, .f32⟩
  | .hbm, ⟨75, _⟩ => ⟨S450000x1, .i32⟩
  | .hbm, ⟨76, _⟩ => ⟨S50000x256, .f32⟩
  | .hbm, ⟨77, _⟩ => ⟨S1x256, .f32⟩
  | .hbm, ⟨78, _⟩ => ⟨S50000x1, .f32⟩
  | .hbm, ⟨79, _⟩ => ⟨S50000x256, .f32⟩
  | .hbm, ⟨80, _⟩ => ⟨S_, .f32⟩
  | .hbm, ⟨81, _⟩ => ⟨S128x256, .f32⟩
  | .hbm, ⟨82, _⟩ => ⟨S50000x1, .i32⟩
  | .hbm, ⟨83, _⟩ => ⟨S128x256, .f32⟩
  | .hbm, ⟨84, _⟩ => ⟨S_, .f32⟩
  | .hbm, ⟨85, _⟩ => ⟨S50000, .f32⟩
  | .hbm, ⟨86, _⟩ => ⟨S_, .f32⟩
  | .hbm, ⟨87, _⟩ => ⟨S128, .f32⟩
  | .hbm, ⟨88, _⟩ => ⟨S50000x1, .i32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128x1, .f32⟩
  | .hbm, ⟨94, _⟩ => ⟨S128x256, .f32⟩
  | .hbm, ⟨95, _⟩ => ⟨S128x256, .f32⟩
  | .hbm, ⟨96, _⟩ => ⟨S1x256, .f32⟩
  | .hbm, ⟨97, _⟩ => ⟨S128x256, .f32⟩
  | .hbm, ⟨98, _⟩ => ⟨S128x512, .f32⟩
  | .hbm, ⟨99, _⟩ => ⟨S1x256, .f32⟩
  | .hbm, ⟨100, _⟩ => ⟨S1x64, .f32⟩
  | .hbm, ⟨101, _⟩ => ⟨S128x64, .f32⟩
  | .local _ .vmem, ⟨0, _⟩ => ⟨S2000x4, .f32⟩
  | .local _ .vmem, ⟨1, _⟩ => ⟨S2000x4, .f32⟩
  | .local _ .vmem, ⟨2, _⟩ => ⟨S4x256, .f32⟩
  | .local _ .vmem, ⟨3, _⟩ => ⟨S1x256, .f32⟩
  | .local _ .vmem, ⟨4, _⟩ => ⟨S256x256, .f32⟩
  | .local _ .vmem, ⟨5, _⟩ => ⟨S2000x1, .f32⟩
  | .local _ .vmem, ⟨6, _⟩ => ⟨S2000x1, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x1, .f32⟩
  | .local _ .vmem, ⟨12, _⟩ => ⟨S2000x1, .f32⟩
  | .local _ .vmem, ⟨13, _⟩ => ⟨S1x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S5000x256, .f32⟩
  | .local _ .vmem, ⟨18, _⟩ => ⟨S5000x256, .f32⟩
  | .local _ .vmem, ⟨19, _⟩ => ⟨S5000x1, .f32⟩
  | .local _ .vmem, ⟨20, _⟩ => ⟨S5000x1, .f32⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | .local _ .vmem, ⟨24, _⟩ => ⟨S128x16, .f32⟩
  | .local _ .vmem, ⟨25, _⟩ => ⟨S16x256, .f32⟩
  | .local _ .vmem, ⟨26, _⟩ => ⟨S1x256, .f32⟩
  | .local _ .vmem, ⟨27, _⟩ => ⟨S128x256, .f32⟩
  | .local _ .vmem, ⟨28, _⟩ => ⟨S128x512, .f32⟩
  | .local _ .vmem, ⟨29, _⟩ => ⟨S512x256, .f32⟩
  | .local _ .vmem, ⟨30, _⟩ => ⟨S1x256, .f32⟩
  | .local _ .vmem, ⟨31, _⟩ => ⟨S256x64, .f32⟩
  | .local _ .vmem, ⟨32, _⟩ => ⟨S1x64, .f32⟩
  | .local _ .vmem, ⟨33, _⟩ => ⟨S128x64, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_5 : Ref sig .tc := ⟨.hbm, 61, rfl⟩
abbrev main_v35 : Ref sig .tc := ⟨.hbm, 62, rfl⟩
abbrev main_v36 : Ref sig .tc := ⟨.hbm, 63, rfl⟩
abbrev main_c_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S50000 : S_.BroadcastsInDim S50000 (![] : Fin 0 → Fin S50000.rank)
  bcast_S450000_S450000x1_0 : S450000.BroadcastsInDim S450000x1 (![0] : Fin 1 → Fin S450000x1.rank)
  shapeCasts_S256_S1x256 : S256.ShapeCasts S1x256
  shapeCasts_S50000_S50000x1 : S50000.ShapeCasts S50000x1
  inb_S2000x4_S2000x4_0_0 : ∀ a, (![0, 0] : Fin 2 → Nat) a + S2000x4.size a ≤ S2000x4.size a
  h_S2000x4 : 0 < S2000x4.numel
  bitsLt_bf16_f32 : FTy.bits .bf16 < FTy.bits .f32
  inb_S4x256_S4x256_0_0 : ∀ a, (![0, 0] : Fin 2 → Nat) a + S4x256.size a ≤ S4x256.size a
  h_S4x256 : 0 < S4x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S450000 : S_.BroadcastsInDim S450000 (![] : Fin 0 → Fin S450000.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  shapeCasts_S2000x256_S2000x256 : S2000x256.ShapeCasts S2000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  broadcasts_S1x256_S5000x256 : S1x256.Broadcasts S5000x256
  bcast_S_S128x256 : S_.BroadcastsInDim S128x256 (![] : Fin 0 → Fin S128x256.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  inb_S128x16_S128x16_0_0 : ∀ a, (![0, 0] : Fin 2 → Nat) a + S128x16.size a ≤ S128x16.size a
  h_S128x16 : 0 < S128x16.numel
  inb_S16x256_S16x256_0_0 : ∀ a, (![0, 0] : Fin 2 → Nat) a + S16x256.size a ≤ S16x256.size a
  h_S16x256 : 0 < S16x256.numel
  broadcasts_S1x256_S128x256 : S1x256.Broadcasts S128x256
  inb_S128x256_S128x256_0_0 : ∀ a, (![0, 0] : Fin 2 → Nat) a + S128x256.size a ≤ S128x256.size a
  h_S128x256 : 0 < S128x256.numel
  concatenates_S128x256_S128x256_S128x512_d1 : Shape.Concatenates [S128x256, S128x256] S128x512 1
  shapeCasts_S64_S1x64 : S64.ShapeCasts S1x64
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x256_S512x256_0_0 : ∀ a, (![0, 0] : Fin 2 → Nat) a + S512x256.size a ≤ S512x256.size a
  h_S512x256 : 0 < S512x256.numel
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S128x64_S128x64_0_0 : ∀ a, (![0, 0] : Fin 2 → Nat) a + S128x64.size a ≤ S128x64.size a
  h_S128x64 : 0 < S128x64.numel
  scatter_S50000_S450000x1_S450000_n_0_0_1_wf : ScatterDims.WF S50000 S450000x1 S450000 [] [0] [0] 1
  dot_S2000x4_S4x256_S2000x256_1_0_0_1_n_n_wf : DotDims.WF S2000x4 S4x256 S2000x256 [1] [0] [0] [1] [] []
  dot_S2000x256_S256x256_S2000x256_1_0_0_1_n_n_wf : DotDims.WF S2000x256 S256x256 S2000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x16_S16x256_S128x256_1_0_0_1_n_n_wf : DotDims.WF S128x16 S16x256 S128x256 [1] [0] [0] [1] [] []
  dot_S128x512_S512x256_S128x256_1_0_0_1_n_n_wf : DotDims.WF S128x512 S512x256 S128x256 [1] [0] [0] [1] [] []
  dot_S128x256_S256x64_S128x64_1_0_0_1_n_n_wf : DotDims.WF S128x256 S256x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S50000x4.size a
  hwx0_0 : ∀ i : grid0.Coords, EltTy.bits .f32 = 32 ∨ (Rect.block (s := S50000x4) S2000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x256.size a
  hwx0_1 : ∀ i : grid0.Coords, EltTy.bits .f32 = 32 ∨ (Rect.block (s := S4x256) S4x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x16.size a ≤ S128x16.size a
  hwx3_0 : ∀ i : grid3.Coords, EltTy.bits .f32 = 32 ∨ (Rect.block (s := S128x16) S128x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x256.size a ≤ S16x256.size a
  hwx3_1 : ∀ i : grid3.Coords, EltTy.bits .f32 = 32 ∨ (Rect.block (s := S16x256) S16x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x512.size a ≤ S128x512.size a
  hwx4_0 : ∀ i : grid4.Coords, EltTy.bits .f32 = 32 ∨ (Rect.block (s := S128x512) S128x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x64.size a ≤ S256x64.size a
  hwx4_3 : ∀ i : grid4.Coords, EltTy.bits .f32 = 32 ∨ (Rect.block (s := S256x64) S256x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S2000x4_S4x256_S2000x256_1_0_0_1_n_n : DotDims S2000x4 S4x256 S2000x256 where
  lhsContracting := [1]
  rhsContracting := [0]
  lhsNonContracting := [0]
  rhsNonContracting := [1]
  lhsBatch := []
  rhsBatch := []
  wf := dot_S2000x4_S4x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x16_S16x256_S128x256_1_0_0_1_n_n : DotDims S128x16 S16x256 S128x256 where
  lhsContracting := [1]
  rhsContracting := [0]
  lhsNonContracting := [0]
  rhsNonContracting := [1]
  lhsBatch := []
  rhsBatch := []
  wf := dot_S128x16_S16x256_S128x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf

abbrev win0_0 : Pipeline.Window sig grid0 :=
  Pipeline.Window.ofSpec (Memref.whole main_arg0) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg3) S128x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S16x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S128x256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S128x512.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S256x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S128x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x4 : Shape := ⟨2, ![50000, 4]⟩
abbrev S2x400000 : Shape := ⟨2, ![2, 400000]⟩
abbrev S50000 : Shape := ⟨1, ![50000]⟩
abbrev S128x16 : Shape := ⟨2, ![128, 16]⟩
abbrev S400000 : Shape := ⟨1, ![400000]⟩
abbrev S4x256 : Shape := ⟨2, ![4, 256]⟩
abbrev S256 : Shape := ⟨1, ![256]⟩
abbrev S256x256 : Shape := ⟨2, ![256, 256]⟩
abbrev S16x256 : Shape := ⟨2, ![16, 256]⟩
abbrev S512x256 : Shape := ⟨2, ![512, 256]⟩
abbrev S256x64 : Shape := ⟨2, ![256, 64]⟩
abbrev S64 : Shape := ⟨1, ![64]⟩
abbrev S1x400000 : Shape := ⟨2, ![1, 400000]⟩
abbrev S50000x256 : Shape := ⟨2, ![50000, 256]⟩
abbrev S1x256 : Shape := ⟨2, ![1, 256]⟩
abbrev S_ : Shape := ⟨0, ![]⟩
abbrev S450000 : Shape := ⟨1, ![450000]⟩
abbrev S450000x1 : Shape := ⟨2, ![450000, 1]⟩
abbrev S450000x256 : Shape := ⟨2, ![450000, 256]⟩
abbrev S128x256 : Shape := ⟨2, ![128, 256]⟩
abbrev S50000x1 : Shape := ⟨2, ![50000, 1]⟩
abbrev S128 : Shape := ⟨1, ![128]⟩
abbrev S128x1 : Shape := ⟨2, ![128, 1]⟩
abbrev S128x512 : Shape := ⟨2, ![128, 512]⟩
abbrev S128x64 : Shape := ⟨2, ![128, 64]⟩
abbrev S1x64 : Shape := ⟨2, ![1, 64]⟩

abbrev nBuf : Space → Nat
  | .hbm => 185
  | .vmem => 0
  | .smem => 0
  | _ => 0

abbrev hbmTy0_0 (i : Nat) : BufTy := match i % 128 with
  | 0 => ⟨S50000x4, .f32⟩
  | 1 => ⟨S2x400000, .i32⟩
  | 2 => ⟨S50000, .i32⟩
  | 3 => ⟨S128x16, .f32⟩
  | 4 => ⟨S400000, .f32⟩
  | 5 => ⟨S4x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S16x256, .f32⟩
  | 12 => ⟨S256, .f32⟩
  | 13 => ⟨S512x256, .f32⟩
  | 14 => ⟨S256, .f32⟩
  | 15 => ⟨S256x64, .f32⟩
  | 16 => ⟨S64, .f32⟩
  | 17 => ⟨S1x400000, .i32⟩
  | 18 => ⟨S400000, .i32⟩
  | 19 => ⟨S1x400000, .i32⟩
  | 20 => ⟨S400000, .i32⟩
  | 21 => ⟨S50000x256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .f32⟩
  | 28 => ⟨S50000x256, .f32⟩
  | 29 => ⟨S50000, .i32⟩
  | 30 => ⟨S450000, .i32⟩
  | 31 => ⟨S450000, .i32⟩
  | 32 => ⟨S_, .f32⟩
  | 33 => ⟨S50000, .f32⟩
  | 34 => ⟨S450000, .f32⟩
  | 35 => ⟨S_, .f32⟩
  | 36 => ⟨S50000, .f32⟩
  | 37 => ⟨S450000x1, .i32⟩
  | 38 => ⟨S50000, .f32⟩
  | 39 => ⟨S_, .f32⟩
  | 40 => ⟨S50000, .f32⟩
  | 41 => ⟨S50000, .i1⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S450000, .i32⟩
  | 49 => ⟨S450000, .i1⟩
  | 50 => ⟨S_, .i32⟩
  | 51 => ⟨S450000, .i32⟩
  | 52 => ⟨S450000, .i32⟩
  | 53 => ⟨S450000, .i32⟩
  | 54 => ⟨S450000x1, .i32⟩
  | 55 => ⟨S450000, .f32⟩
  | 56 => ⟨S450000, .f32⟩
  | 57 => ⟨S_, .i32⟩
  | 58 => ⟨S450000, .i32⟩
  | 59 => ⟨S450000, .i1⟩
  | 60 => ⟨S_, .i32⟩
  | 61 => ⟨S450000, .i32⟩
  | 62 => ⟨S450000, .i32⟩
  | 63 => ⟨S450000, .i32⟩
  | 64 => ⟨S450000x1, .i32⟩
  | 65 => ⟨S450000, .f32⟩
  | 66 => ⟨S450000, .f32⟩
  | 67 => ⟨S450000x1, .f32⟩
  | 68 => ⟨S_, .i32⟩
  | 69 => ⟨S450000, .i32⟩
  | 70 => ⟨S450000, .i1⟩
  | 71 => ⟨S_, .i32⟩
  | 72 => ⟨S450000, .i32⟩
  | 73 => ⟨S450000, .i32⟩
  | 74 => ⟨S450000, .i32⟩
  | 75 => ⟨S450000x1, .i32⟩
  | 76 => ⟨S450000x256, .f32⟩
  | 77 => ⟨S450000x256, .f32⟩
  | 78 => ⟨S450000x256, .f32⟩
  | 79 => ⟨S_, .f32⟩
  | 80 => ⟨S50000x256, .f32⟩
  | 81 => ⟨S450000x1, .i32⟩
  | 82 => ⟨S50000x256, .f32⟩
  | 83 => ⟨S1x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S50000x256, .f32⟩
  | 90 => ⟨S50000, .i32⟩
  | 91 => ⟨S450000, .i32⟩
  | 92 => ⟨S450000, .i32⟩
  | 93 => ⟨S_, .f32⟩
  | 94 => ⟨S50000, .f32⟩
  | 95 => ⟨S450000, .f32⟩
  | 96 => ⟨S_, .f32⟩
  | 97 => ⟨S50000, .f32⟩
  | 98 => ⟨S450000x1, .i32⟩
  | 99 => ⟨S50000, .f32⟩
  | 100 => ⟨S_, .f32⟩
  | 101 => ⟨S50000, .f32⟩
  | 102 => ⟨S50000, .i1⟩
  | 103 => ⟨S50000, .f32⟩
  | 104 => ⟨S_, .f32⟩
  | 105 => ⟨S_, .f32⟩
  | 106 => ⟨S50000, .f32⟩
  | 107 => ⟨S50000, .f32⟩
  | 108 => ⟨S_, .i32⟩
  | 109 => ⟨S450000, .i32⟩
  | 110 => ⟨S450000, .i1⟩
  | 111 => ⟨S_, .i32⟩
  | 112 => ⟨S450000, .i32⟩
  | 113 => ⟨S450000, .i32⟩
  | 114 => ⟨S450000, .i32⟩
  | 115 => ⟨S450000x1, .i32⟩
  | 116 => ⟨S450000, .f32⟩
  | 117 => ⟨S450000, .f32⟩
  | 118 => ⟨S_, .i32⟩
  | 119 => ⟨S450000, .i32⟩
  | 120 => ⟨S450000, .i1⟩
  | 121 => ⟨S_, .i32⟩
  | 122 => ⟨S450000, .i32⟩
  | 123 => ⟨S450000, .i32⟩
  | 124 => ⟨S450000, .i32⟩
  | 125 => ⟨S450000x1, .i32⟩
  | 126 => ⟨S450000, .f32⟩
  | 127 => ⟨S450000, .f32⟩
  | _ => ⟨S50000x4, .f32⟩

abbrev hbmTy0_1 (i : Nat) : BufTy := match i % 128 with
  | 0 => ⟨S450000x1, .f32⟩
  | 1 => ⟨S_, .i32⟩
  | 2 => ⟨S450000, .i32⟩
  | 3 => ⟨S450000, .i1⟩
  | 4 => ⟨S_, .i32⟩
  | 5 => ⟨S450000, .i32⟩
  | 6 => ⟨S450000, .i32⟩
  | 7 => ⟨S450000, .i32⟩
  | 8 => ⟨S450000x1, .i32⟩
  | 9 => ⟨S450000x256, .f32⟩
  | 10 => ⟨S450000x256, .f32⟩
  | 11 => ⟨S450000x256, .f32⟩
  | 12 => ⟨S_, .f32⟩
  | 13 => ⟨S50000x256, .f32⟩
  | 14 => ⟨S450000x1, .i32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S_, .f32⟩
  | 23 => ⟨S128x256, .f32⟩
  | 24 => ⟨S50000x1, .i32⟩
  | 25 => ⟨S128x256, .f32⟩
  | 26 => ⟨S_, .f32⟩
  | 27 => ⟨S50000, .f32⟩
  | 28 => ⟨S_, .f32⟩
  | 29 => ⟨S128, .f32⟩
  | 30 => ⟨S50000x1, .i32⟩
  | 31 => ⟨S128, .f32⟩
  | 32 => ⟨S_, .f32⟩
  | 33 => ⟨S128, .f32⟩
  | 34 => ⟨S128, .f32⟩
  | 35 => ⟨S128x1, .f32⟩
  | 36 => ⟨S128x256, .f32⟩
  | 37 => ⟨S128x256, .f32⟩
  | 38 => ⟨S128x256, .f32⟩
  | 39 => ⟨S1x256, .f32⟩
  | 40 => ⟨S128x256, .f32⟩
  | 41 => ⟨S128x256, .f32⟩
  | 42 => ⟨S_, .f32⟩
  | 43 => ⟨S128x256, .f32⟩
  | 44 => ⟨S128x256, .f32⟩
  | 45 => ⟨S128x512, .f32⟩
  | 46 => ⟨S128x256, .f32⟩
  | 47 => ⟨S1x256, .f32⟩
  | 48 => ⟨S128x256, .f32⟩
  | 49 => ⟨S128x256, .f32⟩
  | 50 => ⟨S_, .f32⟩
  | 51 => ⟨S128x256, .f32⟩
  | 52 => ⟨S128x256, .f32⟩
  | 53 => ⟨S128x64, .f32⟩
  | 54 => ⟨S1x64, .f32⟩
  | 55 => ⟨S128x64, .f32⟩
  | 56 => ⟨S128x64, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_v21 : Ref sig .tc := ⟨.hbm, 46, rfl⟩
abbrev main_c : Ref sig .tc := ⟨.hbm, 47, rfl⟩
abbrev main_v22 : Ref sig .tc := ⟨.hbm, 48, rfl⟩
abbrev main_v23 : Ref sig .tc := ⟨.hbm, 49, rfl⟩
abbrev main_c_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_4 : Ref sig .tc := ⟨.hbm, 57, rfl⟩
abbrev main_v30 : Ref sig .tc := ⟨.hbm, 58, rfl⟩
abbrev main_v31 : Ref sig .tc := ⟨.hbm, 59, rfl⟩
abbrev main_c_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_6 : Ref sig .tc := ⟨.hbm, 68, rfl⟩
abbrev main_v39 : Ref sig .tc := ⟨.hbm, 69, rfl⟩
abbrev main_v40 : Ref sig .tc := ⟨.hbm, 70, rfl⟩
abbrev main_c_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_8 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call2_cst : Ref sig .tc := ⟨.hbm, 86, rfl⟩
abbrev main_call2_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_cst_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_12 : Ref sig .tc := ⟨.hbm, 104, rfl⟩
abbrev main_call3_v0 : Ref sig .tc := ⟨.hbm, 105, rfl⟩
abbrev main_call3_v1 : Ref sig .tc := ⟨.hbm, 106, rfl⟩
abbrev main_v67 : Ref sig .tc := ⟨.hbm, 107, rfl⟩
abbrev main_c_13 : Ref sig .tc := ⟨.hbm, 108, rfl⟩
abbrev main_v68 : Ref sig .tc := ⟨.hbm, 109, rfl⟩
abbrev main_v69 : Ref sig .tc := ⟨.hbm, 110, rfl⟩
abbrev main_c_14 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_15 : Ref sig .tc := ⟨.hbm, 118, rfl⟩
abbrev main_v76 : Ref sig .tc := ⟨.hbm, 119, rfl⟩
abbrev main_v77 : Ref sig .tc := ⟨.hbm, 120, rfl⟩
abbrev main_c_16 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_17 : Ref sig .tc := ⟨.hbm, 129, rfl⟩
abbrev main_v85 : Ref sig .tc := ⟨.hbm, 130, rfl⟩
abbrev main_v86 : Ref sig .tc := ⟨.hbm, 131, rfl⟩
abbrev main_c_18 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_19 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_call4_cst : Ref sig .tc := ⟨.hbm, 147, rfl⟩
abbrev main_call4_v0 : Ref sig .tc := ⟨.hbm, 148, rfl⟩
abbrev main_v100 : Ref sig .tc := ⟨.hbm, 149, rfl⟩
abbrev main_cst_20 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_21 : Ref sig .tc := ⟨.hbm, 154, rfl⟩
abbrev main_v104 : Ref sig .tc := ⟨.hbm, 155, rfl⟩
abbrev main_cst_22 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_23 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_call5_cst : Ref sig .tc := ⟨.hbm, 170, rfl⟩
abbrev main_call5_v0 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_call6_cst : Ref sig .tc := ⟨.hbm, 178, rfl⟩
abbrev main_call6_v0 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  concatenates_S400000_S50000_S450000_d0 : Shape.Concatenates [S400000, S50000] S450000 0
  bcast_S_S50000 : S_.BroadcastsInDim S50000 (![] : Fin 0 → Fin S50000.rank)
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x256_0_1 : S450000x1.BroadcastsInDim S450000x256 (![0, 1] : Fin 2 → Fin S450000x256.rank)
  bcast_S_S128x256 : S_.BroadcastsInDim S128x256 (![] : Fin 0 → Fin S128x256.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S1x256_S128x256_0_1 : S1x256.BroadcastsInDim S128x256 (![0, 1] : Fin 2 → Fin S128x256.rank)
  concatenates_S128x256_S128x256_S128x512_d1 : Shape.Concatenates [S128x256, S128x256] S128x512 1
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  dot_S50000x4_S4x256_S50000x256_1_0_0_1_n_n_wf : DotDims.WF S50000x4 S4x256 S50000x256 [1] [0] [0] [1] [] []
  dot_S50000x256_S256x256_S50000x256_1_0_0_1_n_n_wf : DotDims.WF S50000x256 S256x256 S50000x256 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x16_S16x256_S128x256_1_0_0_1_n_n_wf : DotDims.WF S128x16 S16x256 S128x256 [1] [0] [0] [1] [] []
  dot_S128x512_S512x256_S128x256_1_0_0_1_n_n_wf : DotDims.WF S128x512 S512x256 S128x256 [1] [0] [0] [1] [] []
  dot_S128x256_S256x64_S128x64_1_0_0_1_n_n_wf : DotDims.WF S128x256 S256x64 S128x64 [1] [0] [0] [1] [] []

variable [Facts₀]

def dot_S50000x4_S4x256_S50000x256_1_0_0_1_n_n : DotDims S50000x4 S4x256 S50000x256 where
  lhsContracting := [1]
  rhsContracting := [0]
  lhsNonContracting := [0]
  rhsNonContracting := [1]
  lhsBatch := []
  rhsBatch := []
  wf := dot_S50000x4_S4x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x16_S16x256_S128x256_1_0_0_1_n_n : DotDims S128x16 S16x256 S128x256 where
  lhsContracting := [1]
  rhsContracting := [0]
  lhsNonContracting := [0]
  rhsNonContracting := [1]
  lhsBatch := []
  rhsBatch := []
  wf := dot_S128x16_S16x256_S128x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf

class Facts : Prop extends Facts₀ where

variable [Facts]
-- ==== Proof.KernelRun.lean ====
/-
  The kernel program's run with its RESULT named.

  The program is five pipelined regions among seven stretches of host operations. Every weakly fair execution from a
  memory with zero counters terminates without a fault, and in every final state each unscoped buffer of a core holds
  what the fold of the segments leaves there: a stretch of host operations applies its operations to the contents it
  finds, a region leaves in each of its arrays what its write-backs leave and keeps every other buffer. Read at the
  result buffer this names the program's result as `W12 m ρ c` at that buffer, beside the seventeen argument arrays,
  which end as launched.
-/
import proofs.«105699_j61710090109663_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; in the final state the result buffer holds
    the fold's contents at it and every argument array is as launched. -/
theorem run_value : θ_run defs (onTc (τ := τ) (main (F := F))) ⟨m, fun _ => 0, ρ⟩ (fun r => ∀ c : Dev nD,
      r.2.mem ((c.tc : Thread nD τ).loc main_v68) = W12 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v68 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.RunValue

end
-- ==== Proof.LibRowGatherScatter.lean ====
/-
  TAKING ROWS OF A TABLE BY AN INDEX VECTOR, AND ADDING ROWS INTO A TABLE BY AN INDEX VECTOR, read at an index.

  For a table x of N rows and K columns and a vector idx of E integer row numbers (held as an E x 1 array of words of
  any width):

  * the gather whose dimension numbers keep the column axis as the one offset axis, collapse the row axis, map the one
    start-index component to the row axis and slice 1 x K — what H[idx] of a two-axis table is — has, at (e, c), the value
    x (clamp (idx e), c): the row number is read as a signed integer and clamped into [0, N - 1], the column is kept
    (rowGather_apply);

  * the scatter whose dimension numbers take the column axis as the one update window axis, insert the row axis and map
    the one index component to the row axis — what .at[idx].add(u) of a two-axis table is — sends update element (e, c)
    to table element (idx e, c) when 0 <= idx e < N, the row number read signed and NOT clamped, and drops it otherwise
    (rowDst, rowScatter_resultIdx); so the accumulating scatter at the extended reals is, at (r, c),
    x (r, c) + the sum of u (e, c) over the positions e whose row number is r (hostScatterAdd_row_apply).

  Last, a law of finite sums of reals seen in the extended reals: weighting rows by scalars and summing commutes with a
  matrix product, sum_e v e * (sum_k a e k * b k) = sum_k (sum_e v e * a e k) * b k, every term being a real
  (sum_mul_sum_coe_comm; coe_finset_sum is the coercion of a finite real sum).
-/
import Idealize.ShloMosaic.PureOps.Ideal.Laws
import Idealize.ShloMosaic.Lib.ValueIdx

noncomputable section

open scoped BigOperators

namespace Idealize.ShloMosaic.ValueIdx

open Idealize.ShloMosaic

/-! ## Rows of a table taken by an index vector -/

section RowGather
variable {α : Type}

/-- The gather dimension numbers of `x[idx]` for a table `x : [N, K]` and row numbers `idx : [E, 1]`, result `[E, K]`:
    offset axis the result's column axis, the row axis collapsed and the target of the one start-index component, index
    vector on the indices' second axis, slices `1 × K`; their conditions `wf` are decided on literal shapes. -/
abbrev rowGatherDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE GATHER READ AT `(e, c)`: the table at row `idx[e, 0]`, read signed and clamped into `[0, N − 1]`, and column `c`. -/
theorem rowGather_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (c : Fin K) :
    Host.gather (rowGatherDims N E K wf) x idx (ix2 e c)
      = x (ix2 (⟨min (idx (ix2 e (0 : Fin 1))).toInt.toNat (N - 1), by omega⟩ : Fin N) c) := by
  have h0 : (rowGatherDims N E K wf).start (ix2 e c) idx (0 : Fin 2) + (rowGatherDims N E K wf).batchCoord (ix2 e c) (0 : Fin 2)
      + (rowGatherDims N E K wf).offCoord (ix2 e c) (0 : Fin 2) = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E K wf).startIndexMap from List.mem_singleton.mpr rfl)]
    have hsi : (rowGatherDims N E K wf).siIdx (ix2 e c) ⟨List.idxOf (0 : Fin 2) (rowGatherDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowGatherDims N E K wf).start (ix2 e c) idx (1 : Fin 2) + (rowGatherDims N E K wf).batchCoord (ix2 e c) (1 : Fin 2)
      + (rowGatherDims N E K wf).offCoord (ix2 e c) (1 : Fin 2) = c.val := by
    rw [GatherDims.batchCoord_eq_zero _ _ _ List.not_mem_nil]
    have hs : (rowGatherDims N E K wf).start (ix2 e c) idx (1 : Fin 2) = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl
  unfold Host.gather
  congr 1
  funext a
  refine Fin.ext ?_
  match a with
  | ⟨0, _⟩ => exact h0
  | ⟨1, _⟩ => exact h1

end RowGather

/-! ## Rows added into a table by an index vector -/

section RowScatter

/-- The scatter dimension numbers of `x.at[idx].add(u)` for a table `x : [N, K]`, row numbers `idx : [E, 1]` and updates
    `u : [E, K]`: update window axis the updates' column axis, the row axis inserted and the target of the one index
    component, index vector on the indices' second axis; their conditions `wf` are decided on literal shapes. -/
abbrev rowScatterDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- The table row update position `e` goes to: `idx[e, 0]` read as a signed integer when that is in `[0, N)`, none
    otherwise (no clamping: an update outside the table is dropped). -/
def rowDst {E w : Nat} (N : Nat) (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

/-- On the row axis the window starts at the row number, read signed. -/
theorem rowScatter_start0 {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).start (ix2 e c) idx (0 : Fin 2) = (idx (ix2 e (0 : Fin 1))).toInt := by
  unfold ScatterDims.start
  rw [dif_pos (show (0 : Fin 2) ∈ (rowScatterDims N E K wf).scatterDimsToOperandDims from List.mem_singleton.mpr rfl)]
  have hsi : (rowScatterDims N E K wf).siIdx (ix2 e c) ⟨List.idxOf (0 : Fin 2) (rowScatterDims N E K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowScatter_start1 {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).start (ix2 e c) idx (1 : Fin 2) = 0 := by
  unfold ScatterDims.start
  rw [dif_neg (show (1 : Fin 2) ∉ ([0] : List (Fin 2)) by decide)]

/-- On the row axis (inserted) the window coordinate is 0. -/
theorem rowScatter_window0 {N E K : Nat} (wf : ScatterDims.WF ⟨2, ![N, K]⟩ ⟨2, ![E, 1]⟩ ⟨2, ![E, K]⟩ [1] [0] [0] 1)
    (e : Fin E) (c : Fin K) :
    (rowScatterDims N E K wf).window (ix2 e c) (0 : Fin 2) = 0 := by
  unfold ScatterDims.window
  rw [dif_neg (show (0 : Fin 2) ∉ (rowScatterDims N E K wf).sKept by simp [ScatterDims.sKept, Shape.kept, List.mem_filter])]

/-- On the column axis the window coordinate is the update's column. -/
theorem rowScatter_window1 {N E K : Nat} (wf : ScatterDims.WF ⟨2, ![N, K]⟩ ⟨2, ![E, 1]⟩ ⟨2, ![E, K]⟩ [1] [0] [0] 1)
    (e : Fin E) (c : Fin K) :
    (rowScatterDims N E K wf).window (ix2 e c) (1 : Fin 2) = c.val := by
  unfold ScatterDims.window
  rw [dif_pos (show (1 : Fin 2) ∈ (rowScatterDims N E K wf).sKept by simp [ScatterDims.sKept, Shape.kept, List.mem_filter, List.mem_finRange])]
  rfl

/-- WHERE UPDATE ELEMENT `(e, c)` LANDS: at `(r, c)` when position `e`'s row number is a row `r` of the table, nowhere
    otherwise. -/
theorem rowScatter_resultIdx {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).resultIdx? (ix2 e c) idx = (rowDst N idx e).map (fun r => ix2 r c) := by
  have hs0 := rowScatter_start0 wf idx e c
  have hs1 := rowScatter_start1 wf idx e c
  have hw0 := rowScatter_window0 wf e c
  have hw1 := rowScatter_window1 wf e c
  have hc := c.isLt
  unfold ScatterDims.resultIdx? rowDst
  by_cases h : 0 ≤ (idx (ix2 e (0 : Fin 1))).toInt ∧ (idx (ix2 e (0 : Fin 1))).toInt < N
  · have hall : ∀ a : Fin 2, 0 ≤ (rowScatterDims N E K wf).start (ix2 e c) idx a + ((rowScatterDims N E K wf).window (ix2 e c) a : Int) ∧
        (rowScatterDims N E K wf).start (ix2 e c) idx a + ((rowScatterDims N E K wf).window (ix2 e c) a : Int)
          < ((⟨2, ![N, K]⟩ : Shape).size a : Int) := by
      intro a
      match a with
      | ⟨0, _⟩ =>
        show 0 ≤ (rowScatterDims N E K wf).start (ix2 e c) idx (0 : Fin 2) + ((rowScatterDims N E K wf).window (ix2 e c) (0 : Fin 2) : Int) ∧
          (rowScatterDims N E K wf).start (ix2 e c) idx (0 : Fin 2) + ((rowScatterDims N E K wf).window (ix2 e c) (0 : Fin 2) : Int) < (N : Int)
        rw [hs0, hw0]; omega
      | ⟨1, _⟩ =>
        show 0 ≤ (rowScatterDims N E K wf).start (ix2 e c) idx (1 : Fin 2) + ((rowScatterDims N E K wf).window (ix2 e c) (1 : Fin 2) : Int) ∧
          (rowScatterDims N E K wf).start (ix2 e c) idx (1 : Fin 2) + ((rowScatterDims N E K wf).window (ix2 e c) (1 : Fin 2) : Int) < (K : Int)
        rw [hs1, hw1]; omega
    rw [dif_pos hall, dif_pos h]
    simp only [Option.map_some]
    congr 1
    funext a
    refine Fin.ext ?_
    match a with
    | ⟨0, _⟩ =>
      show ((rowScatterDims N E K wf).start (ix2 e c) idx (0 : Fin 2) + ((rowScatterDims N E K wf).window (ix2 e c) (0 : Fin 2) : Int)).toNat
        = (idx (ix2 e (0 : Fin 1))).toInt.toNat
      rw [hs0, hw0]; simp
    | ⟨1, _⟩ =>
      show ((rowScatterDims N E K wf).start (ix2 e c) idx (1 : Fin 2) + ((rowScatterDims N E K wf).window (ix2 e c) (1 : Fin 2) : Int)).toNat
        = c.val
      rw [hs1, hw1]; simp
  · have hnall : ¬ ∀ a : Fin 2, 0 ≤ (rowScatterDims N E K wf).start (ix2 e c) idx a + ((rowScatterDims N E K wf).window (ix2 e c) a : Int) ∧
        (rowScatterDims N E K wf).start (ix2 e c) idx a + ((rowScatterDims N E K wf).window (ix2 e c) a : Int)
          < ((⟨2, ![N, K]⟩ : Shape).size a : Int) := by
      intro hall
      have h0 := hall (0 : Fin 2)
      rw [hs0, hw0] at h0
      apply h
      have : ((⟨2, ![N, K]⟩ : Shape).size (0 : Fin 2) : Int) = (N : Int) := rfl
      rw [this] at h0
      omega
    rw [dif_neg hnall, dif_neg h]
    rfl

end RowScatter

section RowScatterAdd

/-- Two rank-2 indices given by coordinates are equal exactly when the coordinates are. -/
theorem ix2_eq_ix2 {n0 n1 : Nat} (a a' : Fin n0) (b b' : Fin n1) : ix2 a b = ix2 a' b' ↔ a = a' ∧ b = b' := by
  constructor
  · intro h; exact ⟨congrFun h 0, congrFun h 1⟩
  · rintro ⟨rfl, rfl⟩; rfl

/-- THE ACCUMULATING SCATTER READ AT `(r, c)`: the table's element plus the updates' column-`c` elements at the positions
    whose row number is `r`. -/
theorem hostScatterAdd_row_apply {N E K w : Nat} (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w) (upd : (⟨2, ![E, K]⟩ : Shape).Idx → EReal)
    (r : Fin N) (c : Fin K) :
    Ideal.hostScatterAdd (rowScatterDims N E K wf) x idx upd (ix2 r c)
      = x (ix2 r c) + ∑ e ∈ Finset.univ.filter (fun e : Fin E => rowDst N idx e = some r), upd (ix2 e c) := by
  unfold Ideal.hostScatterAdd
  congr 1
  rw [Finset.sum_filter, sum_idx2, Finset.sum_filter]
  refine Finset.sum_congr rfl fun e _ => ?_
  have key : ∀ b : Fin K, ((rowScatterDims N E K wf).resultIdx? (ix2 e b) idx = some (ix2 r c)) ↔ (rowDst N idx e = some r ∧ b = c) := by
    intro b
    rw [rowScatter_resultIdx]
    cases rowDst N idx e with
    | none => simp
    | some r' =>
      simp only [Option.map_some, Option.some.injEq]
      exact ix2_eq_ix2 r' r b c
  simp only [key]
  by_cases hr : rowDst N idx e = some r
  · simp only [hr, true_and, if_true, Finset.sum_ite_eq', Finset.mem_univ]
  · simp only [hr, false_and, if_false, Finset.sum_const_zero]

end RowScatterAdd

/-! ## Weighting rows and summing commutes with a matrix product -/

section WeightedRows

/-- The coercion of a finite sum of reals is the sum of the coercions. -/
theorem coe_finset_sum {ι : Type*} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- Rows `a e` weighted by reals `v e` and summed over `e ∈ s`, then multiplied into `b`, is the sum over `e ∈ s` of
    `v e` times the product of row `a e` with `b`: every term is a real, where the sums and products commute. -/
theorem sum_mul_sum_coe_comm {ι κ : Type*} [Fintype κ] (s : Finset ι) (v : ι → ℝ) (a : ι → κ → ℝ) (b : κ → ℝ) :
    (∑ e ∈ s, ((v e : ℝ) : EReal) * ∑ k, ((a e k : ℝ) : EReal) * ((b k : ℝ) : EReal))
      = ∑ k, (∑ e ∈ s, ((v e : ℝ) : EReal) * ((a e k : ℝ) : EReal)) * ((b k : ℝ) : EReal) := by
  simp only [← EReal.coe_mul, ← coe_finset_sum]
  congr 1
  simp only [Finset.mul_sum, Finset.sum_mul]
  rw [Finset.sum_comm]
  refine Finset.sum_congr rfl fun k _ => Finset.sum_congr rfl fun e _ => ?_
  ring

/-- The same with a leading `0 +` on each sum over `s`. -/
theorem zero_add_sum_mul_sum_coe_comm {ι κ : Type*} [Fintype κ] (s : Finset ι) (v : ι → ℝ) (a : ι → κ → ℝ) (b : κ → ℝ) :
    (0 + ∑ e ∈ s, ((v e : ℝ) : EReal) * ∑ k, ((a e k : ℝ) : EReal) * ((b k : ℝ) : EReal))
      = ∑ k, (0 + ∑ e ∈ s, ((v e : ℝ) : EReal) * ((a e k : ℝ) : EReal)) * ((b k : ℝ) : EReal) := by
  simp only [zero_add]
  exact sum_mul_sum_coe_comm s v a b

end WeightedRows

end Idealize.ShloMosaic.ValueIdx

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.LibRowAggregate.lean ====
/-
  AGGREGATING ROWS OF A TABLE ALONG AN EDGE LIST, read at an index, and its commuting with a matrix product.

  Given E positions, each with a destination row number row e, a source row number coln e and a real weight val e, and a
  table H of N rows and K columns, the aggregation is the table of N rows and K columns that starts as a constant and
  receives, for every position e whose destination is a row of the table, val e times row coln e of H (the source row
  number clamped into [0, N - 1]) added into row row e. It is spelled: broadcast the constant to N x K; place row and
  coln as E x 1 columns; take the rows of H by coln; scale them by val placed as an E x 1 column and broadcast along the
  columns; add them into the constant table by row (rowAgg).

  * At (n, c) it is the constant plus the sum, over the positions e with row e = n, of val e * H (clamp (coln e), c)
    (rowAgg_apply).

  * For real-valued val, x and W and the constant zero, aggregating the rows of the product x W is aggregating the rows
    of x and then multiplying by W:
      rowAgg (x W) (n, c) = sum_k rowAgg x (n, k) * W (k, c)
    since every quantity is a real, where finite sums and products commute (rowAgg_linear).
-/
import proofs.«105699_j61710090109663_2_alg».proof.Proof.LibRowGatherScatter
import proofs.«105699_j61710090109663_2_alg».proof.Proof.LibBroadcastInDim

noncomputable section

open scoped BigOperators

namespace Idealize.ShloMosaic.ValueIdx

open Idealize.ShloMosaic

/-! ## The aggregation -/

section RowAggregate

/-- The edge-list aggregation: into a table filled with the constant `zero`, add at row `row e` the row `coln e` of `H`
    (the row number clamped into the table) scaled by `val e`, for every position `e` whose `row e` is a row of the table. -/
def rowAgg {N E K w : Nat}
    (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (h0 : (⟨0, ![]⟩ : Shape).BroadcastsInDim ⟨2, ![N, K]⟩ ![])
    (hE : (⟨1, ![E]⟩ : Shape).BroadcastsInDim ⟨2, ![E, 1]⟩ ![0])
    (hU : (⟨2, ![E, 1]⟩ : Shape).BroadcastsInDim ⟨2, ![E, K]⟩ ![0, 1])
    (zero : BitVec 32) (row coln : IVec ⟨1, ![E]⟩ w) (val : FVec Ideal ⟨1, ![E]⟩ .f32) (H : FVec Ideal ⟨2, ![N, K]⟩ .f32) :
    FVec Ideal ⟨2, ![N, K]⟩ .f32 :=
  Host.scatterAdd (F := Ideal) (rowScatterDims N E K wfs)
    (broadcastInDim ⟨2, ![N, K]⟩ ![] h0 (constant (F := Ideal) ⟨0, ![]⟩ .f32 zero))
    (broadcastInDim ⟨2, ![E, 1]⟩ ![0] hE row)
    (mulf (broadcastInDim ⟨2, ![E, K]⟩ ![0, 1] hU (broadcastInDim ⟨2, ![E, 1]⟩ ![0] hE val))
      (Host.gather (rowGatherDims N E K wfg) H (broadcastInDim ⟨2, ![E, 1]⟩ ![0] hE coln)))

/-- THE AGGREGATION READ AT `(n, c)`: the constant plus, over the positions `e` whose `row e` is `n`, `val e` times `H` at
    row `coln e` (clamped) and column `c`. -/
theorem rowAgg_apply {N E K w : Nat} (hN : 0 < N)
    (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (h0 : (⟨0, ![]⟩ : Shape).BroadcastsInDim ⟨2, ![N, K]⟩ ![])
    (hE : (⟨1, ![E]⟩ : Shape).BroadcastsInDim ⟨2, ![E, 1]⟩ ![0])
    (hU : (⟨2, ![E, 1]⟩ : Shape).BroadcastsInDim ⟨2, ![E, K]⟩ ![0, 1])
    (zero : BitVec 32) (row coln : IVec ⟨1, ![E]⟩ w) (val : FVec Ideal ⟨1, ![E]⟩ .f32) (H : FVec Ideal ⟨2, ![N, K]⟩ .f32)
    (n : Fin N) (c : Fin K) :
    rowAgg wfg wfs h0 hE hU zero row coln val H (ix2 n c)
      = Ideal.ofBits .f32 zero + ∑ e ∈ Finset.univ.filter (fun e : Fin E => rowDst N (broadcastInDim ⟨2, ![E, 1]⟩ ![0] hE row) e = some n),
          (val (ix1 e) : EReal) * (H (ix2 (⟨min ((broadcastInDim ⟨2, ![E, 1]⟩ ![0] hE coln) (ix2 e (0 : Fin 1))).toInt.toNat (N - 1), by omega⟩ : Fin N) c) : EReal) := by
  unfold rowAgg Host.scatterAdd
  rw [Ideal.hostScatterAdd_def, hostScatterAdd_row_apply, broadcastInDim_scalar_apply, constant_apply]
  congr 1
  refine Finset.sum_congr rfl fun e _ => ?_
  rw [mulf_apply, broadcastInDim_col_mat_apply, broadcastInDim_vec_col_apply, rowGather_apply hN]

/-- AGGREGATION COMMUTES WITH A MATRIX PRODUCT ON THE RIGHT, for real data: aggregating the rows of `x · W` into the zero
    table is aggregating the rows of `x` and then multiplying by `W`. -/
theorem rowAgg_linear {N E K w : Nat}
    (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (h0 : (⟨0, ![]⟩ : Shape).BroadcastsInDim ⟨2, ![N, K]⟩ ![])
    (hE : (⟨1, ![E]⟩ : Shape).BroadcastsInDim ⟨2, ![E, 1]⟩ ![0])
    (hU : (⟨2, ![E, 1]⟩ : Shape).BroadcastsInDim ⟨2, ![E, K]⟩ ![0, 1])
    (row coln : IVec ⟨1, ![E]⟩ w) (val : FVec Ideal ⟨1, ![E]⟩ .f32)
    (x : FVec Ideal ⟨2, ![N, K]⟩ .f32) (W : (⟨2, ![K, K]⟩ : Shape).Idx → EReal)
    (hv : ∀ i, ∃ a : ℝ, (val i : EReal) = a) (hx : ∀ i, ∃ a : ℝ, (x i : EReal) = a) (hW : ∀ i, ∃ a : ℝ, (W i : EReal) = a)
    (n : Fin N) (c : Fin K) :
    rowAgg wfg wfs h0 hE hU 0x00000000#32 row coln val (fun o => ∑ k : Fin K, (x (ix2 (o 0) k) : EReal) * W (ix2 k (o 1))) (ix2 n c)
      = ∑ k : Fin K, (rowAgg wfg wfs h0 hE hU 0x00000000#32 row coln val x (ix2 n k) : EReal) * W (ix2 k c) := by
  have hN : 0 < N := Nat.lt_of_le_of_lt (Nat.zero_le _) n.isLt
  choose v hv using hv
  choose xr hx using hx
  choose Wr hW using hW
  simp only [rowAgg_apply hN, Ideal.ofBits_zero_f32]
  have key := zero_add_sum_mul_sum_coe_comm
    (Finset.univ.filter (fun e : Fin E => rowDst N (broadcastInDim ⟨2, ![E, 1]⟩ ![0] hE row) e = some n))
    (fun e => v (ix1 e))
    (fun e k => xr (ix2 (⟨min ((broadcastInDim ⟨2, ![E, 1]⟩ ![0] hE coln) (ix2 e (0 : Fin 1))).toInt.toNat (N - 1), by omega⟩ : Fin N) k))
    (fun k => Wr (ix2 k c))
  simp only [← hv, ← hx, ← hW] at key
  exact key

end RowAggregate

end Idealize.ShloMosaic.ValueIdx

end
-- ==== Proof.LibVecGather.lean ====
/-
  READING A ONE-AXIS TABLE BY AN INDEX VECTOR, THE RECIPROCAL SQUARE ROOT OF A POSITIVE EXTENDED REAL, A NONNEGATIVE REAL
  FACTOR THROUGH A FINITE SUM, AND THE WRAP OF A NEGATIVE INDEX, each read at an index.

  * For a table x of N entries and a vector idx of E integer positions (held as an E x 1 array of words of any width),
    the gather whose dimension numbers have no offset axis, collapse the one table axis, map the one start-index
    component to it and slice 1 — what x[idx] of a one-axis table is — has, at e, the value x (clamp (idx e)): the
    position is read as a signed integer and clamped into [0, N - 1] (vecGather_apply).

  * The reciprocal square root of a positive extended real is a nonnegative real: 1 / sqrt r for a positive real r, and
    0 at +infinity (rsqrt_pos_nonneg_real).

  * A nonnegative real factor distributes over a finite sum of extended reals, whatever the terms are: the only failure
    of distributivity in the extended reals needs an infinite or a negative factor (coe_nonneg_mul_finset_sum).

  * The wrap of a possibly negative position, "r if r >= 0, r + N otherwise", written lane by lane as a select on the
    signed comparison r < 0 between r + N and r with the two constants broadcast from scalars, reads at a lane i as
    r i + N when r i is negative as a signed integer and as r i otherwise (wrapNeg_apply); on a lane whose position is
    nonnegative it is the position itself (wrapNeg_apply_of_nonneg).
-/
import Idealize.ShloMosaic.PureOps.Ideal.Laws
import Idealize.ShloMosaic.Lib.ValueIdx

noncomputable section

open scoped BigOperators

namespace Idealize.ShloMosaic.ValueIdx

open Idealize.ShloMosaic

/-! ## Entries of a one-axis table taken by an index vector -/

section VecGather
variable {α : Type}

/-- The gather dimension numbers of `x[idx]` for a table `x : [N]` and positions `idx : [E, 1]`, result `[E]`: no offset
    axis, the one table axis collapsed and the target of the one start-index component, index vector on the indices'
    second axis, slices of size `1`; their conditions `wf` are decided on literal shapes. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the table at position `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

/-! ## The reciprocal square root of a positive extended real -/

section Rsqrt

/-- The reciprocal square root of a positive extended real is a nonnegative real: `(√r)⁻¹` at a positive real `r`, `0` at
    `⊤`. -/
theorem rsqrt_pos_nonneg_real (x : EReal) (hx : 0 < x) : ∃ r : ℝ, 0 ≤ r ∧ Ideal.rsqrt x = ((r : ℝ) : EReal) := by
  induction x using EReal.rec with
  | bot => exact absurd hx (by simp)
  | top => exact ⟨0, le_refl _, by simp⟩
  | coe r =>
    have hr : 0 < r := by exact_mod_cast hx
    refine ⟨(Real.sqrt r)⁻¹, inv_nonneg.mpr (Real.sqrt_nonneg r), ?_⟩
    rw [Ideal.rsqrt_coe, if_neg (not_lt.mpr hr.le), if_neg hr.ne']

end Rsqrt

/-! ## A nonnegative real factor through a finite sum -/

section CoeMulSum

/-- A nonnegative real factor distributes over a finite sum of extended reals. -/
theorem coe_nonneg_mul_finset_sum (r : ℝ) (hr : 0 ≤ r) {ι : Type*} (s : Finset ι) (f : ι → EReal) :
    ((r : ℝ) : EReal) * ∑ i ∈ s, f i = ∑ i ∈ s, ((r : ℝ) : EReal) * f i := by
  classical
  induction s using Finset.induction_on with
  | empty => simp
  | insert i s hi ih =>
    rw [Finset.sum_insert hi, Finset.sum_insert hi,
      EReal.left_distrib_of_nonneg_of_ne_top (EReal.coe_nonneg.mpr hr) (EReal.coe_ne_top r), ih]

end CoeMulSum

/-! ## The wrap of a negative position -/

section WrapNeg

/-- THE WRAP READ AT A LANE: the select, on the signed comparison `r < 0`, between `r + N` and `r`, the constants `0` and
    `N` broadcast from scalars, is `r i + N` on a lane whose position is negative as a signed integer and `r i`
    elsewhere. -/
theorem wrapNeg_apply {S : Shape} {w : Nat} (h : (⟨0, ![]⟩ : Shape).BroadcastsInDim S ![]) (N : Nat) (r : IVec S w)
    (i : S.Idx) :
    select (cmpi .slt r (broadcastInDim S ![] h (constantI ⟨0, ![]⟩ w 0#w)))
        (addi r (broadcastInDim S ![] h (constantI ⟨0, ![]⟩ w (BitVec.ofNat w N)))) r i
      = if (r i).toInt < 0 then r i + BitVec.ofNat w N else r i := by
  show Scalar.select (IntOp.cmpi .slt (r i) (broadcastInDim S ![] h (constantI ⟨0, ![]⟩ w 0#w) i))
      (IntOp.addi (r i) (broadcastInDim S ![] h (constantI ⟨0, ![]⟩ w (BitVec.ofNat w N)) i)) (r i) = _
  have hb : ∀ x : (⟨0, ![]⟩ : Shape).Idx → BitVec w, broadcastInDim S ![] h x i = x ix0 := fun x => by
    unfold broadcastInDim; exact congrArg x (funext fun a => a.elim0)
  rw [hb, hb]
  unfold constantI Scalar.select IntOp.cmpi IntOp.addi
  simp only [BitVec.slt, BitVec.toInt_zero]
  by_cases hneg : (r i).toInt < 0
  · simp [hneg]
  · simp [hneg]

/-- On a lane whose position is nonnegative as a signed integer the wrap is the position itself. -/
theorem wrapNeg_apply_of_nonneg {S : Shape} {w : Nat} (h : (⟨0, ![]⟩ : Shape).BroadcastsInDim S ![]) (N : Nat)
    (r : IVec S w) (i : S.Idx) (hi : 0 ≤ (r i).toInt) :
    select (cmpi .slt r (broadcastInDim S ![] h (constantI ⟨0, ![]⟩ w 0#w)))
        (addi r (broadcastInDim S ![] h (constantI ⟨0, ![]⟩ w (BitVec.ofNat w N)))) r i
      = r i := by
  rw [wrapNeg_apply, if_neg (not_lt.mpr hi)]

end WrapNeg

end Idealize.ShloMosaic.ValueIdx

end
-- ==== Proof.LibSymNormAgg.lean ====
/-
  SYMMETRIC NORMALISATION OF AN EDGE-LIST AGGREGATION, SPLIT INTO A PRE-SCALE AND A POST-SCALE.

  An aggregation over an edge list adds, into row `row e` of a table, row `coln e` of a table `H` scaled by a weight.
  With per-node factors `dv` that are nonnegative reals, weighting edge `e` by `dv (coln e) · val e · dv (row e)` and
  aggregating the rows of `P` gives, at row `n`, the same as aggregating with the plain weights `val e` the rows of
  `P` pre-scaled by their own factor (`Q u = P u · dv u`) and then scaling row `n` of the result by `dv n`:

      ( Σ_{e : row e = n} val e · (P (coln e) · dv (coln e)) ) · dv n
        = Σ_{e : row e = n} ( dv (coln e) · val e · dv (row e) ) · P (coln e).

  The factor `dv n` goes inside the sum because it is a nonnegative real (a finite sum of extended reals, which may
  hold both infinities, distributes over such a factor); inside, `row e = n` on every edge of the sum, and the rest is
  commutativity and associativity of the product. Nothing is asked of `P`, `val` or the row numbers.
-/
import proofs.«105699_j61710090109663_2_alg».proof.Proof.LibRowAggregate
import proofs.«105699_j61710090109663_2_alg».proof.Proof.LibVecGather

noncomputable section

open scoped BigOperators

namespace Idealize.ShloMosaic.ValueIdx

open Idealize.ShloMosaic

/-- The aggregation of pre-scaled rows with plain weights, post-scaled at the destination row, is the aggregation of the
    plain rows with the symmetrically normalised weights. `dd e` stands for the factor looked up at edge `e`'s
    destination, which is `dv n` whenever the edge lands at row `n`. -/
theorem rowAgg_split_norm {N E K w : Nat} (hN : 0 < N)
    (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (h0 : (⟨0, ![]⟩ : Shape).BroadcastsInDim ⟨2, ![N, K]⟩ ![])
    (hE : (⟨1, ![E]⟩ : Shape).BroadcastsInDim ⟨2, ![E, 1]⟩ ![0])
    (hU : (⟨2, ![E, 1]⟩ : Shape).BroadcastsInDim ⟨2, ![E, K]⟩ ![0, 1])
    (row coln : IVec ⟨1, ![E]⟩ w) (val nrm : FVec Ideal ⟨1, ![E]⟩ .f32) (P Q : FVec Ideal ⟨2, ![N, K]⟩ .f32)
    (dv : Fin N → EReal) (dd : Fin E → EReal)
    (hdv : ∀ u, ∃ r : ℝ, 0 ≤ r ∧ dv u = ((r : ℝ) : EReal))
    (hQ : ∀ u q, (Q (ix2 u q) : EReal) = (P (ix2 u q) : EReal) * dv u)
    (hn : ∀ e : Fin E, (nrm (ix1 e) : EReal)
      = (dv (⟨min ((broadcastInDim ⟨2, ![E, 1]⟩ ![0] hE coln) (ix2 e (0 : Fin 1))).toInt.toNat (N - 1), by omega⟩ : Fin N)
          * (val (ix1 e) : EReal)) * dd e)
    (hdd : ∀ (e : Fin E) (n : Fin N), rowDst N (broadcastInDim ⟨2, ![E, 1]⟩ ![0] hE row) e = some n → dd e = dv n)
    (n : Fin N) (c : Fin K) :
    (rowAgg wfg wfs h0 hE hU 0x00000000#32 row coln val Q (ix2 n c) : EReal) * dv n
      = rowAgg wfg wfs h0 hE hU 0x00000000#32 row coln nrm P (ix2 n c) := by
  rw [rowAgg_apply hN, rowAgg_apply hN]
  obtain ⟨r, hr, hrv⟩ := hdv n
  rw [Ideal.ofBits_zero_f32, zero_add, zero_add, hrv, mul_comm, coe_nonneg_mul_finset_sum r hr]
  refine Finset.sum_congr rfl fun e he => ?_
  have hd := hdd e n (Finset.mem_filter.mp he).2
  rw [hQ, hn, hd, hrv]
  ac_rfl

/-- A SCALE FACTOR IS A NONNEGATIVE REAL: the inverse square root of `d` where `d` is positive — a nonnegative real, zero
    at +∞ — and a zero elsewhere. -/
theorem invSqrtOrZero_nonneg_real (d z z' : EReal) (hz : z = 0) (hz' : z' = 0) :
    ∃ r : ℝ, 0 ≤ r ∧ Scalar.select (Ideal.cmp .ogt d z) (Ideal.rsqrt d) z' = ((r : ℝ) : EReal) := by
  subst hz hz'
  by_cases h : (0 : EReal) < d
  · obtain ⟨r, hr, he⟩ := rsqrt_pos_nonneg_real d h
    refine ⟨r, hr, ?_⟩
    have hc : Ideal.cmp .ogt d 0 = 1 := by simp [Ideal.cmp, h]
    rw [hc]
    simpa [Scalar.select] using he
  · refine ⟨0, le_refl 0, ?_⟩
    have hc : Ideal.cmp .ogt d 0 = 0 := by simp [Ideal.cmp, h]
    rw [hc]
    simp [Scalar.select]

/-- The same for a scale vector as a host program spells it, at an index: `select (deg > z) (rsqrt deg) z'` where the
    two constant arrays are zero there. -/
theorem scaleVec_nonneg_real {s : Shape} (deg z z' : FVec Ideal s .f32) (i : s.Idx) (hz : (z i : EReal) = 0) (hz' : (z' i : EReal) = 0) :
    ∃ r : ℝ, 0 ≤ r ∧ (select (cmpf .ogt deg z) (Host.rsqrt deg) z' i : EReal) = ((r : ℝ) : EReal) :=
  invSqrtOrZero_nonneg_real (deg i) (z i) (z' i) hz hz'

/-- A vector of signed row numbers with the negative ones moved up by `N` (the wrap a host gather applies first). -/
abbrev wrapNeg {S : Shape} {w : Nat} (h : (⟨0, ![]⟩ : Shape).BroadcastsInDim S ![]) (N : Nat) (r : IVec S w) : IVec S w :=
  select (cmpi .slt r (broadcastInDim S ![] h (constantI ⟨0, ![]⟩ w 0#w)))
    (addi r (broadcastInDim S ![] h (constantI ⟨0, ![]⟩ w (BitVec.ofNat w N)))) r

/-- The symmetric normalisation as a host program spells it: the scale vector gathered at the wrapped source numbers,
    times the weight, times the scale vector gathered at the wrapped destination numbers. -/
abbrev symNorm {N E w : Nat}
    (wfv : GatherDims.WF ⟨1, ![N]⟩ ⟨2, ![E, 1]⟩ ⟨1, ![E]⟩ [] [0] [] [0] [] 1 ![1])
    (hE : (⟨1, ![E]⟩ : Shape).BroadcastsInDim ⟨2, ![E, 1]⟩ ![0])
    (hc : (⟨0, ![]⟩ : Shape).BroadcastsInDim ⟨1, ![E]⟩ ![])
    (row coln : IVec ⟨1, ![E]⟩ w) (val : FVec Ideal ⟨1, ![E]⟩ .f32) (dvec : FVec Ideal ⟨1, ![N]⟩ .f32) : FVec Ideal ⟨1, ![E]⟩ .f32 :=
  mulf (mulf (Host.gather (vecGatherDims N E wfv) dvec (broadcastInDim ⟨2, ![E, 1]⟩ ![0] hE (wrapNeg hc N coln))) val)
    (Host.gather (vecGatherDims N E wfv) dvec (broadcastInDim ⟨2, ![E, 1]⟩ ![0] hE (wrapNeg hc N row)))

/-- THE TWO SPELLINGS OF A NORMALISED AGGREGATION AGREE. With a scale vector `dvec` of nonnegative reals: rows pre-scaled
    by their own factor, aggregated with the plain weights, and post-scaled at the destination, against the plain rows
    aggregated with the host's symmetric normalisation. An edge that lands at row `n` has a destination number in
    range and not negative, which the wrap leaves alone and the gather's clamp leaves alone, so the factor gathered at
    its destination is `dvec n`. -/
theorem rowAgg_symNorm {N E K w : Nat} (hN : 0 < N)
    (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (wfv : GatherDims.WF ⟨1, ![N]⟩ ⟨2, ![E, 1]⟩ ⟨1, ![E]⟩ [] [0] [] [0] [] 1 ![1])
    (h0 : (⟨0, ![]⟩ : Shape).BroadcastsInDim ⟨2, ![N, K]⟩ ![])
    (hE : (⟨1, ![E]⟩ : Shape).BroadcastsInDim ⟨2, ![E, 1]⟩ ![0])
    (hU : (⟨2, ![E, 1]⟩ : Shape).BroadcastsInDim ⟨2, ![E, K]⟩ ![0, 1])
    (hc : (⟨0, ![]⟩ : Shape).BroadcastsInDim ⟨1, ![E]⟩ ![])
    (row coln : IVec ⟨1, ![E]⟩ w) (val : FVec Ideal ⟨1, ![E]⟩ .f32) (dvec : FVec Ideal ⟨1, ![N]⟩ .f32)
    (P Q : FVec Ideal ⟨2, ![N, K]⟩ .f32)
    (hdv : ∀ u : Fin N, ∃ r : ℝ, 0 ≤ r ∧ (dvec (ix1 u) : EReal) = ((r : ℝ) : EReal))
    (hQ : ∀ u q, (Q (ix2 u q) : EReal) = (P (ix2 u q) : EReal) * (dvec (ix1 u) : EReal))
    (n : Fin N) (c : Fin K) :
    (rowAgg wfg wfs h0 hE hU 0x00000000#32 row (wrapNeg hc N coln) val Q (ix2 n c) : EReal) * (dvec (ix1 n) : EReal)
      = rowAgg wfg wfs h0 hE hU 0x00000000#32 row (wrapNeg hc N coln) (symNorm wfv hE hc row coln val dvec) P (ix2 n c) := by
  refine rowAgg_split_norm hN wfg wfs h0 hE hU row (wrapNeg hc N coln) val (symNorm wfv hE hc row coln val dvec) P Q
    (fun u => (dvec (ix1 u) : EReal))
    (fun e => (Host.gather (vecGatherDims N E wfv) dvec (broadcastInDim ⟨2, ![E, 1]⟩ ![0] hE (wrapNeg hc N row)) (ix1 e) : EReal))
    hdv hQ ?_ ?_ n c
  · intro e
    show FloatOps.mulf (FloatOps.mulf (Host.gather (vecGatherDims N E wfv) dvec (broadcastInDim ⟨2, ![E, 1]⟩ ![0] hE (wrapNeg hc N coln)) (ix1 e)) (val (ix1 e)))
        (Host.gather (vecGatherDims N E wfv) dvec (broadcastInDim ⟨2, ![E, 1]⟩ ![0] hE (wrapNeg hc N row)) (ix1 e)) = _
    rw [Ideal.mulf_def, Ideal.mulf_def, vecGather_apply hN wfv dvec (broadcastInDim ⟨2, ![E, 1]⟩ ![0] hE (wrapNeg hc N coln)) e]
  · intro e n' h
    rw [vecGather_apply hN wfv dvec (broadcastInDim ⟨2, ![E, 1]⟩ ![0] hE (wrapNeg hc N row)) e]
    have hb : (broadcastInDim ⟨2, ![E, 1]⟩ ![0] hE row) (ix2 e (0 : Fin 1)) = row (ix1 e) := broadcastInDim_vec_col_apply hE row e 0
    unfold rowDst at h
    split_ifs at h with hr
    have hval : n'.val = ((broadcastInDim ⟨2, ![E, 1]⟩ ![0] hE row) (ix2 e (0 : Fin 1))).toInt.toNat := by
      rw [← Option.some.inj h]
    rw [hb] at hr hval
    have hbw : (broadcastInDim ⟨2, ![E, 1]⟩ ![0] hE (wrapNeg hc N row)) (ix2 e (0 : Fin 1)) = row (ix1 e) := by
      rw [broadcastInDim_vec_col_apply hE (wrapNeg hc N row) e 0]
      exact wrapNeg_apply_of_nonneg hc N row (ix1 e) hr.1
    have hfin : (⟨min ((broadcastInDim ⟨2, ![E, 1]⟩ ![0] hE (wrapNeg hc N row)) (ix2 e (0 : Fin 1))).toInt.toNat (N - 1), by omega⟩ : Fin N) = n' :=
      Fin.ext (by
        show min ((broadcastInDim ⟨2, ![E, 1]⟩ ![0] hE (wrapNeg hc N row)) (ix2 e (0 : Fin 1))).toInt.toNat (N - 1) = n'.val
        rw [hbw, hval]
        omega)
    rw [hfin]

end Idealize.ShloMosaic.ValueIdx

end
-- ==== Proof.HostStretches.lean ====
/-
  What each stretch of the kernel program's host operations computes, from ANY contents `V` of the buffers it starts
  from: the buffer an interesting operation writes, as that operation's function of the buffers it reads.

  * the scale factors: where the in-degree is positive its inverse square root, a zero elsewhere;
  * a bias vector recast as a one-row array, the scale factors recast as a one-column array;
  * a neighbourhood aggregation: the rows of a table gathered at the wrapped source numbers, each scaled by its edge
    weight, added up at the destination numbers — the edge-list aggregation with the plain weights (the program writes
    the product as gathered · weight; the product of extended reals commutes);
  * the mean pool: the rows added up per graph, divided by the graph's node count or one if that is larger;
  * the graph embedding joined with the graph feature embedding along the columns.
-/
import proofs.«105699_j61710090109663_2_alg».proof.Proof.Gen.KernelIdeal.Frame
import proofs.«105699_j61710090109663_2_alg».proof.Proof.LibSymNormAgg
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Idealize.ShloMosaic.ValueIdx

variable (V : Valuation τ sig (Elt Ideal))

/-- The product of two arrays of extended reals commutes. -/
theorem mulf_comm_ideal {s : Shape} {φ : FTy} (a b : FVec Ideal s φ) : mulf a b = mulf b a := by
  funext i
  show FloatOps.mulf (a i) (b i) = FloatOps.mulf (b i) (a i)
  rw [Ideal.mulf_def, Ideal.mulf_def, mul_comm]

/-- The two spellings of an edge-list aggregation with plain weights: the program multiplies the gathered rows by the
    broadcast weights, the aggregation's definition the weights by the rows. -/
theorem agg_spelling (D S : IVec S450000 32) (Wt : FVec Ideal S450000 .f32) (T : FVec Ideal S50000x256 .f32) :
    Host.scatterAdd scatter_S50000x256_S450000x1_S450000x256_1_0_0_1
        (broadcastInDim S50000x256 ![] bcast_S_S50000x256 (constant (F := Ideal) S_ .f32 0x00000000#32))
        (broadcastInDim S450000x1 ![0] bcast_S450000_S450000x1_0 D)
        (mulf (Host.gather gather_S50000x256_S450000x1_S450000x256_1_0_n_n_0_1_1256 T
            (broadcastInDim S450000x1 ![0] bcast_S450000_S450000x1_0
              (select (cmpi .slt S (broadcastInDim S450000 ![] bcast_S_S450000 (constantI S_ 32 0#32)))
                (addi S (broadcastInDim S450000 ![] bcast_S_S450000 (constantI S_ 32 50000#32))) S)))
          (broadcastInDim S450000x256 ![0, 1] bcast_S450000x1_S450000x256_0_1 (broadcastInDim S450000x1 ![0] bcast_S450000_S450000x1_0 Wt)))
      = rowAgg (N := 50000) (E := 450000) (K := 256) (w := 32) gather_S50000x256_S450000x1_S450000x256_1_0_n_n_0_1_1256.wf scatter_S50000x256_S450000x1_S450000x256_1_0_0_1.wf bcast_S_S50000x256 bcast_S450000_S450000x1_0 bcast_S450000x1_S450000x256_0_1 0x00000000#32 D (wrapNeg bcast_S_S450000 50000 S) Wt T := by
  rw [mulf_comm_ideal]
  rfl

/-- The scale factors: the inverse square root where the in-degree is positive, the zero elsewhere. -/
theorem stretch_scale : StableHlo.after hostOps0_1 V (Proc.devRef .tc main_v15)
    = select (V (Proc.devRef .tc main_v13)) (V (Proc.devRef .tc main_v14)) (broadcastInDim S50000 ![] bcast_S_S50000 (id (V (Proc.devRef .tc main_cst_2)))) := by
  dsimp only [hostOps0_1, StableHlo.TRef.unary, StableHlo.TRef.ternary, StableHlo.TRef.of, StableHlo.TRef.toBuf, StableHlo.TRef.ofBuf, cast_eq]
  after_results_simp

/-- The embedding's bias as a one-row array. -/
theorem stretch_bias0 : StableHlo.after hostOps0_2 V (Proc.devRef .tc main_v16)
    = shapeCast S1x256 (V (Proc.devRef .tc main_arg6)) shapeCasts_S256_S1x256 := by
  dsimp only [hostOps0_2]
  after_results
  rfl

/-- The scale factors as a one-column array (before the first region). -/
theorem stretch_scaleCol0 : StableHlo.after hostOps0_2 V (Proc.devRef .tc main_v17)
    = shapeCast S50000x1 (V (Proc.devRef .tc main_v15)) shapeCasts_S50000_S50000x1 := by
  dsimp only [hostOps0_2]
  after_results
  rfl

/-- The first aggregation: the rows of the pre-scaled table, plain weights. -/
theorem stretch_agg1 : StableHlo.after hostOps1 V (Proc.devRef .tc main_v31)
    = rowAgg (N := 50000) (E := 450000) (K := 256) (w := 32) gather_S50000x256_S450000x1_S450000x256_1_0_n_n_0_1_1256.wf scatter_S50000x256_S450000x1_S450000x256_1_0_0_1.wf bcast_S_S50000x256 bcast_S450000_S450000x1_0 bcast_S450000x1_S450000x256_0_1 0x00000000#32 (V (Proc.devRef .tc main_v6)) (wrapNeg bcast_S_S450000 50000 (V (Proc.devRef .tc main_v5))) (V (Proc.devRef .tc main_v8)) (V (Proc.devRef .tc main_v18)) := by
  dsimp only [hostOps1]
  after_results_simp
  exact agg_spelling _ _ _ _

/-- The first layer's bias as a one-row array. -/
theorem stretch_bias1 : StableHlo.after hostOps1 V (Proc.devRef .tc main_v32)
    = shapeCast S1x256 (V (Proc.devRef .tc main_arg8)) shapeCasts_S256_S1x256 := by
  dsimp only [hostOps1]
  after_results
  rfl

/-- The scale factors as a one-column array (before the second region). -/
theorem stretch_scaleCol1 : StableHlo.after hostOps1 V (Proc.devRef .tc main_v33)
    = shapeCast S50000x1 (V (Proc.devRef .tc main_v15)) shapeCasts_S50000_S50000x1 := by
  dsimp only [hostOps1]
  after_results
  rfl

/-- The second aggregation. -/
theorem stretch_agg2 : StableHlo.after hostOps2 V (Proc.devRef .tc main_v47)
    = rowAgg (N := 50000) (E := 450000) (K := 256) (w := 32) gather_S50000x256_S450000x1_S450000x256_1_0_n_n_0_1_1256.wf scatter_S50000x256_S450000x1_S450000x256_1_0_0_1.wf bcast_S_S50000x256 bcast_S450000_S450000x1_0 bcast_S450000x1_S450000x256_0_1 0x00000000#32 (V (Proc.devRef .tc main_v6)) (wrapNeg bcast_S_S450000 50000 (V (Proc.devRef .tc main_v5))) (V (Proc.devRef .tc main_v8)) (V (Proc.devRef .tc main_v34)) := by
  dsimp only [hostOps2]
  after_results_simp
  exact agg_spelling _ _ _ _

/-- The second layer's bias as a one-row array. -/
theorem stretch_bias2 : StableHlo.after hostOps2 V (Proc.devRef .tc main_v48)
    = shapeCast S1x256 (V (Proc.devRef .tc main_arg10)) shapeCasts_S256_S1x256 := by
  dsimp only [hostOps2]
  after_results
  rfl

/-- The scale factors as a one-column array (before the third region). -/
theorem stretch_scaleCol2 : StableHlo.after hostOps2 V (Proc.devRef .tc main_v49)
    = shapeCast S50000x1 (V (Proc.devRef .tc main_v15)) shapeCasts_S50000_S50000x1 := by
  dsimp only [hostOps2]
  after_results
  rfl

/-- The mean pool over the graphs of a batch: per graph the rows' sum over the node count (at least one). -/
theorem stretch_pool : StableHlo.after hostOps3 V (Proc.devRef .tc main_v62)
    = Host.divf
        (Host.scatterAdd scatter_S128x256_S50000x1_S50000x256_1_0_0_1
          (broadcastInDim S128x256 ![] bcast_S_S128x256 (constant (F := Ideal) S_ .f32 0x00000000#32))
          (broadcastInDim S50000x1 ![0] bcast_S50000_S50000x1_0 (V (Proc.devRef .tc main_arg2))) (V (Proc.devRef .tc main_v50)))
        (broadcastInDim S128x256 ![0, 1] bcast_S128x1_S128x256_0_1 (broadcastInDim S128x1 ![0] bcast_S128_S128x1_0
          (maximumf
            (Host.scatterAdd scatter_S128_S50000x1_S50000_n_0_0_1
              (broadcastInDim S128 ![] bcast_S_S128 (constant (F := Ideal) S_ .f32 0x00000000#32))
              (broadcastInDim S50000x1 ![0] bcast_S50000_S50000x1_0 (V (Proc.devRef .tc main_arg2)))
              (broadcastInDim S50000 ![] bcast_S_S50000 (constant (F := Ideal) S_ .f32 0x3F800000#32)))
            (broadcastInDim S128 ![] bcast_S_S128 (constant (F := Ideal) S_ .f32 0x3F800000#32))))) := by
  dsimp only [hostOps3]
  after_results_simp

/-- The graph features' bias as a one-row array. -/
theorem stretch_bias3 : StableHlo.after hostOps3 V (Proc.devRef .tc main_v63)
    = shapeCast S1x256 (V (Proc.devRef .tc main_arg12)) shapeCasts_S256_S1x256 := by
  dsimp only [hostOps3]
  after_results
  rfl

/-- The pooled graph embedding joined with the graph feature embedding along the columns. -/
theorem stretch_join : StableHlo.after hostOps4 V (Proc.devRef .tc main_v65)
    = concatenate S128x512 1 [⟨S128x256, (V (Proc.devRef .tc main_v62))⟩, ⟨S128x256, (V (Proc.devRef .tc main_v64))⟩] concatenates_S128x256_S128x256_S128x512_d1 := by
  dsimp only [hostOps4]
  after_results

/-- The read-out's first bias as a one-row array. -/
theorem stretch_bias4 : StableHlo.after hostOps4 V (Proc.devRef .tc main_v66)
    = shapeCast S1x256 (V (Proc.devRef .tc main_arg14)) shapeCasts_S256_S1x256 := by
  dsimp only [hostOps4]
  after_results
  rfl

/-- The read-out's second bias as a one-row array. -/
theorem stretch_bias5 : StableHlo.after hostOps4 V (Proc.devRef .tc main_v67)
    = shapeCast S1x64 (V (Proc.devRef .tc main_arg16)) shapeCasts_S64_S1x64 := by
  dsimp only [hostOps4]
  after_results
  rfl

end Cert.KernelIdeal.Stages

end
-- ==== Proof.HostStagesA.lean ====
/-
  The kernel program's host operations before its first region, read back to the arguments.

  From the edge list (two rows of 400000 node numbers) and the edge weights the program builds, once: the source and
  destination vectors of the 450000 edges (the 400000 given ones followed by one self-loop per node), their weights
  (the given ones followed by ones), the weighted in-degree of every node (the weights added up at the destinations),
  and the per-node scale factor: the inverse square root of the in-degree where that is positive, zero elsewhere.
  These are the same operations, in the same order, as the reference's, so each buffer holds the reference's stage of
  the same arguments. The bias of the embedding and the scale factors are then recast as a row and a column.
-/
import proofs.«105699_j61710090109663_2_alg».proof.Proof.Gen.KernelIdeal.Frame
import proofs.«105699_j61710090109663_2_alg».proof.Proof.Gen.ReferenceIdeal.Read
import proofs.«105699_j61710090109663_2_alg».proof.Proof.HostStretches
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.Read (val_main_v11 val_main_v12 val_main_v14 val_main_v19 val_main_v20 val_main_v21 val_main_cst_2)

variable (m : (ℓ : Loc nD τ sig) → Buf (Elt Ideal) ℓ) (ρ : Dev nD → PrngReg) (c : Dev nD)

/-! ## The first stretch: edge vectors, weights, in-degrees -/

/-- The 450000 source node numbers: the edge list's first row, then every node once. -/
theorem srcs_W1 : W1 m ρ c (Proc.devRef .tc main_v5) = val_main_v11 (F := Ideal) (m ((c : Thread nD τ).loc main_arg1)) := by
  show StableHlo.after hostOps0 (W0 m ρ c) (Proc.devRef .tc main_v5) = _
  after_results
  rfl

/-- The 450000 destination node numbers: the edge list's second row, then every node once. -/
theorem dsts_W1 : W1 m ρ c (Proc.devRef .tc main_v6) = val_main_v12 (F := Ideal) (m ((c : Thread nD τ).loc main_arg1)) := by
  show StableHlo.after hostOps0 (W0 m ρ c) (Proc.devRef .tc main_v6) = _
  after_results
  rfl

/-- The 450000 edge weights: the given ones, then a one per self-loop. -/
theorem wts_W1 : W1 m ρ c (Proc.devRef .tc main_v8) = val_main_v14 (F := Ideal) (m ((c : Thread nD τ).loc main_arg4)) := by
  show StableHlo.after hostOps0 (W0 m ρ c) (Proc.devRef .tc main_v8) = _
  after_results
  rfl

/-- Where the weighted in-degree is positive. -/
theorem degPos_W1 : W1 m ρ c (Proc.devRef .tc main_v13)
    = val_main_v19 (F := Ideal) (m ((c : Thread nD τ).loc main_arg1)) (m ((c : Thread nD τ).loc main_arg4)) := by
  show StableHlo.after hostOps0 (W0 m ρ c) (Proc.devRef .tc main_v13) = _
  after_results
  rfl

/-- The inverse square root of the weighted in-degree. -/
theorem degRsqrt_W1 : W1 m ρ c (Proc.devRef .tc main_v14)
    = val_main_v20 (F := Ideal) (m ((c : Thread nD τ).loc main_arg1)) (m ((c : Thread nD τ).loc main_arg4)) := by
  show StableHlo.after hostOps0 (W0 m ρ c) (Proc.devRef .tc main_v14) = _
  after_results
  rfl

/-- The zero the scale factor takes where the in-degree is not positive. -/
theorem zero_W1 : W1 m ρ c (Proc.devRef .tc main_cst_2) = val_main_cst_2 (F := Ideal) := by
  show StableHlo.after hostOps0 (W0 m ρ c) (Proc.devRef .tc main_cst_2) = _
  after_results
  rfl

/-! ## The second stretch: the scale factors -/

/-- The per-node scale factor: the inverse square root of the in-degree where positive, zero elsewhere. -/
theorem scale_W2 : W2 m ρ c (Proc.devRef .tc main_v15)
    = val_main_v21 (F := Ideal) (m ((c : Thread nD τ).loc main_arg1)) (m ((c : Thread nD τ).loc main_arg4)) := by
  show StableHlo.after hostOps0_1 (W1 m ρ c) (Proc.devRef .tc main_v15) = _
  rw [stretch_scale, degPos_W1, degRsqrt_W1, zero_W1]
  rfl

end Cert.KernelIdeal.Stages

end
-- ==== Proof.HostKept.lean ====
/-
  Buffers that the program's later stretches and regions leave alone.

  An argument array is written by no host operation and is no region's output, so at every segment boundary it holds
  what the launch memory held. The edge vectors, the edge weights and the per-node scale factors are written once, in
  the first stretches, and only read afterwards; the pooled graph embedding is written before the fourth region, which
  does not touch it. Each fact is one step per segment crossed: a stretch of host operations keeps a buffer none of its
  operations writes, a region keeps every buffer that is not one of its arrays.
-/
import proofs.«105699_j61710090109663_2_alg».proof.Proof.Gen.KernelIdeal.Frame
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a stretch of host operations writes holds after the stretch what it held before. -/
macro "stretch_keeps" : tactic => `(tactic|
  exact StableHlo.after_of_forall_not_mem (b := _) _ _ (List.forall_iff_forall_mem.mp (by
    simp only [hostOps0, hostOps0_1, hostOps0_2, hostOps1, hostOps2, hostOps3, hostOps4, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-- Argument 0 is untouched up to boundary 3. -/
theorem arg0_W3 : W3 m ρ c (Proc.devRef .tc main_arg0) = m ((c : Thread nD τ).loc main_arg0) :=
  calc W3 m ρ c (Proc.devRef .tc main_arg0)
    _ = W2 m ρ c (Proc.devRef .tc main_arg0) := by stretch_keeps
    _ = W1 m ρ c (Proc.devRef .tc main_arg0) := by stretch_keeps
    _ = W0 m ρ c (Proc.devRef .tc main_arg0) := by stretch_keeps
    _ = m ((c : Thread nD τ).loc main_arg0) := rfl

/-- Argument 5 is untouched up to boundary 3. -/
theorem arg5_W3 : W3 m ρ c (Proc.devRef .tc main_arg5) = m ((c : Thread nD τ).loc main_arg5) :=
  calc W3 m ρ c (Proc.devRef .tc main_arg5)
    _ = W2 m ρ c (Proc.devRef .tc main_arg5) := by stretch_keeps
    _ = W1 m ρ c (Proc.devRef .tc main_arg5) := by stretch_keeps
    _ = W0 m ρ c (Proc.devRef .tc main_arg5) := by stretch_keeps
    _ = m ((c : Thread nD τ).loc main_arg5) := rfl

/-- Argument 7 is untouched up to boundary 3. -/
theorem arg7_W3 : W3 m ρ c (Proc.devRef .tc main_arg7) = m ((c : Thread nD τ).loc main_arg7) :=
  calc W3 m ρ c (Proc.devRef .tc main_arg7)
    _ = W2 m ρ c (Proc.devRef .tc main_arg7) := by stretch_keeps
    _ = W1 m ρ c (Proc.devRef .tc main_arg7) := by stretch_keeps
    _ = W0 m ρ c (Proc.devRef .tc main_arg7) := by stretch_keeps
    _ = m ((c : Thread nD τ).loc main_arg7) := rfl

/-- Argument 6 is untouched up to boundary 2. -/
theorem arg6_W2 : W2 m ρ c (Proc.devRef .tc main_arg6) = m ((c : Thread nD τ).loc main_arg6) :=
  calc W2 m ρ c (Proc.devRef .tc main_arg6)
    _ = W1 m ρ c (Proc.devRef .tc main_arg6) := by stretch_keeps
    _ = W0 m ρ c (Proc.devRef .tc main_arg6) := by stretch_keeps
    _ = m ((c : Thread nD τ).loc main_arg6) := rfl

/-- Argument 8 is untouched up to boundary 4. -/
theorem arg8_W4 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by stretch_keeps
    _ = W1 m ρ c (Proc.devRef .tc main_arg8) := by stretch_keeps
    _ = W0 m ρ c (Proc.devRef .tc main_arg8) := by stretch_keeps
    _ = m ((c : Thread nD τ).loc main_arg8) := rfl

/-- Argument 9 is untouched up to boundary 5. -/
theorem arg9_W5 : W5 m ρ c (Proc.devRef .tc main_arg9) = m ((c : Thread nD τ).loc main_arg9) :=
  calc W5 m ρ c (Proc.devRef .tc main_arg9)
    _ = W4 m ρ c (Proc.devRef .tc main_arg9) := by stretch_keeps
    _ = W3 m ρ c (Proc.devRef .tc main_arg9) := W4_of_ne m ρ c main_arg9 (by decide)
    _ = W2 m ρ c (Proc.devRef .tc main_arg9) := by stretch_keeps
    _ = W1 m ρ c (Proc.devRef .tc main_arg9) := by stretch_keeps
    _ = W0 m ρ c (Proc.devRef .tc main_arg9) := by stretch_keeps
    _ = m ((c : Thread nD τ).loc main_arg9) := rfl

/-- Argument 10 is untouched up to boundary 6. -/
theorem arg10_W6 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by stretch_keeps
    _ = W3 m ρ c (Proc.devRef .tc main_arg10) := W4_of_ne m ρ c main_arg10 (by decide)
    _ = W2 m ρ c (Proc.devRef .tc main_arg10) := by stretch_keeps
    _ = W1 m ρ c (Proc.devRef .tc main_arg10) := by stretch_keeps
    _ = W0 m ρ c (Proc.devRef .tc main_arg10) := by stretch_keeps
    _ = m ((c : Thread nD τ).loc main_arg10) := rfl

/-- Argument 2 is untouched up to boundary 8. -/
theorem arg2_W8 : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by stretch_keeps
    _ = W5 m ρ c (Proc.devRef .tc main_arg2) := W6_of_ne m ρ c main_arg2 (by decide)
    _ = W4 m ρ c (Proc.devRef .tc main_arg2) := by stretch_keeps
    _ = W3 m ρ c (Proc.devRef .tc main_arg2) := W4_of_ne m ρ c main_arg2 (by decide)
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl

/-- Argument 12 is untouched up to boundary 8. -/
theorem arg12_W8 : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := by stretch_keeps
    _ = W5 m ρ c (Proc.devRef .tc main_arg12) := W6_of_ne m ρ c main_arg12 (by decide)
    _ = W4 m ρ c (Proc.devRef .tc main_arg12) := by stretch_keeps
    _ = W3 m ρ c (Proc.devRef .tc main_arg12) := W4_of_ne m ρ c main_arg12 (by decide)
    _ = W2 m ρ c (Proc.devRef .tc main_arg12) := by stretch_keeps
    _ = W1 m ρ c (Proc.devRef .tc main_arg12) := by stretch_keeps
    _ = W0 m ρ c (Proc.devRef .tc main_arg12) := by stretch_keeps
    _ = m ((c : Thread nD τ).loc main_arg12) := rfl

/-- Argument 3 is untouched up to boundary 9. -/
theorem arg3_W9 : W9 m ρ c (Proc.devRef .tc main_arg3) = m ((c : Thread nD τ).loc main_arg3) :=
  calc W9 m ρ c (Proc.devRef .tc main_arg3)
    _ = W8 m ρ c (Proc.devRef .tc main_arg3) := by stretch_keeps
    _ = W7 m ρ c (Proc.devRef .tc main_arg3) := W8_of_ne m ρ c main_arg3 (by decide)
    _ = W6 m ρ c (Proc.devRef .tc main_arg3) := by stretch_keeps
    _ = W5 m ρ c (Proc.devRef .tc main_arg3) := W6_of_ne m ρ c main_arg3 (by decide)
    _ = W4 m ρ c (Proc.devRef .tc main_arg3) := by stretch_keeps
    _ = W3 m ρ c (Proc.devRef .tc main_arg3) := W4_of_ne m ρ c main_arg3 (by decide)
    _ = W2 m ρ c (Proc.devRef .tc main_arg3) := by stretch_keeps
    _ = W1 m ρ c (Proc.devRef .tc main_arg3) := by stretch_keeps
    _ = W0 m ρ c (Proc.devRef .tc main_arg3) := by stretch_keeps
    _ = m ((c : Thread nD τ).loc main_arg3) := rfl

/-- Argument 11 is untouched up to boundary 9. -/
theorem arg11_W9 : W9 m ρ c (Proc.devRef .tc main_arg11) = m ((c : Thread nD τ).loc main_arg11) :=
  calc W9 m ρ c (Proc.devRef .tc main_arg11)
    _ = W8 m ρ c (Proc.devRef .tc main_arg11) := by stretch_keeps
    _ = W7 m ρ c (Proc.devRef .tc main_arg11) := W8_of_ne m ρ c main_arg11 (by decide)
    _ = W6 m ρ c (Proc.devRef .tc main_arg11) := by stretch_keeps
    _ = W5 m ρ c (Proc.devRef .tc main_arg11) := W6_of_ne m ρ c main_arg11 (by decide)
    _ = W4 m ρ c (Proc.devRef .tc main_arg11) := by stretch_keeps
    _ = W3 m ρ c (Proc.devRef .tc main_arg11) := W4_of_ne m ρ c main_arg11 (by decide)
    _ = W2 m ρ c (Proc.devRef .tc main_arg11) := by stretch_keeps
    _ = W1 m ρ c (Proc.devRef .tc main_arg11) := by stretch_keeps
    _ = W0 m ρ c (Proc.devRef .tc main_arg11) := by stretch_keeps
    _ = m ((c : Thread nD τ).loc main_arg11) := rfl

/-- Argument 14 is untouched up to boundary 10. -/
theorem arg14_W10 : W10 m ρ c (Proc.devRef .tc main_arg14) = m ((c : Thread nD τ).loc main_arg14) :=
  calc W10 m ρ c (Proc.devRef .tc main_arg14)
    _ = W9 m ρ c (Proc.devRef .tc main_arg14) := W10_of_ne m ρ c main_arg14 (by decide)
    _ = W8 m ρ c (Proc.devRef .tc main_arg14) := by stretch_keeps
    _ = W7 m ρ c (Proc.devRef .tc main_arg14) := W8_of_ne m ρ c main_arg14 (by decide)
    _ = W6 m ρ c (Proc.devRef .tc main_arg14) := by stretch_keeps
    _ = W5 m ρ c (Proc.devRef .tc main_arg14) := W6_of_ne m ρ c main_arg14 (by decide)
    _ = W4 m ρ c (Proc.devRef .tc main_arg14) := by stretch_keeps
    _ = W3 m ρ c (Proc.devRef .tc main_arg14) := W4_of_ne m ρ c main_arg14 (by decide)
    _ = W2 m ρ c (Proc.devRef .tc main_arg14) := by stretch_keeps
    _ = W1 m ρ c (Proc.devRef .tc main_arg14) := by stretch_keeps
    _ = W0 m ρ c (Proc.devRef .tc main_arg14) := by stretch_keeps
    _ = m ((c : Thread nD τ).loc main_arg14) := rfl

/-- Argument 16 is untouched up to boundary 10. -/
theorem arg16_W10 : W10 m ρ c (Proc.devRef .tc main_arg16) = m ((c : Thread nD τ).loc main_arg16) :=
  calc W10 m ρ c (Proc.devRef .tc main_arg16)
    _ = W9 m ρ c (Proc.devRef .tc main_arg16) := W10_of_ne m ρ c main_arg16 (by decide)
    _ = W8 m ρ c (Proc.devRef .tc main_arg16) := by stretch_keeps
    _ = W7 m ρ c (Proc.devRef .tc main_arg16) := W8_of_ne m ρ c main_arg16 (by decide)
    _ = W6 m ρ c (Proc.devRef .tc main_arg16) := by stretch_keeps
    _ = W5 m ρ c (Proc.devRef .tc main_arg16) := W6_of_ne m ρ c main_arg16 (by decide)
    _ = W4 m ρ c (Proc.devRef .tc main_arg16) := by stretch_keeps
    _ = W3 m ρ c (Proc.devRef .tc main_arg16) := W4_of_ne m ρ c main_arg16 (by decide)
    _ = W2 m ρ c (Proc.devRef .tc main_arg16) := by stretch_keeps
    _ = W1 m ρ c (Proc.devRef .tc main_arg16) := by stretch_keeps
    _ = W0 m ρ c (Proc.devRef .tc main_arg16) := by stretch_keeps
    _ = m ((c : Thread nD τ).loc main_arg16) := rfl

/-- Argument 13 is untouched up to boundary 11. -/
theorem arg13_W11 : W11 m ρ c (Proc.devRef .tc main_arg13) = m ((c : Thread nD τ).loc main_arg13) :=
  calc W11 m ρ c (Proc.devRef .tc main_arg13)
    _ = W10 m ρ c (Proc.devRef .tc main_arg13) := by stretch_keeps
    _ = W9 m ρ c (Proc.devRef .tc main_arg13) := W10_of_ne m ρ c main_arg13 (by decide)
    _ = W8 m ρ c (Proc.devRef .tc main_arg13) := by stretch_keeps
    _ = W7 m ρ c (Proc.devRef .tc main_arg13) := W8_of_ne m ρ c main_arg13 (by decide)
    _ = W6 m ρ c (Proc.devRef .tc main_arg13) := by stretch_keeps
    _ = W5 m ρ c (Proc.devRef .tc main_arg13) := W6_of_ne m ρ c main_arg13 (by decide)
    _ = W4 m ρ c (Proc.devRef .tc main_arg13) := by stretch_keeps
    _ = W3 m ρ c (Proc.devRef .tc main_arg13) := W4_of_ne m ρ c main_arg13 (by decide)
    _ = W2 m ρ c (Proc.devRef .tc main_arg13) := by stretch_keeps
    _ = W1 m ρ c (Proc.devRef .tc main_arg13) := by stretch_keeps
    _ = W0 m ρ c (Proc.devRef .tc main_arg13) := by stretch_keeps
    _ = m ((c : Thread nD τ).loc main_arg13) := rfl

/-- Argument 15 is untouched up to boundary 11. -/
theorem arg15_W11 : W11 m ρ c (Proc.devRef .tc main_arg15) = m ((c : Thread nD τ).loc main_arg15) :=
  calc W11 m ρ c (Proc.devRef .tc main_arg15)
    _ = W10 m ρ c (Proc.devRef .tc main_arg15) := by stretch_keeps
    _ = W9 m ρ c (Proc.devRef .tc main_arg15) := W10_of_ne m ρ c main_arg15 (by decide)
    _ = W8 m ρ c (Proc.devRef .tc main_arg15) := by stretch_keeps
    _ = W7 m ρ c (Proc.devRef .tc main_arg15) := W8_of_ne m ρ c main_arg15 (by decide)
    _ = W6 m ρ c (Proc.devRef .tc main_arg15) := by stretch_keeps
    _ = W5 m ρ c (Proc.devRef .tc main_arg15) := W6_of_ne m ρ c main_arg15 (by decide)
    _ = W4 m ρ c (Proc.devRef .tc main_arg15) := by stretch_keeps
    _ = W3 m ρ c (Proc.devRef .tc main_arg15) := W4_of_ne m ρ c main_arg15 (by decide)
    _ = W2 m ρ c (Proc.devRef .tc main_arg15) := by stretch_keeps
    _ = W1 m ρ c (Proc.devRef .tc main_arg15) := by stretch_keeps
    _ = W0 m ρ c (Proc.devRef .tc main_arg15) := by stretch_keeps
    _ = m ((c : Thread nD τ).loc main_arg15) := rfl

/-- The buffer is written once, before boundary 1, and kept up to boundary 4. -/
theorem srcs_W4 : W4 m ρ c (Proc.devRef .tc main_v5) = W1 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := by stretch_keeps
    _ = W1 m ρ c (Proc.devRef .tc main_v5) := by stretch_keeps

/-- The buffer is written once, before boundary 1, and kept up to boundary 6. -/
theorem srcs_W6 : W6 m ρ c (Proc.devRef .tc main_v5) = W1 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := by stretch_keeps
    _ = W3 m ρ c (Proc.devRef .tc main_v5) := W4_of_ne m ρ c main_v5 (by decide)
    _ = W2 m ρ c (Proc.devRef .tc main_v5) := by stretch_keeps
    _ = W1 m ρ c (Proc.devRef .tc main_v5) := by stretch_keeps

/-- The buffer is written once, before boundary 1, and kept up to boundary 4. -/
theorem dsts_W4 : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by stretch_keeps
    _ = W1 m ρ c (Proc.devRef .tc main_v6) := by stretch_keeps

/-- The buffer is written once, before boundary 1, and kept up to boundary 6. -/
theorem dsts_W6 : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by stretch_keeps
    _ = W3 m ρ c (Proc.devRef .tc main_v6) := W4_of_ne m ρ c main_v6 (by decide)
    _ = W2 m ρ c (Proc.devRef .tc main_v6) := by stretch_keeps
    _ = W1 m ρ c (Proc.devRef .tc main_v6) := by stretch_keeps

/-- The buffer is written once, before boundary 1, and kept up to boundary 4. -/
theorem wts_W4 : W4 m ρ c (Proc.devRef .tc main_v8) = W1 m ρ c (Proc.devRef .tc main_v8) :=
  calc W4 m ρ c (Proc.devRef .tc main_v8)
    _ = W3 m ρ c (Proc.devRef .tc main_v8) := W4_of_ne m ρ c main_v8 (by decide)
    _ = W2 m ρ c (Proc.devRef .tc main_v8) := by stretch_keeps
    _ = W1 m ρ c (Proc.devRef .tc main_v8) := by stretch_keeps

/-- The buffer is written once, before boundary 1, and kept up to boundary 6. -/
theorem wts_W6 : W6 m ρ c (Proc.devRef .tc main_v8) = W1 m ρ c (Proc.devRef .tc main_v8) :=
  calc W6 m ρ c (Proc.devRef .tc main_v8)
    _ = W5 m ρ c (Proc.devRef .tc main_v8) := W6_of_ne m ρ c main_v8 (by decide)
    _ = W4 m ρ c (Proc.devRef .tc main_v8) := by stretch_keeps
    _ = W3 m ρ c (Proc.devRef .tc main_v8) := W4_of_ne m ρ c main_v8 (by decide)
    _ = W2 m ρ c (Proc.devRef .tc main_v8) := by stretch_keeps
    _ = W1 m ρ c (Proc.devRef .tc main_v8) := by stretch_keeps

/-- The buffer is written once, before boundary 2, and kept up to boundary 4. -/
theorem scale_W4 : W4 m ρ c (Proc.devRef .tc main_v15) = W2 m ρ c (Proc.devRef .tc main_v15) :=
  calc W4 m ρ c (Proc.devRef .tc main_v15)
    _ = W3 m ρ c (Proc.devRef .tc main_v15) := W4_of_ne m ρ c main_v15 (by decide)
    _ = W2 m ρ c (Proc.devRef .tc main_v15) := by stretch_keeps

/-- The buffer is written once, before boundary 2, and kept up to boundary 6. -/
theorem scale_W6 : W6 m ρ c (Proc.devRef .tc main_v15) = W2 m ρ c (Proc.devRef .tc main_v15) :=
  calc W6 m ρ c (Proc.devRef .tc main_v15)
    _ = W5 m ρ c (Proc.devRef .tc main_v15) := W6_of_ne m ρ c main_v15 (by decide)
    _ = W4 m ρ c (Proc.devRef .tc main_v15) := by stretch_keeps
    _ = W3 m ρ c (Proc.devRef .tc main_v15) := W4_of_ne m ρ c main_v15 (by decide)
    _ = W2 m ρ c (Proc.devRef .tc main_v15) := by stretch_keeps

/-- The buffer is written once, before boundary 9, and kept up to boundary 10. -/
theorem pooled_W10 : W10 m ρ c (Proc.devRef .tc main_v62) = W9 m ρ c (Proc.devRef .tc main_v62) :=
  calc W10 m ρ c (Proc.devRef .tc main_v62)
    _ = W9 m ρ c (Proc.devRef .tc main_v62) := W10_of_ne m ρ c main_v62 (by decide)

end Cert.KernelIdeal.Stages

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.HostStagesB.lean ====
/-
  The kernel program's host operations between and after its regions, at the run's own boundaries.

  Each fact instantiates a stretch's operation at the contents the run has reached, and replaces every buffer the stretch
  only reads by what it has held since it was written: the edge vectors, weights and scale factors by the reference's
  stages of the same arguments, an argument array by the launch contents. A bias row reads, at (0, k), the bias vector's
  entry k; the scale column reads, at (r, 0), the scale factor of node r.
-/
import proofs.«105699_j61710090109663_2_alg».proof.Proof.HostStagesA
import proofs.«105699_j61710090109663_2_alg».proof.Proof.HostKept
import proofs.«105699_j61710090109663_2_alg».proof.Proof.LibKeepdims
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read (val_main_v11 val_main_v12 val_main_v14 val_main_v21)

variable (m : (ℓ : Loc nD τ sig) → Buf (Elt Ideal) ℓ) (ρ : Dev nD → PrngReg) (c : Dev nD)

/-! ## Before the first region -/

/-- The embedding's bias row. -/
theorem bias0_at (k : Fin 256) : (W3 m ρ c (Proc.devRef .tc main_v16)) (ix2 (0 : Fin 1) k) = (m ((c : Thread nD τ).loc main_arg6)) (ix1 k) := by
  show StableHlo.after hostOps0_2 (W2 m ρ c) (Proc.devRef .tc main_v16) (ix2 (0 : Fin 1) k) = _
  rw [stretch_bias0, arg6_W2]
  exact shapeCast_a_1a_apply _ _ 0 k

/-- The scale column the first region reads. -/
theorem scaleCol0_at (r : Fin 50000) : (W3 m ρ c (Proc.devRef .tc main_v17)) (ix2 r (0 : Fin 1)) = (val_main_v21 (F := Ideal) (m ((c : Thread nD τ).loc main_arg1)) (m ((c : Thread nD τ).loc main_arg4))) (ix1 r) := by
  show StableHlo.after hostOps0_2 (W2 m ρ c) (Proc.devRef .tc main_v17) (ix2 r (0 : Fin 1)) = _
  rw [stretch_scaleCol0, scale_W2]
  exact shapeCast_a_a1_apply _ _ r 0

/-! ## Between the first and the second region -/

/-- The first aggregation, of the first region's output rows, over the reference's edge vectors and weights. -/
theorem agg1_W5 : W5 m ρ c (Proc.devRef .tc main_v31)
    = rowAgg (N := 50000) (E := 450000) (K := 256) (w := 32) gather_S50000x256_S450000x1_S450000x256_1_0_n_n_0_1_1256.wf scatter_S50000x256_S450000x1_S450000x256_1_0_0_1.wf bcast_S_S50000x256 bcast_S450000_S450000x1_0 bcast_S450000x1_S450000x256_0_1 0x00000000#32 (val_main_v12 (F := Ideal) (m ((c : Thread nD τ).loc main_arg1))) (wrapNeg bcast_S_S450000 50000 (val_main_v11 (F := Ideal) (m ((c : Thread nD τ).loc main_arg1)))) (val_main_v14 (F := Ideal) (m ((c : Thread nD τ).loc main_arg4))) (W4 m ρ c (Proc.devRef .tc main_v18)) := by
  show StableHlo.after hostOps1 (W4 m ρ c) (Proc.devRef .tc main_v31) = _
  rw [stretch_agg1, dsts_W4, dsts_W1, srcs_W4, srcs_W1, wts_W4, wts_W1]

/-- The first layer's bias row. -/
theorem bias1_at (k : Fin 256) : (W5 m ρ c (Proc.devRef .tc main_v32)) (ix2 (0 : Fin 1) k) = (m ((c : Thread nD τ).loc main_arg8)) (ix1 k) := by
  show StableHlo.after hostOps1 (W4 m ρ c) (Proc.devRef .tc main_v32) (ix2 (0 : Fin 1) k) = _
  rw [stretch_bias1, arg8_W4]
  exact shapeCast_a_1a_apply _ _ 0 k

/-- The scale column the second region reads. -/
theorem scaleCol1_at (r : Fin 50000) : (W5 m ρ c (Proc.devRef .tc main_v33)) (ix2 r (0 : Fin 1)) = (val_main_v21 (F := Ideal) (m ((c : Thread nD τ).loc main_arg1)) (m ((c : Thread nD τ).loc main_arg4))) (ix1 r) := by
  show StableHlo.after hostOps1 (W4 m ρ c) (Proc.devRef .tc main_v33) (ix2 r (0 : Fin 1)) = _
  rw [stretch_scaleCol1, scale_W4, scale_W2]
  exact shapeCast_a_a1_apply _ _ r 0

/-! ## Between the second and the third region -/

/-- The second aggregation, of the second region's output rows. -/
theorem agg2_W7 : W7 m ρ c (Proc.devRef .tc main_v47)
    = rowAgg (N := 50000) (E := 450000) (K := 256) (w := 32) gather_S50000x256_S450000x1_S450000x256_1_0_n_n_0_1_1256.wf scatter_S50000x256_S450000x1_S450000x256_1_0_0_1.wf bcast_S_S50000x256 bcast_S450000_S450000x1_0 bcast_S450000x1_S450000x256_0_1 0x00000000#32 (val_main_v12 (F := Ideal) (m ((c : Thread nD τ).loc main_arg1))) (wrapNeg bcast_S_S450000 50000 (val_main_v11 (F := Ideal) (m ((c : Thread nD τ).loc main_arg1)))) (val_main_v14 (F := Ideal) (m ((c : Thread nD τ).loc main_arg4))) (W6 m ρ c (Proc.devRef .tc main_v34)) := by
  show StableHlo.after hostOps2 (W6 m ρ c) (Proc.devRef .tc main_v47) = _
  rw [stretch_agg2, dsts_W6, dsts_W1, srcs_W6, srcs_W1, wts_W6, wts_W1]

/-- The second layer's bias row. -/
theorem bias2_at (k : Fin 256) : (W7 m ρ c (Proc.devRef .tc main_v48)) (ix2 (0 : Fin 1) k) = (m ((c : Thread nD τ).loc main_arg10)) (ix1 k) := by
  show StableHlo.after hostOps2 (W6 m ρ c) (Proc.devRef .tc main_v48) (ix2 (0 : Fin 1) k) = _
  rw [stretch_bias2, arg10_W6]
  exact shapeCast_a_1a_apply _ _ 0 k

/-- The scale column the third region reads. -/
theorem scaleCol2_at (r : Fin 50000) : (W7 m ρ c (Proc.devRef .tc main_v49)) (ix2 r (0 : Fin 1)) = (val_main_v21 (F := Ideal) (m ((c : Thread nD τ).loc main_arg1)) (m ((c : Thread nD τ).loc main_arg4))) (ix1 r) := by
  show StableHlo.after hostOps2 (W6 m ρ c) (Proc.devRef .tc main_v49) (ix2 r (0 : Fin 1)) = _
  rw [stretch_scaleCol2, scale_W6, scale_W2]
  exact shapeCast_a_a1_apply _ _ r 0

/-! ## Between the third and the fourth region -/

/-- The mean pool of the third region's output over the batch vector. -/
theorem pool_W9 : W9 m ρ c (Proc.devRef .tc main_v62)
    = Host.divf
        (Host.scatterAdd scatter_S128x256_S50000x1_S50000x256_1_0_0_1
          (broadcastInDim S128x256 ![] bcast_S_S128x256 (constant (F := Ideal) S_ .f32 0x00000000#32))
          (broadcastInDim S50000x1 ![0] bcast_S50000_S50000x1_0 (m ((c : Thread nD τ).loc main_arg2))) (W8 m ρ c (Proc.devRef .tc main_v50)))
        (broadcastInDim S128x256 ![0, 1] bcast_S128x1_S128x256_0_1 (broadcastInDim S128x1 ![0] bcast_S128_S128x1_0
          (maximumf
            (Host.scatterAdd scatter_S128_S50000x1_S50000_n_0_0_1
              (broadcastInDim S128 ![] bcast_S_S128 (constant (F := Ideal) S_ .f32 0x00000000#32))
              (broadcastInDim S50000x1 ![0] bcast_S50000_S50000x1_0 (m ((c : Thread nD τ).loc main_arg2)))
              (broadcastInDim S50000 ![] bcast_S_S50000 (constant (F := Ideal) S_ .f32 0x3F800000#32)))
            (broadcastInDim S128 ![] bcast_S_S128 (constant (F := Ideal) S_ .f32 0x3F800000#32))))) := by
  show StableHlo.after hostOps3 (W8 m ρ c) (Proc.devRef .tc main_v62) = _
  rw [stretch_pool, arg2_W8]

/-- The graph features' bias row. -/
theorem bias3_at (k : Fin 256) : (W9 m ρ c (Proc.devRef .tc main_v63)) (ix2 (0 : Fin 1) k) = (m ((c : Thread nD τ).loc main_arg12)) (ix1 k) := by
  show StableHlo.after hostOps3 (W8 m ρ c) (Proc.devRef .tc main_v63) (ix2 (0 : Fin 1) k) = _
  rw [stretch_bias3, arg12_W8]
  exact shapeCast_a_1a_apply _ _ 0 k

/-! ## Between the fourth and the fifth region -/

/-- The pooled graph embedding joined with the fourth region's output along the columns. -/
theorem join_W11 : W11 m ρ c (Proc.devRef .tc main_v65)
    = concatenate S128x512 1 [⟨S128x256, W9 m ρ c (Proc.devRef .tc main_v62)⟩, ⟨S128x256, W10 m ρ c (Proc.devRef .tc main_v64)⟩] concatenates_S128x256_S128x256_S128x512_d1 := by
  show StableHlo.after hostOps4 (W10 m ρ c) (Proc.devRef .tc main_v65) = _
  rw [stretch_join, pooled_W10]

/-- The read-out's first bias row. -/
theorem bias4_at (k : Fin 256) : (W11 m ρ c (Proc.devRef .tc main_v66)) (ix2 (0 : Fin 1) k) = (m ((c : Thread nD τ).loc main_arg14)) (ix1 k) := by
  show StableHlo.after hostOps4 (W10 m ρ c) (Proc.devRef .tc main_v66) (ix2 (0 : Fin 1) k) = _
  rw [stretch_bias4, arg14_W10]
  exact shapeCast_a_1a_apply _ _ 0 k

/-- The read-out's second bias row. -/
theorem bias5_at (k : Fin 64) : (W11 m ρ c (Proc.devRef .tc main_v67)) (ix2 (0 : Fin 1) k) = (m ((c : Thread nD τ).loc main_arg16)) (ix1 k) := by
  show StableHlo.after hostOps4 (W10 m ρ c) (Proc.devRef .tc main_v67) (ix2 (0 : Fin 1) k) = _
  rw [stretch_bias5, arg16_W10]
  exact shapeCast_a_1a_apply _ _ 0 k

end Cert.KernelIdeal.Stages

end
-- ==== Proof.LayerFormulas.lean ====
/-
  The five dense pieces of a two-layer graph convolution network with a pooled read-out, each as ONE formula of its
  operand arrays at a (row, column), over the extended reals.

  A node table has 50000 rows; a hidden row has 256 entries. `dv` is a column of per-node scale factors (the inverse
  square roots of the weighted in-degrees). With `relu t = max t 0`:

  * `embedScaledAt`   : ( relu(x·We + be) · W1 )(r, c) · dv r           — the embedding and the first layer's linear map,
                                                                          each row pre-scaled for its role as an edge source;
  * `convScaledAt`    : ( relu(raw · dv + b) · W )(r, c) · dv r          — a layer's bias and relu on the aggregated rows
                                                                          (post-scaled as edge destinations), then the next
                                                                          layer's linear map, pre-scaled again;
  * `biasReluAt`      : relu(raw(r, c) · dv r + b c)                     — the last layer's bias and relu;
  * `denseReluAt`     : relu( (x·W)(r, c) + b c )                        — the per-graph feature embedding;
  * `headAt`          : ( relu(cmb·W1 + b1) · W2 )(r, c) + b2 c          — the two-layer read-out.

  Biases are held as one-row arrays [1, n], the scale factors as a one-column array [50000, 1].
-/
import Idealize.ShloMosaic.PureOps.Ideal
import Idealize.ShloMosaic.Lib.ValueIdx

noncomputable section

open scoped BigOperators

namespace Cert.GraphNet

open Idealize.ShloMosaic Idealize.ShloMosaic.ValueIdx

/-- An array of extended reals with `n` rows and `k` columns. -/
abbrev Mat (n k : ℕ) := (⟨2, ![n, k]⟩ : Shape).Idx → EReal

/-- One affine layer at (r, c): the sum over k of x(r, k) · w(k, c), plus the bias row's entry c. -/
def affineAt {M K N : ℕ} (x : Mat M K) (w : Mat K N) (b : Mat 1 N) (r : Fin M) (c : Fin N) : EReal :=
  (∑ k : Fin K, x (ix2 r k) * w (ix2 k c)) + b (ix2 (0 : Fin 1) c)

/-- relu(x·We + be) · W1 at (r, c), times the scale factor of row r. -/
def embedScaledAt (x : Mat 50000 4) (we : Mat 4 256) (be : Mat 1 256) (w1 : Mat 256 256) (dv : Mat 50000 1)
    (r : Fin 50000) (c : Fin 256) : EReal :=
  (∑ k : Fin 256, max (affineAt x we be r k) 0 * w1 (ix2 k c)) * dv (ix2 r (0 : Fin 1))

/-- relu(raw · dv + b) · W at (r, c), times the scale factor of row r. -/
def convScaledAt (raw : Mat 50000 256) (dv : Mat 50000 1) (b : Mat 1 256) (w : Mat 256 256)
    (r : Fin 50000) (c : Fin 256) : EReal :=
  (∑ k : Fin 256, max (raw (ix2 r k) * dv (ix2 r (0 : Fin 1)) + b (ix2 (0 : Fin 1) k)) 0 * w (ix2 k c)) * dv (ix2 r (0 : Fin 1))

/-- relu(raw(r, c) · dv r + b c). -/
def biasReluAt (raw : Mat 50000 256) (dv : Mat 50000 1) (b : Mat 1 256) (r : Fin 50000) (c : Fin 256) : EReal :=
  max (raw (ix2 r c) * dv (ix2 r (0 : Fin 1)) + b (ix2 (0 : Fin 1) c)) 0

/-- relu((x·W)(r, c) + b c). -/
def denseReluAt (x : Mat 128 16) (w : Mat 16 256) (b : Mat 1 256) (r : Fin 128) (c : Fin 256) : EReal :=
  max (affineAt x w b r c) 0

/-- (relu(cmb·W1 + b1) · W2)(r, c) + b2 c. -/
def headAt (cmb : Mat 128 512) (w1 : Mat 512 256) (b1 : Mat 1 256) (w2 : Mat 256 64) (b2 : Mat 1 64)
    (r : Fin 128) (c : Fin 64) : EReal :=
  (∑ k : Fin 256, max (affineAt cmb w1 b1 r k) 0 * w2 (ix2 k c)) + b2 (ix2 (0 : Fin 1) c)

end Cert.GraphNet

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.EmbedBlocks.lean ====
/-
  Region 0 (the node embedding and the first layer's linear map), from blocks to the whole array.

  The node table x has 50000 rows of 4 entries and is read in 25 row tiles of 2000 rows; the scale column
  dv [50000, 1] and the output [50000, 256] are tiled by the same 2000 rows, while the embedding matrix We [4, 256],
  its bias row be [1, 256] and the layer matrix W1 [256, 256] are read whole at every grid point. Grid point t holds
  rows 2000 t … 2000 t + 1999.

  Inside a tile, output entry (p, q) is
      ( Σ_k  max( Σ_j x(p, j) · We(j, k) + be(0, k), 0 ) · W1(k, q) ) · dv(p, 0),
  so it depends on row p of the x tile, on row p of the scale tile, and on the three whole arrays: nothing of any
  other row. Reading each tile's row p as row 2000 t + p of its array gives, for the array after all 25 points,
      out(r, q) = embedScaledAt x We be W1 dv r q       for every row r and column q,
  since the 25 tiles cover all 50000 rows (row r lies in tile r / 2000).
-/
import proofs.«105699_j61710090109663_2_alg».proof.Proof.Gen.KernelIdeal.Frame
import proofs.«105699_j61710090109663_2_alg».proof.Proof.LayerFormulas
import proofs.«105699_j61710090109663_2_alg».proof.Proof.LibDotIx2
import proofs.«105699_j61710090109663_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Cert.GraphNet
open Idealize.ShloMosaic Idealize.ShloMosaic.TcCoe Idealize.SL.Sem Idealize.ShloMosaic.ValueIdx
open Idealize.ShloMosaic.Pipeline (Dat)

/-! ## The two matrix products of the tile are plain products -/

/-- The [2000, 4] by [4, 256] product contracts the left operand's columns with the right operand's rows. -/
theorem plain_embed_dot : PlainDot dot_S2000x4_S4x256_S2000x256_1_0_0_1_n_n where
  rank := rfl
  size := rfl
  l0 := fun j q => by
    unfold DotDims.lhsIdx
    rw [dif_neg (show ¬(0 : Fin S2000x4.rank) ∈ dot_S2000x4_S4x256_S2000x256_1_0_0_1_n_n.lhsBatch by decide),
      dif_pos (show (0 : Fin S2000x4.rank) ∈ dot_S2000x4_S4x256_S2000x256_1_0_0_1_n_n.lhsNonContracting by decide)]
    rfl
  l1 := fun j q => dot_S2000x4_S4x256_S2000x256_1_0_0_1_n_n.lhsIdx_val_of_single rfl j q
  r0 := fun j q => dot_S2000x4_S4x256_S2000x256_1_0_0_1_n_n.rhsIdx_val_of_single rfl j q
  r1 := fun j q => by
    unfold DotDims.rhsIdx
    rw [dif_neg (show ¬(1 : Fin S4x256.rank) ∈ dot_S2000x4_S4x256_S2000x256_1_0_0_1_n_n.rhsBatch by decide),
      dif_pos (show (1 : Fin S4x256.rank) ∈ dot_S2000x4_S4x256_S2000x256_1_0_0_1_n_n.rhsNonContracting by decide)]
    rfl

/-- The [2000, 256] by [256, 256] product likewise. -/
theorem plain_hidden_dot : PlainDot dot_S2000x256_S256x256_S2000x256_1_0_0_1_n_n where
  rank := rfl
  size := rfl
  l0 := fun j q => by
    unfold DotDims.lhsIdx
    rw [dif_neg (show ¬(0 : Fin S2000x256.rank) ∈ dot_S2000x256_S256x256_S2000x256_1_0_0_1_n_n.lhsBatch by decide),
      dif_pos (show (0 : Fin S2000x256.rank) ∈ dot_S2000x256_S256x256_S2000x256_1_0_0_1_n_n.lhsNonContracting by decide)]
    rfl
  l1 := fun j q => dot_S2000x256_S256x256_S2000x256_1_0_0_1_n_n.lhsIdx_val_of_single rfl j q
  r0 := fun j q => dot_S2000x256_S256x256_S2000x256_1_0_0_1_n_n.rhsIdx_val_of_single rfl j q
  r1 := fun j q => by
    unfold DotDims.rhsIdx
    rw [dif_neg (show ¬(1 : Fin S256x256.rank) ∈ dot_S2000x256_S256x256_S2000x256_1_0_0_1_n_n.rhsBatch by decide),
      dif_pos (show (1 : Fin S256x256.rank) ∈ dot_S2000x256_S256x256_S2000x256_1_0_0_1_n_n.rhsNonContracting by decide)]
    rfl

/-! ## One entry of a tile's result -/

/-- Entry (p, q) of what the body computes from its five loaded blocks: the embedding row p, its relu, the product
    with W1's column q, scaled by the scale tile's row p. -/
theorem embed_tile_apply (x0 : Vec Ideal S2000x4 .f32) (x1 : Vec Ideal S4x256 .f32) (x2 : Vec Ideal S1x256 .f32)
    (x3 : Vec Ideal S256x256 .f32) (x4 : Vec Ideal S2000x1 .f32) (p : Fin 2000) (q : Fin 256) :
    k0_pay1 (F := Ideal) x0 x1 x2 x3 x4 (ix2 p q)
      = (∑ k : Fin 256, max ((∑ j : Fin 4, x0 (ix2 p j) * x1 (ix2 j k)) + x2 (ix2 (0 : Fin 1) k)) 0 * x3 (ix2 k q))
          * x4 (ix2 p (0 : Fin 1)) := by
  unfold k0_pay1
  simp only [matmul, shapeCast_self]
  rw [mulf_apply, broadcastTo_a1_ab_apply, matmul_zero_ix2_any plain_hidden_dot]
  refine congrArg (· * x4 (ix2 p (0 : Fin 1))) (Finset.sum_congr rfl fun k _ => ?_)
  rw [truncf_apply, truncf_apply, maximumf_apply, broadcast_apply, addf_apply, broadcastTo_1b_ab_apply,
    matmul_zero_ix2_any plain_embed_dot]
  simp only [truncf_apply]
  rw [Ideal.ofBits_def, Ideal.ofBits_zero_f32]

/-! ## Which rows each block holds -/

theorem embed_hz : (![0, 0] : Fin 2 → Nat) = fun _ => 0 := funext fun a => by fin_cases a <;> rfl

/-- The block indices at grid point t: the three row-tiled windows (x, the scale column, the output) are at row
    block t, column block 0; the three whole windows are at block (0, 0). -/
theorem embed_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row p of the x tile at point t is row 2000 t + p of x. -/
theorem embed_x_block (c : Dev nD) (t : Fin cfg0.N) (p : Fin 2000) (j : Fin 4) (i : S50000x4.Idx)
    (h0 : (i 0).val = t.val * 2000 + p.val) (h1 : (i 1).val = j.val) :
    (iblk0 V c 0 t : Vec Ideal S2000x4 .f32) (ix2 p j) = (V c (Pipeline.arrRef spec0 0) : S50000x4.Idx → EReal) i := by
  obtain ⟨e0, e1, -⟩ := embed_index_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * p.val = (i 0).val; rw [e0, h0]; omega
  | ⟨1, _⟩ => show win0_0.index t (1 : Fin 2) * 4 + 1 * j.val = (i 1).val; rw [e1, h1]; omega

/-- The embedding matrix is read whole at every point. -/
theorem embed_we_block (c : Dev nD) (t : Fin cfg0.N) (j : Fin 4) (k : Fin 256) :
    (iblk0 V c 1 t : Vec Ideal S4x256 .f32) (ix2 j k) = (V c (Pipeline.arrRef spec0 1) : S4x256.Idx → EReal) (ix2 j k) := by
  obtain ⟨-, -, e0, e1, -⟩ := embed_index_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 4 + 1 * j.val = j.val; rw [e0]; omega
  | ⟨1, _⟩ => show win0_1.index t (1 : Fin 2) * 256 + 1 * k.val = k.val; rw [e1]; omega

/-- The bias row is read whole at every point. -/
theorem embed_be_block (c : Dev nD) (t : Fin cfg0.N) (k : Fin 256) :
    (iblk0 V c 2 t : Vec Ideal S1x256 .f32) (ix2 (0 : Fin 1) k)
      = (V c (Pipeline.arrRef spec0 2) : S1x256.Idx → EReal) (ix2 (0 : Fin 1) k) := by
  obtain ⟨-, -, -, -, e0, e1, -⟩ := embed_index_facts t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; rw [e0]
  | ⟨1, _⟩ => show win0_2.index t (1 : Fin 2) * 256 + 1 * k.val = k.val; rw [e1]; omega

/-- The layer matrix is read whole at every point. -/
theorem embed_w1_block (c : Dev nD) (t : Fin cfg0.N) (k : Fin 256) (q : Fin 256) :
    (iblk0 V c 3 t : Vec Ideal S256x256 .f32) (ix2 k q) = (V c (Pipeline.arrRef spec0 3) : S256x256.Idx → EReal) (ix2 k q) := by
  obtain ⟨-, -, -, -, -, -, e0, e1, -⟩ := embed_index_facts t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 256 + 1 * k.val = k.val; rw [e0]; omega
  | ⟨1, _⟩ => show win0_3.index t (1 : Fin 2) * 256 + 1 * q.val = q.val; rw [e1]; omega

/-- Row p of the scale tile at point t is row 2000 t + p of the scale column. -/
theorem embed_dv_block (c : Dev nD) (t : Fin cfg0.N) (p : Fin 2000) (i : S50000x1.Idx)
    (h0 : (i 0).val = t.val * 2000 + p.val) :
    (iblk0 V c 4 t : Vec Ideal S2000x1 .f32) (ix2 p (0 : Fin 1)) = (V c (Pipeline.arrRef spec0 4) : S50000x1.Idx → EReal) i := by
  obtain ⟨-, -, -, -, -, -, -, -, e0, e1, -⟩ := embed_index_facts t
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 2000 + 1 * p.val = (i 0).val; rw [e0, h0]; omega
  | ⟨1, _⟩ => show win0_4.index t (1 : Fin 2) * 1 + 1 * 0 = (i 1).val; rw [e1]; have h1 : (i 1).val < 1 := (i 1).isLt; omega

/-! ## The whole array -/

/-- The array the region leaves: entry (r, q) is the closed formula of the five input arrays. -/
def embedArr (c : Dev nD) : S50000x256.Idx → EReal := fun i =>
  embedScaledAt (V c (Pipeline.arrRef spec0 0)) (V c (Pipeline.arrRef spec0 1)) (V c (Pipeline.arrRef spec0 2))
    (V c (Pipeline.arrRef spec0 3)) (V c (Pipeline.arrRef spec0 4)) ⟨(i 0).val, idx2_lt0 i⟩ ⟨(i 1).val, idx2_lt1 i⟩

/-- What grid point t writes back is rows 2000 t … 2000 t + 1999 of that array. -/
theorem embed_flushed (c : Dev nD) (t : Fin cfg0.N) :
    (dat0 (F := Ideal) V c).flushed 5 t = ((cfg0.win 5).blk t).view.read (Elt Ideal) (embedArr V c) := by
  show (cfg0.win 5).cut (grid0.coords t) ((dat0 V c).after 5 t) = _
  rw [after0_5]
  unfold out0_5
  rw [View.canon_unit_zero embed_hz]
  simp only [View.ld_unit_zero (S := S2000x4) embed_hz, View.ld_unit_zero (S := S4x256) embed_hz, View.ld_unit_zero (S := S1x256) embed_hz,
    View.ld_unit_zero (S := S256x256) embed_hz, View.ld_unit_zero (S := S2000x1) embed_hz]
  obtain ⟨-, -, -, -, -, -, -, -, -, -, e0, e1⟩ := embed_index_facts t
  have ht : t.val < 25 := Nat.lt_of_lt_of_eq t.isLt N_0
  refine funext fun (y : S2000x256.Idx) => ?_
  obtain ⟨p, q, rfl⟩ : ∃ (p : Fin 2000) (q : Fin 256), y = ix2 p q := ⟨y 0, y 1, eq_ix2 y⟩
  have hp : p.val < 2000 := p.isLt
  have hrow : t.val * 2000 + p.val < 50000 := by omega
  have hemb : ((cfg0.win 5).blk t).view.emb (ix2 p q) = (ix2 (⟨t.val * 2000 + p.val, hrow⟩ : Fin 50000) q : S50000x256.Idx) := by
    funext a
    apply Fin.ext
    match a with
    | ⟨0, _⟩ => show win0_5.index t (0 : Fin 2) * 2000 + 1 * p.val = t.val * 2000 + p.val; rw [e0]; omega
    | ⟨1, _⟩ => show win0_5.index t (1 : Fin 2) * 256 + 1 * q.val = q.val; rw [e1]; omega
  show k0_pay1 (F := Ideal) (iblk0 V c 0 t) (iblk0 V c 1 t) (iblk0 V c 2 t) (iblk0 V c 3 t) (iblk0 V c 4 t) (ix2 p q)
    = embedArr V c (((cfg0.win 5).blk t).view.emb (ix2 p q))
  rw [hemb]
  refine (embed_tile_apply (iblk0 V c 0 t) (iblk0 V c 1 t) (iblk0 V c 2 t) (iblk0 V c 3 t) (iblk0 V c 4 t) p q).trans ?_
  show _ = embedScaledAt (V c (Pipeline.arrRef spec0 0)) (V c (Pipeline.arrRef spec0 1)) (V c (Pipeline.arrRef spec0 2))
    (V c (Pipeline.arrRef spec0 3)) (V c (Pipeline.arrRef spec0 4)) (⟨t.val * 2000 + p.val, hrow⟩ : Fin 50000) q
  unfold embedScaledAt affineAt
  refine congrArg₂ (· * ·) (Finset.sum_congr rfl fun k _ => ?_) (embed_dv_block V c t p _ rfl)
  refine congrArg₂ (· * ·) (congrArg (max · 0) (congrArg₂ (· + ·) (Finset.sum_congr rfl fun j _ => ?_) (embed_be_block V c t k)))
    (embed_w1_block V c t k q)
  exact congrArg₂ (· * ·) (embed_x_block V c t p j _ rfl rfl) (embed_we_block V c t j k)

/-- An index of the output array is in point t's block iff each coordinate is in the block's range on its axis. -/
theorem embed_mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v18).slice (win0_5.rect t)).set ↔ _
  rw [View.set_slice_whole, Rect.mem_set_unit]
  exact Iff.rfl

/-- Every entry of the output array is in some point's block: row r lies in tile r / 2000. -/
theorem embed_cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have hlt : (i 0).val / 2000 < cfg0.N := by rw [hN]; omega
  obtain ⟨-, -, -, -, -, -, -, -, -, -, e0, e1⟩ := embed_index_facts ⟨(i 0).val / 2000, hlt⟩
  refine ⟨⟨(i 0).val / 2000, hlt⟩, flush0_5 _, ?_⟩
  rw [embed_mem_blk]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hlt⟩ (1 : Fin 2) * 256 ≤ (i 1).val
      ∧ (i 1).val < win0_5.index ⟨(i 0).val / 2000, hlt⟩ (1 : Fin 2) * 256 + 256
    rw [e1]; omega

/-- THE OUTPUT ARRAY of region 0 after its 25 points, read at (r, q): the embedding of node r, its relu, the first
    layer's linear map at column q, times node r's scale factor — a formula of the arrays the region was entered with. -/
theorem embed_value (c : Dev nD) (r : Fin 50000) (q : Fin 256) :
    (dat0 (F := Ideal) V c).arrAt 5 cfg0.N (ix2 r q)
      = embedScaledAt (V c (Pipeline.arrRef spec0 0)) (V c (Pipeline.arrRef spec0 1)) (V c (Pipeline.arrRef spec0 2))
          (V c (Pipeline.arrRef spec0 3)) (V c (Pipeline.arrRef spec0 4)) r q :=
  congrFun ((dat0 (F := Ideal) V c).arrAt_eq_of_cover 5 (embedArr V c) (fun t _ => embed_flushed V c t) embed_cover) (ix2 r q)

end Cert.KernelIdeal.RegionValue

end
-- ==== Proof.ConvBlocks.lean ====
/-
  Region 1 (a layer's bias and relu on the aggregated rows, then the next layer's linear map), from blocks to the
  whole array.

  The aggregated rows raw [50000, 256], the scale column dv [50000, 1] and the output [50000, 256] are read and
  written in 25 row tiles of 2000 rows; the bias row b [1, 256] and the layer matrix W [256, 256] are read whole at
  every grid point. Grid point t holds rows 2000 t … 2000 t + 1999. The body loads the scale tile twice — once to
  scale the aggregated rows, once to scale the product — and both loads are the same block.

  Inside a tile, output entry (p, q) is
      ( Σ_k  max( raw(p, k) · dv(p, 0) + b(0, k), 0 ) · W(k, q) ) · dv(p, 0),
  so it depends on row p of the raw tile, on row p of the scale tile, and on the two whole arrays: nothing of any
  other row. Reading each tile's row p as row 2000 t + p of its array gives, for the array after all 25 points,
      out(r, q) = convScaledAt raw dv b W r q       for every row r and column q,
  since the 25 tiles cover all 50000 rows (row r lies in tile r / 2000).
-/
import proofs.«105699_j61710090109663_2_alg».proof.Proof.Gen.KernelIdeal.Frame
import proofs.«105699_j61710090109663_2_alg».proof.Proof.LayerFormulas
import proofs.«105699_j61710090109663_2_alg».proof.Proof.LibDotIx2
import proofs.«105699_j61710090109663_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Cert.GraphNet
open Idealize.ShloMosaic Idealize.ShloMosaic.TcCoe Idealize.SL.Sem Idealize.ShloMosaic.ValueIdx
open Idealize.ShloMosaic.Pipeline (Dat)

/-! ## The tile's matrix product is a plain product -/

/-- The [2000, 256] by [256, 256] product contracts the left operand's columns with the right operand's rows. -/
theorem plain_conv_dot : PlainDot dot_S2000x256_S256x256_S2000x256_1_0_0_1_n_n where
  rank := rfl
  size := rfl
  l0 := fun j q => by
    unfold DotDims.lhsIdx
    rw [dif_neg (show ¬(0 : Fin S2000x256.rank) ∈ dot_S2000x256_S256x256_S2000x256_1_0_0_1_n_n.lhsBatch by decide),
      dif_pos (show (0 : Fin S2000x256.rank) ∈ dot_S2000x256_S256x256_S2000x256_1_0_0_1_n_n.lhsNonContracting by decide)]
    rfl
  l1 := fun j q => dot_S2000x256_S256x256_S2000x256_1_0_0_1_n_n.lhsIdx_val_of_single rfl j q
  r0 := fun j q => dot_S2000x256_S256x256_S2000x256_1_0_0_1_n_n.rhsIdx_val_of_single rfl j q
  r1 := fun j q => by
    unfold DotDims.rhsIdx
    rw [dif_neg (show ¬(1 : Fin S256x256.rank) ∈ dot_S2000x256_S256x256_S2000x256_1_0_0_1_n_n.rhsBatch by decide),
      dif_pos (show (1 : Fin S256x256.rank) ∈ dot_S2000x256_S256x256_S2000x256_1_0_0_1_n_n.rhsNonContracting by decide)]
    rfl

/-! ## One entry of a tile's result -/

/-- Entry (p, q) of what the body computes from its loaded blocks (the scale tile loaded twice, as x1 and x4): row p
    of the raw tile scaled by the first scale load, plus the bias row, its relu, the product with W's column q,
    scaled by the second scale load's row p. -/
theorem conv_tile_apply (x0 : Vec Ideal S2000x256 .f32) (x1 : Vec Ideal S2000x1 .f32) (x2 : Vec Ideal S1x256 .f32)
    (x3 : Vec Ideal S256x256 .f32) (x4 : Vec Ideal S2000x1 .f32) (p : Fin 2000) (q : Fin 256) :
    k1_pay1 (F := Ideal) x0 x1 x2 x3 x4 (ix2 p q)
      = (∑ k : Fin 256, max (x0 (ix2 p k) * x1 (ix2 p (0 : Fin 1)) + x2 (ix2 (0 : Fin 1) k)) 0 * x3 (ix2 k q))
          * x4 (ix2 p (0 : Fin 1)) := by
  unfold k1_pay1
  simp only [matmul, shapeCast_self]
  rw [mulf_apply, broadcastTo_a1_ab_apply, matmul_zero_ix2_any plain_conv_dot]
  refine congrArg (· * x4 (ix2 p (0 : Fin 1))) (Finset.sum_congr rfl fun k _ => ?_)
  rw [truncf_apply, truncf_apply, maximumf_apply, broadcast_apply, addf_apply, broadcastTo_1b_ab_apply, mulf_apply,
    broadcastTo_a1_ab_apply, Ideal.ofBits_def, Ideal.ofBits_zero_f32]

/-! ## Which rows each block holds -/

theorem conv_hz : (![0, 0] : Fin 2 → Nat) = fun _ => 0 := funext fun a => by fin_cases a <;> rfl

/-- The block indices at grid point t: the three row-tiled windows (the aggregated rows, the scale column, the
    output) are at row block t, column block 0; the two whole windows are at block (0, 0). -/
theorem conv_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row p of the raw tile at point t is row 2000 t + p of the aggregated rows. -/
theorem conv_raw_block (c : Dev nD) (t : Fin cfg1.N) (p : Fin 2000) (k : Fin 256) (i : S50000x256.Idx)
    (h0 : (i 0).val = t.val * 2000 + p.val) (h1 : (i 1).val = k.val) :
    (iblk1 V c 0 t : Vec Ideal S2000x256 .f32) (ix2 p k) = (V c (Pipeline.arrRef spec1 0) : S50000x256.Idx → EReal) i := by
  obtain ⟨e0, e1, -⟩ := conv_index_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * p.val = (i 0).val; rw [e0, h0]; omega
  | ⟨1, _⟩ => show win1_0.index t (1 : Fin 2) * 256 + 1 * k.val = (i 1).val; rw [e1, h1]; omega

/-- Row p of the scale tile at point t is row 2000 t + p of the scale column. -/
theorem conv_dv_block (c : Dev nD) (t : Fin cfg1.N) (p : Fin 2000) (i : S50000x1.Idx)
    (h0 : (i 0).val = t.val * 2000 + p.val) :
    (iblk1 V c 1 t : Vec Ideal S2000x1 .f32) (ix2 p (0 : Fin 1)) = (V c (Pipeline.arrRef spec1 1) : S50000x1.Idx → EReal) i := by
  obtain ⟨-, -, e0, e1, -⟩ := conv_index_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 2000 + 1 * p.val = (i 0).val; rw [e0, h0]; omega
  | ⟨1, _⟩ => show win1_1.index t (1 : Fin 2) * 1 + 1 * 0 = (i 1).val; rw [e1]; have h1 : (i 1).val < 1 := (i 1).isLt; omega

/-- The bias row is read whole at every point. -/
theorem conv_b_block (c : Dev nD) (t : Fin cfg1.N) (k : Fin 256) :
    (iblk1 V c 2 t : Vec Ideal S1x256 .f32) (ix2 (0 : Fin 1) k)
      = (V c (Pipeline.arrRef spec1 2) : S1x256.Idx → EReal) (ix2 (0 : Fin 1) k) := by
  obtain ⟨-, -, -, -, e0, e1, -⟩ := conv_index_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * 0 = 0; rw [e0]
  | ⟨1, _⟩ => show win1_2.index t (1 : Fin 2) * 256 + 1 * k.val = k.val; rw [e1]; omega

/-- The layer matrix is read whole at every point. -/
theorem conv_w_block (c : Dev nD) (t : Fin cfg1.N) (k : Fin 256) (q : Fin 256) :
    (iblk1 V c 3 t : Vec Ideal S256x256 .f32) (ix2 k q) = (V c (Pipeline.arrRef spec1 3) : S256x256.Idx → EReal) (ix2 k q) := by
  obtain ⟨-, -, -, -, -, -, e0, e1, -⟩ := conv_index_facts t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-! ## The whole array -/

/-- The array the region leaves: entry (r, q) is the closed formula of the four input arrays. -/
def convArr (c : Dev nD) : S50000x256.Idx → EReal := fun i =>
  convScaledAt (V c (Pipeline.arrRef spec1 0)) (V c (Pipeline.arrRef spec1 1)) (V c (Pipeline.arrRef spec1 2))
    (V c (Pipeline.arrRef spec1 3)) ⟨(i 0).val, idx2_lt0 i⟩ ⟨(i 1).val, idx2_lt1 i⟩

/-- What grid point t writes back is rows 2000 t … 2000 t + 1999 of that array. -/
theorem conv_flushed (c : Dev nD) (t : Fin cfg1.N) :
    (dat1 (F := Ideal) V c).flushed 4 t = ((cfg1.win 4).blk t).view.read (Elt Ideal) (convArr V c) := by
  show (cfg1.win 4).cut (grid1.coords t) ((dat1 V c).after 4 t) = _
  rw [after1_4]
  unfold out1_4
  rw [View.canon_unit_zero conv_hz]
  simp only [View.ld_unit_zero (S := S2000x256) conv_hz, View.ld_unit_zero (S := S2000x1) conv_hz, View.ld_unit_zero (S := S1x256) conv_hz,
    View.ld_unit_zero (S := S256x256) conv_hz]
  obtain ⟨-, -, -, -, -, -, -, -, e0, e1⟩ := conv_index_facts t
  have ht : t.val < 25 := Nat.lt_of_lt_of_eq t.isLt N_1
  refine funext fun (y : S2000x256.Idx) => ?_
  obtain ⟨p, q, rfl⟩ : ∃ (p : Fin 2000) (q : Fin 256), y = ix2 p q := ⟨y 0, y 1, eq_ix2 y⟩
  have hp : p.val < 2000 := p.isLt
  have hrow : t.val * 2000 + p.val < 50000 := by omega
  have hemb : ((cfg1.win 4).blk t).view.emb (ix2 p q) = (ix2 (⟨t.val * 2000 + p.val, hrow⟩ : Fin 50000) q : S50000x256.Idx) := by
    funext a
    apply Fin.ext
    match a with
    | ⟨0, _⟩ => show win1_4.index t (0 : Fin 2) * 2000 + 1 * p.val = t.val * 2000 + p.val; rw [e0]; omega
    | ⟨1, _⟩ => show win1_4.index t (1 : Fin 2) * 256 + 1 * q.val = q.val; rw [e1]; omega
  show k1_pay1 (F := Ideal) (iblk1 V c 0 t) (iblk1 V c 1 t) (iblk1 V c 2 t) (iblk1 V c 3 t) (iblk1 V c 1 t) (ix2 p q)
    = convArr V c (((cfg1.win 4).blk t).view.emb (ix2 p q))
  rw [hemb]
  refine (conv_tile_apply (iblk1 V c 0 t) (iblk1 V c 1 t) (iblk1 V c 2 t) (iblk1 V c 3 t) (iblk1 V c 1 t) p q).trans ?_
  show _ = convScaledAt (V c (Pipeline.arrRef spec1 0)) (V c (Pipeline.arrRef spec1 1)) (V c (Pipeline.arrRef spec1 2))
    (V c (Pipeline.arrRef spec1 3)) (⟨t.val * 2000 + p.val, hrow⟩ : Fin 50000) q
  unfold convScaledAt
  refine congrArg₂ (· * ·) (Finset.sum_congr rfl fun k _ => ?_) (conv_dv_block V c t p _ rfl)
  refine congrArg₂ (· * ·) (congrArg (max · 0) (congrArg₂ (· + ·) ?_ (conv_b_block V c t k))) (conv_w_block V c t k q)
  exact congrArg₂ (· * ·) (conv_raw_block V c t p k _ rfl rfl) (conv_dv_block V c t p _ rfl)

/-- An index of the output array is in point t's block iff each coordinate is in the block's range on its axis. -/
theorem conv_mem_blk (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v34).slice (win1_4.rect t)).set ↔ _
  rw [View.set_slice_whole, Rect.mem_set_unit]
  exact Iff.rfl

/-- Every entry of the output array is in some point's block: row r lies in tile r / 2000. -/
theorem conv_cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  have hlt : (i 0).val / 2000 < cfg1.N := by rw [hN]; omega
  obtain ⟨-, -, -, -, -, -, -, -, e0, e1⟩ := conv_index_facts ⟨(i 0).val / 2000, hlt⟩
  refine ⟨⟨(i 0).val / 2000, hlt⟩, flush1_4 _, ?_⟩
  rw [conv_mem_blk]
  intro a
  match a with
  | ⟨0, _⟩ =>
    show win1_4.index ⟨(i 0).val / 2000, hlt⟩ (0 : Fin 2) * 2000 ≤ (i 0).val
      ∧ (i 0).val < win1_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, hlt⟩ (1 : Fin 2) * 256 ≤ (i 1).val
      ∧ (i 1).val < win1_4.index ⟨(i 0).val / 2000, hlt⟩ (1 : Fin 2) * 256 + 256
    rw [e1]; omega

/-- THE OUTPUT ARRAY of region 1 after its 25 points, read at (r, q): node r's aggregated row scaled by its scale
    factor, plus the bias, its relu, the next layer's linear map at column q, times node r's scale factor again — a
    formula of the arrays the region was entered with. -/
theorem conv_value (c : Dev nD) (r : Fin 50000) (q : Fin 256) :
    (dat1 (F := Ideal) V c).arrAt 4 cfg1.N (ix2 r q)
      = convScaledAt (V c (Pipeline.arrRef spec1 0)) (V c (Pipeline.arrRef spec1 1)) (V c (Pipeline.arrRef spec1 2))
          (V c (Pipeline.arrRef spec1 3)) r q :=
  congrFun ((dat1 (F := Ideal) V c).arrAt_eq_of_cover 4 (convArr V c) (fun t _ => conv_flushed V c t) conv_cover) (ix2 r q)

end Cert.KernelIdeal.RegionValue

end
-- ==== Proof.GraphFeatureBlocks.lean ====
/-
  The per-graph feature embedding, region by region: what the one-point launch leaves in its output array.

  The launch has a single grid point and every window is its whole array: the 128 x 16 feature table x, the
  16 x 256 weight matrix W, the bias row b (a 1 x 256 array) and the 128 x 256 output. The body narrows x and W,
  multiplies them on the matrix unit into a zero accumulator, adds the bias row down the rows and takes the
  maximum with zero. On the extended reals a change of format is the identity, so the output entry at
  (r, q) is   max (Σ_k x (r, k) · W (k, q) + b (0, q), 0)   and depends on row r of x, column q of W and entry q of b.

  The steps: the dimension numbers are those of a plain product; the body's result at (r, q) is the formula
  of its three operands; every window's one block starts at row 0 and column 0, so each input block IS its
  array and the output block covers the output array; hence the array after the launch is that formula of
  the three input arrays as the launch finds them.
-/
import proofs.«105699_j61710090109663_2_alg».proof.Proof.Gen.KernelIdeal.Frame
import proofs.«105699_j61710090109663_2_alg».proof.Proof.LayerFormulas
import proofs.«105699_j61710090109663_2_alg».proof.Proof.LibDotIx2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at a row and a column -/

/-- The product x · W contracts the second axis of x with the first of W and batches nothing. -/
theorem graphFeature_plainDot : PlainDot dot_S128x16_S16x256_S128x256_1_0_0_1_n_n where
  rank := rfl
  size := rfl
  l0 := fun j q => by
    unfold DotDims.lhsIdx
    rw [dif_neg (show ¬(0 : Fin S128x16.rank) ∈ dot_S128x16_S16x256_S128x256_1_0_0_1_n_n.lhsBatch by decide),
      dif_pos (show (0 : Fin S128x16.rank) ∈ dot_S128x16_S16x256_S128x256_1_0_0_1_n_n.lhsNonContracting by decide)]
    rfl
  l1 := fun j q => dot_S128x16_S16x256_S128x256_1_0_0_1_n_n.lhsIdx_val_of_single rfl j q
  r0 := fun j q => dot_S128x16_S16x256_S128x256_1_0_0_1_n_n.rhsIdx_val_of_single rfl j q
  r1 := fun j q => by
    unfold DotDims.rhsIdx
    rw [dif_neg (show ¬(1 : Fin S16x256.rank) ∈ dot_S128x16_S16x256_S128x256_1_0_0_1_n_n.rhsBatch by decide),
      dif_pos (show (1 : Fin S16x256.rank) ∈ dot_S128x16_S16x256_S128x256_1_0_0_1_n_n.rhsNonContracting by decide)]
    rfl

/-- The body's result at (r, q), for any three operands: max (Σ_k x0 (r, k) · x1 (k, q) + x2 (0, q), 0). -/
theorem graphFeature_payload (x0 : Vec Ideal S128x16 .f32) (x1 : Vec Ideal S16x256 .f32) (x2 : Vec Ideal S1x256 .f32)
    (r : Fin 128) (q : Fin 256) :
    k3_pay1 (F := Ideal) x0 x1 x2 (ix2 r q) = Cert.GraphNet.denseReluAt x0 x1 x2 r q := by
  unfold k3_pay1
  rw [maximumf_apply, addf_apply]
  unfold Cert.GraphNet.denseReluAt Cert.GraphNet.affineAt
  refine congrArg₂ max (congrArg₂ (· + ·) ?_ ?_) ?_
  · exact matmul_zero_ix2_any graphFeature_plainDot none _ _ r q
  · rw [shapeCast_self]
    exact broadcastTo_1b_ab_apply x2 _ r q
  · show Ideal.ofBits .f32 0x00000000#32 = 0
    exact Ideal.ofBits_zero_f32

/-- The same at any index j of the output block, read against an index i of the output array with the same
    coordinates. -/
theorem graphFeature_point (x0 : Vec Ideal S128x16 .f32) (x1 : Vec Ideal S16x256 .f32) (x2 : Vec Ideal S1x256 .f32)
    (j i : S128x256.Idx) (h0 : (i 0).val = (j 0).val) (h1 : (i 1).val = (j 1).val) :
    k3_pay1 (F := Ideal) x0 x1 x2 j = Cert.GraphNet.denseReluAt x0 x1 x2 (i 0) (i 1) := by
  obtain ⟨p, q, rfl⟩ : ∃ (p : Fin 128) (q : Fin 256), j = ix2 p q := ⟨j 0, j 1, eq_ix2 j⟩
  have e0 : i 0 = p := Fin.ext h0
  have e1 : i 1 = q := Fin.ext h1
  rw [e0, e1]
  exact graphFeature_payload x0 x1 x2 p q

/-! ## From the blocks to the array -/

-- the buffer contents when the region is entered
variable (V : (c : Dev nD) → (b : Ref sig .tc) → Buf (Elt Ideal) ((c : Thread nD τ).loc b))

theorem graphFeature_zero_offsets : (![0, 0] : Fin 2 → Nat) = fun _ => 0 := funext fun a => by fin_cases a <;> rfl

/-- At the one grid point the block of every window starts at row 0 and column 0. -/
theorem graphFeature_index_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The block of x holds all 128 rows and 16 columns: it is the array. -/
theorem graphFeature_block0 (c : Dev nD) (t : Fin cfg3.N) :
    (iblk3 V c 0 t : Vec Ideal S128x16 .f32) = (V c (Pipeline.arrRef spec3 0) : S128x16.Idx → EReal) := by
  obtain ⟨e0, e1, -⟩ := graphFeature_index_zero t
  funext y
  unfold iblk3
  rw [View.read_apply]
  show V c (Pipeline.arrRef spec3 0) (((cfg3.win 0).blk t).view.emb y) = V c (Pipeline.arrRef spec3 0) y
  refine congrArg _ (funext fun a => Fin.ext ?_)
  match a with
  | ⟨0, _⟩ => show win3_0.index t (0 : Fin 2) * 128 + 1 * (y 0).val = (y 0).val; rw [e0]; omega
  | ⟨1, _⟩ => show win3_0.index t (1 : Fin 2) * 16 + 1 * (y 1).val = (y 1).val; rw [e1]; omega

/-- The block of W holds all 16 rows and 256 columns: it is the array. -/
theorem graphFeature_block1 (c : Dev nD) (t : Fin cfg3.N) :
    (iblk3 V c 1 t : Vec Ideal S16x256 .f32) = (V c (Pipeline.arrRef spec3 1) : S16x256.Idx → EReal) := by
  obtain ⟨-, -, e0, e1, -⟩ := graphFeature_index_zero t
  funext y
  unfold iblk3
  rw [View.read_apply]
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 16 + 1 * (y 0).val = (y 0).val; rw [e0]; omega
  | ⟨1, _⟩ => show win3_1.index t (1 : Fin 2) * 256 + 1 * (y 1).val = (y 1).val; rw [e1]; omega

/-- The block of the bias row holds its one row and 256 columns: it is the array. -/
theorem graphFeature_block2 (c : Dev nD) (t : Fin cfg3.N) :
    (iblk3 V c 2 t : Vec Ideal S1x256 .f32) = (V c (Pipeline.arrRef spec3 2) : S1x256.Idx → EReal) := by
  obtain ⟨-, -, -, -, e0, e1, -⟩ := graphFeature_index_zero t
  funext y
  unfold iblk3
  rw [View.read_apply]
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 256 + 1 * (y 1).val = (y 1).val; rw [e1]; omega

/-- The output array as ONE function of the three input arrays: entry i is the formula at row i 0 and column i 1. -/
abbrev graphFeatureArray (a0 : S128x16.Idx → EReal) (a1 : S16x256.Idx → EReal) (a2 : S1x256.Idx → EReal) :
    S128x256.Idx → EReal :=
  fun i => Cert.GraphNet.denseReluAt a0 a1 a2 (i 0) (i 1)

/-- What the grid point writes back is its block of that function of the arrays as the region finds them. -/
theorem graphFeature_flushed (c : Dev nD) (t : Fin cfg3.N) :
    (dat3 (F := Ideal) V c).flushed 3 t = ((cfg3.win 3).blk t).view.read (Elt Ideal)
      (graphFeatureArray (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero graphFeature_zero_offsets]
  simp only [View.ld_unit_zero (S := S128x16) graphFeature_zero_offsets, View.ld_unit_zero (S := S16x256) graphFeature_zero_offsets,
    View.ld_unit_zero (S := S1x256) graphFeature_zero_offsets]
  rw [graphFeature_block0, graphFeature_block1, graphFeature_block2]
  obtain ⟨-, -, -, -, -, -, e0, e1⟩ := graphFeature_index_zero t
  funext j
  rw [View.read_apply]
  refine graphFeature_point _ _ _ _ _ ?_ ?_
  · show win3_3.index t (0 : Fin 2) * 128 + 1 * (j 0).val = (j 0).val; rw [e0]; omega
  · show win3_3.index t (1 : Fin 2) * 256 + 1 * (j 1).val = (j 1).val; rw [e1]; omega

/-- An index of the output array is in the point's block iff each coordinate is in the block's range on its axis. -/
theorem graphFeature_mem_blk (t : Fin cfg3.N) (i : S128x256.Idx) :
    i ∈ ((cfg3.win 3).blk t).view.set ↔ ∀ a : Fin 2, win3_3.index t a * S128x256.size a ≤ (i a).val
      ∧ (i a).val < win3_3.index t a * S128x256.size a + S128x256.size a := by
  show i ∈ ((View.whole main_v64).slice (win3_3.rect t)).set ↔ _
  rw [View.set_slice_whole, Rect.mem_set_unit]
  exact Iff.rfl

/-- The one block, rows 0 … 127 and columns 0 … 255, covers the output array. -/
theorem graphFeature_cover (i : S128x256.Idx) :
    ∃ t : Fin cfg3.N, (cfg3.win 3).flush t = true ∧ i ∈ ((cfg3.win 3).blk t).view.set := by
  refine ⟨t3_0, flush3_3 t3_0, ?_⟩
  rw [graphFeature_mem_blk]
  obtain ⟨-, -, -, -, -, -, e0, e1⟩ := graphFeature_index_zero t3_0
  intro a
  match a with
  | ⟨0, _⟩ =>
    show win3_3.index t3_0 (0 : Fin 2) * 128 ≤ (i 0).val ∧ (i 0).val < win3_3.index t3_0 (0 : Fin 2) * 128 + 128
    have := idx2_lt0 i; rw [e0]; omega
  | ⟨1, _⟩ =>
    show win3_3.index t3_0 (1 : Fin 2) * 256 ≤ (i 1).val ∧ (i 1).val < win3_3.index t3_0 (1 : Fin 2) * 256 + 256
    have := idx2_lt1 i; rw [e1]; omega

/-- The output array after the launch is that function of the three input arrays. -/
theorem graphFeature_final (c : Dev nD) : (dat3 (F := Ideal) V c).arrAt 3 cfg3.N
    = graphFeatureArray (V c (Pipeline.arrRef spec3 0)) (V c (Pipeline.arrRef spec3 1)) (V c (Pipeline.arrRef spec3 2)) :=
  (dat3 (F := Ideal) V c).arrAt_eq_of_cover 3 _ (fun t _ => graphFeature_flushed V c t) graphFeature_cover

/-- THE OUTPUT OF THE FEATURE EMBEDDING at graph r and column q: max (Σ_k x (r, k) · W (k, q) + b (0, q), 0) of the
    three input arrays as the region finds them. -/
theorem graphFeature_value (c : Dev nD) (r : Fin 128) (q : Fin 256) :
    (Gen.dat3 (F := Ideal) V c).arrAt 3 cfg3.N (ix2 r q)
      = Cert.GraphNet.denseReluAt (V c (Pipeline.arrRef spec3 0)) (V c (Pipeline.arrRef spec3 1))
          (V c (Pipeline.arrRef spec3 2)) r q := by
  rw [graphFeature_final V c]

end Cert.KernelIdeal.RegionValue

end
-- ==== Proof.FinalBiasBlocks.lean ====
/-
  The last layer's bias and relu, region by region: what the ten-point launch leaves in its output array.

  The launch runs over ten grid points. At point t the raw rows' window, the scale column's window and the output's
  window hold row tile t — rows 5000 t … 5000 t + 4999 — of their arrays (50000 x 256, 50000 x 1 and 50000 x 256);
  the bias row's window holds its whole 1 x 256 array at every point. The body multiplies each raw row by its
  row's scale factor (the column repeated across the 256 columns), adds the bias row down the rows and takes
  the maximum with zero. So the output entry at (r, q) is   max (raw (r, q) · dv (r, 0) + b (0, q), 0):
  it depends on one entry of raw, on row r's scale factor and on entry q of the bias, and is written by the
  point r / 5000.

  The steps: the body's result at a row p of the tile and a column q; each input block's entry as an entry of
  its array (row 5000 t + p); hence what point t writes back is block t of ONE function of the three arrays;
  the ten row tiles cover the 50000 rows; so the array after the launch is that function.
-/
import proofs.«105699_j61710090109663_2_alg».proof.Proof.Gen.KernelIdeal.Frame
import proofs.«105699_j61710090109663_2_alg».proof.Proof.LayerFormulas
import proofs.«105699_j61710090109663_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at a row of the tile and a column -/

/-- The body's result at (p, q), for any three operands: max (x0 (p, q) · x1 (p, 0) + x2 (0, q), 0). -/
theorem finalBias_payload (x0 : Vec Ideal S5000x256 .f32) (x1 : Vec Ideal S5000x1 .f32) (x2 : Vec Ideal S1x256 .f32)
    (p : Fin 5000) (q : Fin 256) :
    k2_pay1 (F := Ideal) x0 x1 x2 (ix2 p q)
      = max (x0 (ix2 p q) * x1 (ix2 p (0 : Fin 1)) + x2 (ix2 (0 : Fin 1) q)) 0 := by
  unfold k2_pay1
  rw [maximumf_apply, addf_apply, mulf_apply]
  refine congrArg₂ max (congrArg₂ (· + ·) (congrArg₂ (· * ·) ?_ ?_) ?_) ?_
  · rw [shapeCast_self]
  · rw [shapeCast_self]
    exact broadcastTo_a1_ab_apply x1 _ p q
  · rw [shapeCast_self]
    exact broadcastTo_1b_ab_apply x2 _ p q
  · show Ideal.ofBits .f32 0x00000000#32 = 0
    exact Ideal.ofBits_zero_f32

/-- The same at any index j of the output block, when the three block entries it reads are the entries of arrays
    A0, A1, A2 at an index i of the output array: the formula of the arrays at row i 0 and column i 1. -/
theorem finalBias_point (x0 : Vec Ideal S5000x256 .f32) (x1 : Vec Ideal S5000x1 .f32) (x2 : Vec Ideal S1x256 .f32)
    (A0 : S50000x256.Idx → EReal) (A1 : S50000x1.Idx → EReal) (A2 : S1x256.Idx → EReal)
    (j : S5000x256.Idx) (i : S50000x256.Idx)
    (h0 : x0 j = A0 i) (h1 : x1 (ix2 (j 0) (0 : Fin 1)) = A1 (ix2 (i 0) (0 : Fin 1)))
    (h2 : x2 (ix2 (0 : Fin 1) (j 1)) = A2 (ix2 (0 : Fin 1) (i 1))) :
    k2_pay1 (F := Ideal) x0 x1 x2 j = Cert.GraphNet.biasReluAt A0 A1 A2 (i 0) (i 1) := by
  obtain ⟨p, q, rfl⟩ : ∃ (p : Fin 5000) (q : Fin 256), j = ix2 p q := ⟨j 0, j 1, eq_ix2 j⟩
  have h1' : x1 (ix2 p (0 : Fin 1)) = A1 (ix2 (i 0) (0 : Fin 1)) := h1
  have h2' : x2 (ix2 (0 : Fin 1) q) = A2 (ix2 (0 : Fin 1) (i 1)) := h2
  have hi : A0 i = A0 (ix2 (i 0) (i 1)) := congrArg A0 (eq_ix2 i)
  rw [finalBias_payload, h0, h1', h2', hi]
  rfl

/-! ## From the blocks to the array -/

-- the buffer contents when the region is entered
variable (V : (c : Dev nD) → (b : Ref sig .tc) → Buf (Elt Ideal) ((c : Thread nD τ).loc b))

theorem finalBias_zero_offsets : (![0, 0] : Fin 2 → Nat) = fun _ => 0 := funext fun a => by fin_cases a <;> rfl

/-- At point t the raw rows', the scale column's and the output's blocks are row tile t, from column 0; the bias
    row's block starts at row 0 and column 0. -/
theorem finalBias_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry y of the raw rows' block at point t is the array's entry in row 5000 t + y 0, column y 1. -/
theorem finalBias_block0 (c : Dev nD) (t : Fin cfg2.N) (y : S5000x256.Idx) (k : S50000x256.Idx)
    (hk0 : (k 0).val = 5000 * t.val + (y 0).val) (hk1 : (k 1).val = (y 1).val) :
    (iblk2 V c 0 t : Vec Ideal S5000x256 .f32) y = (V c (Pipeline.arrRef spec2 0) : S50000x256.Idx → EReal) k := by
  obtain ⟨e0, e1, -⟩ := finalBias_index t
  unfold iblk2
  rw [View.read_apply]
  show V c (Pipeline.arrRef spec2 0) (((cfg2.win 0).blk t).view.emb y) = V c (Pipeline.arrRef spec2 0) k
  refine congrArg _ (funext fun a => Fin.ext ?_)
  match a with
  | ⟨0, _⟩ => show win2_0.index t (0 : Fin 2) * 5000 + 1 * (y 0).val = (k 0).val; rw [e0, hk0]; omega
  | ⟨1, _⟩ => show win2_0.index t (1 : Fin 2) * 256 + 1 * (y 1).val = (k 1).val; rw [e1, hk1]; omega

/-- Entry y of the scale column's block at point t is the column's entry in row 5000 t + y 0. -/
theorem finalBias_block1 (c : Dev nD) (t : Fin cfg2.N) (y : S5000x1.Idx) (k : S50000x1.Idx)
    (hk0 : (k 0).val = 5000 * t.val + (y 0).val) (hk1 : (k 1).val = (y 1).val) :
    (iblk2 V c 1 t : Vec Ideal S5000x1 .f32) y = (V c (Pipeline.arrRef spec2 1) : S50000x1.Idx → EReal) k := by
  obtain ⟨-, -, e0, e1, -⟩ := finalBias_index t
  unfold iblk2
  rw [View.read_apply]
  show V c (Pipeline.arrRef spec2 1) (((cfg2.win 1).blk t).view.emb y) = V c (Pipeline.arrRef spec2 1) k
  refine congrArg _ (funext fun a => Fin.ext ?_)
  match a with
  | ⟨0, _⟩ => show win2_1.index t (0 : Fin 2) * 5000 + 1 * (y 0).val = (k 0).val; rw [e0, hk0]; omega
  | ⟨1, _⟩ => show win2_1.index t (1 : Fin 2) * 1 + 1 * (y 1).val = (k 1).val; rw [e1, hk1]; omega

/-- Entry y of the bias row's block, at any point, is the row's entry y. -/
theorem finalBias_block2 (c : Dev nD) (t : Fin cfg2.N) (y : S1x256.Idx) (k : S1x256.Idx)
    (hk0 : (k 0).val = (y 0).val) (hk1 : (k 1).val = (y 1).val) :
    (iblk2 V c 2 t : Vec Ideal S1x256 .f32) y = (V c (Pipeline.arrRef spec2 2) : S1x256.Idx → EReal) k := by
  obtain ⟨-, -, -, -, e0, e1, -⟩ := finalBias_index t
  unfold iblk2
  rw [View.read_apply]
  show V c (Pipeline.arrRef spec2 2) (((cfg2.win 2).blk t).view.emb y) = V c (Pipeline.arrRef spec2 2) k
  refine congrArg _ (funext fun a => Fin.ext ?_)
  match a with
  | ⟨0, _⟩ => show win2_2.index t (0 : Fin 2) * 1 + 1 * (y 0).val = (k 0).val; rw [e0, hk0]; omega
  | ⟨1, _⟩ => show win2_2.index t (1 : Fin 2) * 256 + 1 * (y 1).val = (k 1).val; rw [e1, hk1]; omega

/-- The output array as ONE function of the three input arrays: entry i is the formula at row i 0 and column i 1. -/
abbrev finalBiasArray (a0 : S50000x256.Idx → EReal) (a1 : S50000x1.Idx → EReal) (a2 : S1x256.Idx → EReal) :
    S50000x256.Idx → EReal :=
  fun i => Cert.GraphNet.biasReluAt a0 a1 a2 (i 0) (i 1)

/-- What point t writes back is block t of that function of the arrays as the region finds them. -/
theorem finalBias_flushed (c : Dev nD) (t : Fin cfg2.N) :
    (dat2 (F := Ideal) V c).flushed 3 t = ((cfg2.win 3).blk t).view.read (Elt Ideal)
      (finalBiasArray (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero finalBias_zero_offsets]
  simp only [View.ld_unit_zero (S := S5000x256) finalBias_zero_offsets, View.ld_unit_zero (S := S5000x1) finalBias_zero_offsets,
    View.ld_unit_zero (S := S1x256) finalBias_zero_offsets]
  obtain ⟨-, -, -, -, -, -, e0, e1⟩ := finalBias_index t
  funext j
  rw [View.read_apply]
  refine finalBias_point _ _ _ _ _ _ _ _ ?_ ?_ ?_
  · refine finalBias_block0 V c t _ _ ?_ ?_
    · show win2_3.index t (0 : Fin 2) * 5000 + 1 * (j 0).val = 5000 * t.val + (j 0).val; rw [e0]; omega
    · show win2_3.index t (1 : Fin 2) * 256 + 1 * (j 1).val = (j 1).val; rw [e1]; omega
  · refine finalBias_block1 V c t _ _ ?_ ?_
    · show win2_3.index t (0 : Fin 2) * 5000 + 1 * (j 0).val = 5000 * t.val + (j 0).val; rw [e0]; omega
    · rfl
  · refine finalBias_block2 V c t _ _ ?_ ?_
    · rfl
    · show win2_3.index t (1 : Fin 2) * 256 + 1 * (j 1).val = (j 1).val; rw [e1]; omega

/-- An index of the output array is in point t's block iff each coordinate is in the block's range on its axis. -/
theorem finalBias_mem_blk (t : Fin cfg2.N) (i : S50000x256.Idx) :
    i ∈ ((cfg2.win 3).blk t).view.set ↔ ∀ a : Fin 2, win2_3.index t a * S5000x256.size a ≤ (i a).val
      ∧ (i a).val < win2_3.index t a * S5000x256.size a + S5000x256.size a := by
  show i ∈ ((View.whole main_v50).slice (win2_3.rect t)).set ↔ _
  rw [View.set_slice_whole, Rect.mem_set_unit]
  exact Iff.rfl

/-- The ten row tiles cover the 50000 rows: row r is in the block of point r / 5000. -/
theorem finalBias_cover (i : S50000x256.Idx) :
    ∃ t : Fin cfg2.N, (cfg2.win 3).flush t = true ∧ i ∈ ((cfg2.win 3).blk t).view.set := by
  have hi0 : (i 0).val < 50000 := idx2_lt0 i
  have hi1 : (i 1).val < 256 := idx2_lt1 i
  have hN : cfg2.N = 10 := N_2
  have ht : (i 0).val / 5000 < cfg2.N := by rw [hN]; omega
  refine ⟨⟨(i 0).val / 5000, ht⟩, flush2_3 _, ?_⟩
  rw [finalBias_mem_blk]
  obtain ⟨-, -, -, -, -, -, e0, e1⟩ := finalBias_index ⟨(i 0).val / 5000, ht⟩
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_3.index ⟨(i 0).val / 5000, ht⟩ (1 : Fin 2) * 256 ≤ (i 1).val
      ∧ (i 1).val < win2_3.index ⟨(i 0).val / 5000, ht⟩ (1 : Fin 2) * 256 + 256
    rw [e1]; omega

/-- The output array after the launch is that function of the three input arrays. -/
theorem finalBias_final (c : Dev nD) : (dat2 (F := Ideal) V c).arrAt 3 cfg2.N
    = finalBiasArray (V c (Pipeline.arrRef spec2 0)) (V c (Pipeline.arrRef spec2 1)) (V c (Pipeline.arrRef spec2 2)) :=
  (dat2 (F := Ideal) V c).arrAt_eq_of_cover 3 _ (fun t _ => finalBias_flushed V c t) finalBias_cover

/-- THE LAST LAYER'S OUTPUT at node r and column q: max (raw (r, q) · dv (r, 0) + b (0, q), 0) of the three input
    arrays as the region finds them. -/
theorem finalBias_value (c : Dev nD) (r : Fin 50000) (q : Fin 256) :
    (Gen.dat2 (F := Ideal) V c).arrAt 3 cfg2.N (ix2 r q)
      = Cert.GraphNet.biasReluAt (V c (Pipeline.arrRef spec2 0)) (V c (Pipeline.arrRef spec2 1))
          (V c (Pipeline.arrRef spec2 2)) r q := by
  rw [finalBias_final V c]

end Cert.KernelIdeal.RegionValue

end
-- ==== Proof.ReadoutBlocks.lean ====
/-
  The two-layer read-out, region by region: what the one-point launch leaves in its output array.

  The launch has a single grid point and every window is its whole array: the 128 x 512 combined features cmb,
  the 512 x 256 weights W1, the bias row b1 (1 x 256), the 256 x 64 weights W2, the bias row b2 (1 x 64) and
  the 128 x 64 output. The body narrows cmb and W1, multiplies them on the matrix unit into a zero accumulator,
  adds b1 down the rows, takes the maximum with zero, narrows that and W2, multiplies again into a zero
  accumulator and adds b2 down the rows. On the extended reals a change of format is the identity, so the
  output entry at (r, q) is

      Σ_j max (Σ_k cmb (r, k) · W1 (k, j) + b1 (0, j), 0) · W2 (j, q) + b2 (0, q)

  and depends on row r of cmb, all of W1 and b1, column q of W2 and entry q of b2.

  The steps: both products' dimension numbers are those of a plain product; the body's result at (r, q) is the
  formula of its five operands; every window's one block starts at row 0 and column 0, so each input block
  IS its array and the output block covers the output array; hence the array after the launch is that
  formula of the five input arrays as the launch finds them.
-/
import proofs.«105699_j61710090109663_2_alg».proof.Proof.Gen.KernelIdeal.Frame
import proofs.«105699_j61710090109663_2_alg».proof.Proof.LayerFormulas
import proofs.«105699_j61710090109663_2_alg».proof.Proof.LibDotIx2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at a row and a column -/

/-- The product cmb · W1 contracts the second axis of cmb with the first of W1 and batches nothing. -/
theorem readout_plainDot1 : PlainDot dot_S128x512_S512x256_S128x256_1_0_0_1_n_n where
  rank := rfl
  size := rfl
  l0 := fun j q => by
    unfold DotDims.lhsIdx
    rw [dif_neg (show ¬(0 : Fin S128x512.rank) ∈ dot_S128x512_S512x256_S128x256_1_0_0_1_n_n.lhsBatch by decide),
      dif_pos (show (0 : Fin S128x512.rank) ∈ dot_S128x512_S512x256_S128x256_1_0_0_1_n_n.lhsNonContracting by decide)]
    rfl
  l1 := fun j q => dot_S128x512_S512x256_S128x256_1_0_0_1_n_n.lhsIdx_val_of_single rfl j q
  r0 := fun j q => dot_S128x512_S512x256_S128x256_1_0_0_1_n_n.rhsIdx_val_of_single rfl j q
  r1 := fun j q => by
    unfold DotDims.rhsIdx
    rw [dif_neg (show ¬(1 : Fin S512x256.rank) ∈ dot_S128x512_S512x256_S128x256_1_0_0_1_n_n.rhsBatch by decide),
      dif_pos (show (1 : Fin S512x256.rank) ∈ dot_S128x512_S512x256_S128x256_1_0_0_1_n_n.rhsNonContracting by decide)]
    rfl

/-- The product of the hidden rows with W2 contracts the hidden axis with the first of W2 and batches nothing. -/
theorem readout_plainDot2 : PlainDot dot_S128x256_S256x64_S128x64_1_0_0_1_n_n where
  rank := rfl
  size := rfl
  l0 := fun j q => by
    unfold DotDims.lhsIdx
    rw [dif_neg (show ¬(0 : Fin S128x256.rank) ∈ dot_S128x256_S256x64_S128x64_1_0_0_1_n_n.lhsBatch by decide),
      dif_pos (show (0 : Fin S128x256.rank) ∈ dot_S128x256_S256x64_S128x64_1_0_0_1_n_n.lhsNonContracting by decide)]
    rfl
  l1 := fun j q => dot_S128x256_S256x64_S128x64_1_0_0_1_n_n.lhsIdx_val_of_single rfl j q
  r0 := fun j q => dot_S128x256_S256x64_S128x64_1_0_0_1_n_n.rhsIdx_val_of_single rfl j q
  r1 := fun j q => by
    unfold DotDims.rhsIdx
    rw [dif_neg (show ¬(1 : Fin S256x64.rank) ∈ dot_S128x256_S256x64_S128x64_1_0_0_1_n_n.rhsBatch by decide),
      dif_pos (show (1 : Fin S256x64.rank) ∈ dot_S128x256_S256x64_S128x64_1_0_0_1_n_n.rhsNonContracting by decide)]
    rfl

/-- The hidden layer at (r, j), for any three operands: max (Σ_k x0 (r, k) · x1 (k, j) + x2 (0, j), 0). -/
theorem readout_hidden (x0 : Vec Ideal S128x512 .f32) (x1 : Vec Ideal S512x256 .f32) (x2 : Vec Ideal S1x256 .f32)
    (r : Fin 128) (j : Fin 256) :
    maximumf
        (addf
          (matmul dot_S128x512_S512x256_S128x256_1_0_0_1_n_n none
            (truncf .bf16 (shapeCast S128x512 x0 shapeCasts_S128x512_S128x512) bitsLt_bf16_f32) (truncf .bf16 x1 bitsLt_bf16_f32)
            (constant (F := Ideal) S128x256 .f32 0x00000000#32))
          (broadcastTo S128x256 (shapeCast S1x256 x2 shapeCasts_S1x256_S1x256) broadcasts_S1x256_S128x256))
        (broadcast S128x256 (Scalar.ofBits (F := Ideal) .f32 0x00000000#32)) (ix2 r j)
      = max (Cert.GraphNet.affineAt x0 x1 x2 r j) 0 := by
  rw [maximumf_apply, addf_apply]
  unfold Cert.GraphNet.affineAt
  refine congrArg₂ max (congrArg₂ (· + ·) ?_ ?_) ?_
  · rw [shapeCast_self]
    exact matmul_zero_ix2_any readout_plainDot1 none _ _ r j
  · rw [shapeCast_self]
    exact broadcastTo_1b_ab_apply x2 _ r j
  · show Ideal.ofBits .f32 0x00000000#32 = 0
    exact Ideal.ofBits_zero_f32

/-- The body's result at (r, q), for any five operands:
    Σ_j max (Σ_k x0 (r, k) · x1 (k, j) + x2 (0, j), 0) · x3 (j, q) + x4 (0, q). -/
theorem readout_payload (x0 : Vec Ideal S128x512 .f32) (x1 : Vec Ideal S512x256 .f32) (x2 : Vec Ideal S1x256 .f32)
    (x3 : Vec Ideal S256x64 .f32) (x4 : Vec Ideal S1x64 .f32) (r : Fin 128) (q : Fin 64) :
    k4_pay1 (F := Ideal) x0 x1 x2 x3 x4 (ix2 r q) = Cert.GraphNet.headAt x0 x1 x2 x3 x4 r q := by
  unfold k4_pay1
  rw [addf_apply]
  unfold Cert.GraphNet.headAt
  refine congrArg₂ (· + ·) ?_ ?_
  · refine (matmul_zero_ix2_any readout_plainDot2 none _ _ r q).trans ?_
    refine Finset.sum_congr rfl fun j _ => ?_
    refine congrArg₂ (· * ·) ?_ rfl
    exact readout_hidden x0 x1 x2 r j
  · rw [shapeCast_self]
    exact broadcastTo_1b_ab_apply x4 _ r q

/-- The same at any index j of the output block, read against an index i of the output array with the same
    coordinates. -/
theorem readout_point (x0 : Vec Ideal S128x512 .f32) (x1 : Vec Ideal S512x256 .f32) (x2 : Vec Ideal S1x256 .f32)
    (x3 : Vec Ideal S256x64 .f32) (x4 : Vec Ideal S1x64 .f32)
    (j i : S128x64.Idx) (h0 : (i 0).val = (j 0).val) (h1 : (i 1).val = (j 1).val) :
    k4_pay1 (F := Ideal) x0 x1 x2 x3 x4 j = Cert.GraphNet.headAt x0 x1 x2 x3 x4 (i 0) (i 1) := by
  obtain ⟨p, q, rfl⟩ : ∃ (p : Fin 128) (q : Fin 64), j = ix2 p q := ⟨j 0, j 1, eq_ix2 j⟩
  have e0 : i 0 = p := Fin.ext h0
  have e1 : i 1 = q := Fin.ext h1
  rw [e0, e1]
  exact readout_payload x0 x1 x2 x3 x4 p q

/-! ## From the blocks to the array -/

-- the buffer contents when the region is entered
variable (V : (c : Dev nD) → (b : Ref sig .tc) → Buf (Elt Ideal) ((c : Thread nD τ).loc b))

theorem readout_zero_offsets : (![0, 0] : Fin 2 → Nat) = fun _ => 0 := funext fun a => by fin_cases a <;> rfl

/-- At the one grid point the block of every window starts at row 0 and column 0. -/
theorem readout_index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The block of cmb holds all 128 rows and 512 columns: it is the array. -/
theorem readout_block0 (c : Dev nD) (t : Fin cfg4.N) :
    (iblk4 V c 0 t : Vec Ideal S128x512 .f32) = (V c (Pipeline.arrRef spec4 0) : S128x512.Idx → EReal) := by
  obtain ⟨e0, e1, -⟩ := readout_index_zero t
  funext y
  unfold iblk4
  rw [View.read_apply]
  show V c (Pipeline.arrRef spec4 0) (((cfg4.win 0).blk t).view.emb y) = V c (Pipeline.arrRef spec4 0) y
  refine congrArg _ (funext fun a => Fin.ext ?_)
  match a with
  | ⟨0, _⟩ => show win4_0.index t (0 : Fin 2) * 128 + 1 * (y 0).val = (y 0).val; rw [e0]; omega
  | ⟨1, _⟩ => show win4_0.index t (1 : Fin 2) * 512 + 1 * (y 1).val = (y 1).val; rw [e1]; omega

/-- The block of W1 holds all 512 rows and 256 columns: it is the array. -/
theorem readout_block1 (c : Dev nD) (t : Fin cfg4.N) :
    (iblk4 V c 1 t : Vec Ideal S512x256 .f32) = (V c (Pipeline.arrRef spec4 1) : S512x256.Idx → EReal) := by
  obtain ⟨-, -, e0, e1, -⟩ := readout_index_zero t
  funext y
  unfold iblk4
  rw [View.read_apply]
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 512 + 1 * (y 0).val = (y 0).val; rw [e0]; omega
  | ⟨1, _⟩ => show win4_1.index t (1 : Fin 2) * 256 + 1 * (y 1).val = (y 1).val; rw [e1]; omega

/-- The block of the bias row b1 holds its one row and 256 columns: it is the array. -/
theorem readout_block2 (c : Dev nD) (t : Fin cfg4.N) :
    (iblk4 V c 2 t : Vec Ideal S1x256 .f32) = (V c (Pipeline.arrRef spec4 2) : S1x256.Idx → EReal) := by
  obtain ⟨-, -, -, -, e0, e1, -⟩ := readout_index_zero t
  funext y
  unfold iblk4
  rw [View.read_apply]
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; rw [e0]; omega
  | ⟨1, _⟩ => show win4_2.index t (1 : Fin 2) * 256 + 1 * (y 1).val = (y 1).val; rw [e1]; omega

/-- The block of W2 holds all 256 rows and 64 columns: it is the array. -/
theorem readout_block3 (c : Dev nD) (t : Fin cfg4.N) :
    (iblk4 V c 3 t : Vec Ideal S256x64 .f32) = (V c (Pipeline.arrRef spec4 3) : S256x64.Idx → EReal) := by
  obtain ⟨-, -, -, -, -, -, e0, e1, -⟩ := readout_index_zero t
  funext y
  unfold iblk4
  rw [View.read_apply]
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 256 + 1 * (y 0).val = (y 0).val; rw [e0]; omega
  | ⟨1, _⟩ => show win4_3.index t (1 : Fin 2) * 64 + 1 * (y 1).val = (y 1).val; rw [e1]; omega

/-- The block of the bias row b2 holds its one row and 64 columns: it is the array. -/
theorem readout_block4 (c : Dev nD) (t : Fin cfg4.N) :
    (iblk4 V c 4 t : Vec Ideal S1x64 .f32) = (V c (Pipeline.arrRef spec4 4) : S1x64.Idx → EReal) := by
  obtain ⟨-, -, -, -, -, -, -, -, e0, e1, -⟩ := readout_index_zero t
  funext y
  unfold iblk4
  rw [View.read_apply]
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- What the body leaves in the output's staging buffer: its result on the five input ARRAYS. -/
theorem readout_after (c : Dev nD) (t : Fin cfg4.N) :
    (dat4 (F := Ideal) V c).after 5 t
      = k4_pay1 (F := Ideal) (V c (Pipeline.arrRef spec4 0) : S128x512.Idx → EReal) (V c (Pipeline.arrRef spec4 1) : S512x256.Idx → EReal)
          (V c (Pipeline.arrRef spec4 2) : S1x256.Idx → EReal) (V c (Pipeline.arrRef spec4 3) : S256x64.Idx → EReal)
          (V c (Pipeline.arrRef spec4 4) : S1x64.Idx → EReal) := by
  rw [after4_5]
  unfold out4_5
  rw [View.canon_unit_zero readout_zero_offsets]
  simp only [View.ld_unit_zero (S := S128x512) readout_zero_offsets, View.ld_unit_zero (S := S512x256) readout_zero_offsets,
    View.ld_unit_zero (S := S1x256) readout_zero_offsets, View.ld_unit_zero (S := S256x64) readout_zero_offsets,
    View.ld_unit_zero (S := S1x64) readout_zero_offsets]
  rw [readout_block0, readout_block1, readout_block2, readout_block3, readout_block4]

/-- The output array as ONE function of the five input arrays: entry i is the formula at row i 0 and column i 1. -/
abbrev readoutArray (a0 : S128x512.Idx → EReal) (a1 : S512x256.Idx → EReal) (a2 : S1x256.Idx → EReal)
    (a3 : S256x64.Idx → EReal) (a4 : S1x64.Idx → EReal) : S128x64.Idx → EReal :=
  fun i => Cert.GraphNet.headAt a0 a1 a2 a3 a4 (i 0) (i 1)

/-- What the grid point writes back is its block of that function of the arrays as the region finds them. -/
theorem readout_flushed (c : Dev nD) (t : Fin cfg4.N) :
    (dat4 (F := Ideal) V c).flushed 5 t = ((cfg4.win 5).blk t).view.read (Elt Ideal)
      (readoutArray (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 (F := Ideal) V c).after 5 t) = _
  rw [readout_after]
  obtain ⟨-, -, -, -, -, -, -, -, -, -, e0, e1⟩ := readout_index_zero t
  funext j
  rw [View.read_apply]
  refine readout_point _ _ _ _ _ _ _ ?_ ?_
  · show win4_5.index t (0 : Fin 2) * 128 + 1 * (j 0).val = (j 0).val; rw [e0]; omega
  · show win4_5.index t (1 : Fin 2) * 64 + 1 * (j 1).val = (j 1).val; rw [e1]; omega

/-- An index of the output array is in the point's block iff each coordinate is in the block's range on its axis. -/
theorem readout_mem_blk (t : Fin cfg4.N) (i : S128x64.Idx) :
    i ∈ ((cfg4.win 5).blk t).view.set ↔ ∀ a : Fin 2, win4_5.index t a * S128x64.size a ≤ (i a).val
      ∧ (i a).val < win4_5.index t a * S128x64.size a + S128x64.size a := by
  show i ∈ ((View.whole main_v68).slice (win4_5.rect t)).set ↔ _
  rw [View.set_slice_whole, Rect.mem_set_unit]
  exact Iff.rfl

/-- The one block, rows 0 … 127 and columns 0 … 63, covers the output array. -/
theorem readout_cover (i : S128x64.Idx) :
    ∃ t : Fin cfg4.N, (cfg4.win 5).flush t = true ∧ i ∈ ((cfg4.win 5).blk t).view.set := by
  refine ⟨t4_0, flush4_5 t4_0, ?_⟩
  rw [readout_mem_blk]
  obtain ⟨-, -, -, -, -, -, -, -, -, -, e0, e1⟩ := readout_index_zero t4_0
  intro a
  match a with
  | ⟨0, _⟩ =>
    show win4_5.index t4_0 (0 : Fin 2) * 128 ≤ (i 0).val ∧ (i 0).val < win4_5.index t4_0 (0 : Fin 2) * 128 + 128
    have := idx2_lt0 i; rw [e0]; omega
  | ⟨1, _⟩ =>
    show win4_5.index t4_0 (1 : Fin 2) * 64 ≤ (i 1).val ∧ (i 1).val < win4_5.index t4_0 (1 : Fin 2) * 64 + 64
    have := idx2_lt1 i; rw [e1]; omega

/-- The output array after the launch is that function of the five input arrays. -/
theorem readout_final (c : Dev nD) : (dat4 (F := Ideal) V c).arrAt 5 cfg4.N
    = readoutArray (V c (Pipeline.arrRef spec4 0)) (V c (Pipeline.arrRef spec4 1)) (V c (Pipeline.arrRef spec4 2))
        (V c (Pipeline.arrRef spec4 3)) (V c (Pipeline.arrRef spec4 4)) :=
  (dat4 (F := Ideal) V c).arrAt_eq_of_cover 5 _ (fun t _ => readout_flushed V c t) readout_cover

/-- THE READ-OUT at graph r and column q: Σ_j max (Σ_k cmb (r, k) · W1 (k, j) + b1 (0, j), 0) · W2 (j, q) + b2 (0, q)
    of the five input arrays as the region finds them. -/
theorem readout_value (c : Dev nD) (r : Fin 128) (q : Fin 64) :
    (Gen.dat4 (F := Ideal) V c).arrAt 5 cfg4.N (ix2 r q)
      = Cert.GraphNet.headAt (V c (Pipeline.arrRef spec4 0)) (V c (Pipeline.arrRef spec4 1)) (V c (Pipeline.arrRef spec4 2))
          (V c (Pipeline.arrRef spec4 3)) (V c (Pipeline.arrRef spec4 4)) r q := by
  rw [readout_final V c]

end Cert.KernelIdeal.RegionValue

end
-- ==== Proof.RegionOutputs.lean ====
/-
  Each region's output buffer at the run's boundary after it, read at a row and a column, as the region's closed
  formula of the buffers at the boundary before it.

  The run passes thirteen boundaries W0 … W12; regions 0 … 4 run between boundaries 3–4, 5–6, 7–8, 9–10 and 11–12.
  At a region's exit each of its arrays holds what the region's 25, 25, 10, 1 and 1 grid points leave, so the output
  array's entry (r, q) is the layer formula of the input arrays as they stood at the region's entry. Where an input
  array is one of the program's arguments, no host operation and no earlier region has written it, so it still holds
  what the program was launched with.
-/
import proofs.«105699_j61710090109663_2_alg».proof.Proof.Gen.KernelIdeal.Frame
import proofs.«105699_j61710090109663_2_alg».proof.Proof.LayerFormulas
import proofs.«105699_j61710090109663_2_alg».proof.Proof.HostKept
import proofs.«105699_j61710090109663_2_alg».proof.Proof.EmbedBlocks
import proofs.«105699_j61710090109663_2_alg».proof.Proof.ConvBlocks
import proofs.«105699_j61710090109663_2_alg».proof.Proof.GraphFeatureBlocks
import proofs.«105699_j61710090109663_2_alg».proof.Proof.FinalBiasBlocks
import proofs.«105699_j61710090109663_2_alg».proof.Proof.ReadoutBlocks
import Idealize.ShloMosaic.Lib.ValueIdx

noncomputable section

namespace Cert.KernelIdeal.Stages

open Cert.KernelIdeal Cert.KernelIdeal.Gen Cert.GraphNet
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- Region 0's output after the region: the embedding of node r, its relu, the first layer's linear map at column q,
    times node r's scale factor; the node table and the two matrices are the launched arguments, the bias row and the
    scale column are as the host operations before the region left them. -/
theorem embed_out (r : Fin 50000) (q : Fin 256) :
    W4 m ρ c (Proc.devRef .tc main_v18) (ix2 r q)
      = embedScaledAt (m ((c : Thread nD τ).loc main_arg0)) (m ((c : Thread nD τ).loc main_arg5))
          (W3 m ρ c (Proc.devRef .tc main_v16)) (m ((c : Thread nD τ).loc main_arg7))
          (W3 m ρ c (Proc.devRef .tc main_v17)) r q := by
  refine (congrFun (W4_arr m ρ c 5) (ix2 r q)).trans ?_
  refine (RegionValue.embed_value (V3 m ρ) c r q).trans ?_
  show embedScaledAt (W3 m ρ c (Proc.devRef .tc main_arg0)) (W3 m ρ c (Proc.devRef .tc main_arg5))
      (W3 m ρ c (Proc.devRef .tc main_v16)) (W3 m ρ c (Proc.devRef .tc main_arg7))
      (W3 m ρ c (Proc.devRef .tc main_v17)) r q = _
  rw [arg0_W3, arg5_W3, arg7_W3]

/-- Region 1's output after the region: node r's aggregated row scaled, plus the bias, its relu, the second layer's
    linear map at column q, scaled again; the layer matrix is the launched argument, the other three arrays are as the
    host operations between regions 0 and 1 left them. -/
theorem conv_out (r : Fin 50000) (q : Fin 256) :
    W6 m ρ c (Proc.devRef .tc main_v34) (ix2 r q)
      = convScaledAt (W5 m ρ c (Proc.devRef .tc main_v31)) (W5 m ρ c (Proc.devRef .tc main_v33))
          (W5 m ρ c (Proc.devRef .tc main_v32)) (m ((c : Thread nD τ).loc main_arg9)) r q := by
  refine (congrFun (W6_arr m ρ c 4) (ix2 r q)).trans ?_
  refine (RegionValue.conv_value (V5 m ρ) c r q).trans ?_
  show convScaledAt (W5 m ρ c (Proc.devRef .tc main_v31)) (W5 m ρ c (Proc.devRef .tc main_v33))
      (W5 m ρ c (Proc.devRef .tc main_v32)) (W5 m ρ c (Proc.devRef .tc main_arg9)) r q = _
  rw [arg9_W5]

/-- Region 3's output after the region: the per-graph feature embedding, relu of the features times the matrix plus
    the bias; the features and the matrix are the launched arguments. -/
theorem graphFeature_out (r : Fin 128) (q : Fin 256) :
    W10 m ρ c (Proc.devRef .tc main_v64) (ix2 r q)
      = denseReluAt (m ((c : Thread nD τ).loc main_arg3)) (m ((c : Thread nD τ).loc main_arg11))
          (W9 m ρ c (Proc.devRef .tc main_v63)) r q := by
  refine (congrFun (W10_arr m ρ c 3) (ix2 r q)).trans ?_
  refine (RegionValue.graphFeature_value (V9 m ρ) c r q).trans ?_
  show denseReluAt (W9 m ρ c (Proc.devRef .tc main_arg3)) (W9 m ρ c (Proc.devRef .tc main_arg11))
      (W9 m ρ c (Proc.devRef .tc main_v63)) r q = _
  rw [arg3_W9, arg11_W9]

/-- Region 2's output after the region: the last layer's bias and relu on node r's aggregated, scaled row; all three
    arrays are as the host operations between regions 1 and 2 left them. -/
theorem finalBias_out (r : Fin 50000) (q : Fin 256) :
    W8 m ρ c (Proc.devRef .tc main_v50) (ix2 r q)
      = biasReluAt (W7 m ρ c (Proc.devRef .tc main_v47)) (W7 m ρ c (Proc.devRef .tc main_v49))
          (W7 m ρ c (Proc.devRef .tc main_v48)) r q :=
  (congrFun (W8_arr m ρ c 3) (ix2 r q)).trans (RegionValue.finalBias_value (V7 m ρ) c r q)

/-- Region 4's output after the region: the two-layer read-out of graph r at column q; the two matrices are the
    launched arguments, the combined features and the two bias rows are as the host operations before the region
    left them. -/
theorem readout_out (r : Fin 128) (q : Fin 64) :
    W12 m ρ c (Proc.devRef .tc main_v68) (ix2 r q)
      = headAt (W11 m ρ c (Proc.devRef .tc main_v65)) (m ((c : Thread nD τ).loc main_arg13))
          (W11 m ρ c (Proc.devRef .tc main_v66)) (m ((c : Thread nD τ).loc main_arg15))
          (W11 m ρ c (Proc.devRef .tc main_v67)) r q := by
  refine (congrFun (W12_arr m ρ c 5) (ix2 r q)).trans ?_
  refine (RegionValue.readout_value (V11 m ρ) c r q).trans ?_
  show headAt (W11 m ρ c (Proc.devRef .tc main_v65)) (W11 m ρ c (Proc.devRef .tc main_arg13))
      (W11 m ρ c (Proc.devRef .tc main_v66)) (W11 m ρ c (Proc.devRef .tc main_arg15))
      (W11 m ρ c (Proc.devRef .tc main_v67)) r q = _
  rw [arg13_W11, arg15_W11]

end Cert.KernelIdeal.Stages

end
-- ==== Proof.LibHostDense.lean ====
/-
  A HOST DENSE LAYER READ AT A (ROW, COLUMN), at the extended reals.

  For x : [M, K], w : [K, N] under plain dimension numbers, a bias vector b : [N] recast as a row [1, N] and broadcast
  down the M rows, and the zero scalar broadcast over [M, N]:

  * hostDot_ix2        : (x · w)(r, c) = Σ_k x(r, k) · w(k, c);
  * hostAffine_ix2     : (x · w + bias)(r, c) = Σ_k x(r, k) · w(k, c) + b c;
  * hostAffineRelu_ix2 : max(x · w + bias, 0)(r, c) = max(Σ_k x(r, k) · w(k, c) + b c, 0);
  * hostBiasRelu_ix2   : max(a + bias, 0)(r, c) = max(a(r, c) + b c, 0) for any array a : [M, N];
  * hostZeros_ix2      : the broadcast zero scalar is 0 at every (r, c).
-/
import proofs.«105699_j61710090109663_2_alg».proof.Proof.LibDotIx2
import proofs.«105699_j61710090109663_2_alg».proof.Proof.LibBroadcastInDim

noncomputable section

open scoped BigOperators

namespace Idealize.ShloMosaic.ValueIdx

open Idealize.ShloMosaic

/-- The host's plain product at (r, c) is the sum over the inner position. -/
theorem hostDot_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (r : Fin M) (c : Fin N) :
    Host.dotGeneral d prec x w (ix2 r c) = ∑ k : Fin K, (x (ix2 r k) : EReal) * (w (ix2 k c) : EReal) := by
  simp only [Host.dotGeneral]
  exact dotGeneral_ix2_any hd _ _ x w r c

/-- The zero scalar broadcast over a two-axis shape is 0 everywhere. -/
theorem hostZeros_ix2 {M N : ℕ} (h0 : (⟨0, ![]⟩ : Shape).BroadcastsInDim (⟨2, ![M, N]⟩ : Shape) ![]) (i : (⟨2, ![M, N]⟩ : Shape).Idx) :
    (broadcastInDim (⟨2, ![M, N]⟩ : Shape) ![] h0 (constant (F := Ideal) (⟨0, ![]⟩ : Shape) .f32 0x00000000#32) i : EReal) = 0 := by
  rw [broadcastInDim_scalar_apply]
  exact Ideal.ofBits_zero_f32

/-- A bias vector recast as a row and broadcast down the rows, at (r, c), is its entry c. -/
theorem hostBiasRow_ix2 {M N : ℕ} (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) (r : Fin M) (c : Fin N) :
    broadcastInDim (⟨2, ![M, N]⟩ : Shape) ![0, 1] h2 (broadcastInDim (⟨2, ![1, N]⟩ : Shape) ![1] h1 b) (ix2 r c) = b (ix1 c) := by
  rw [broadcastInDim_row_mat_apply, broadcastInDim_vec_row_apply]

/-- Bias and relu on any array: max(a + bias, 0) at (r, c). -/
theorem hostBiasRelu_ix2 {M N : ℕ} (a : FVec Ideal (⟨2, ![M, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (h0 : (⟨0, ![]⟩ : Shape).BroadcastsInDim (⟨2, ![M, N]⟩ : Shape) ![]) (r : Fin M) (c : Fin N) :
    maximumf (addf a (broadcastInDim (⟨2, ![M, N]⟩ : Shape) ![0, 1] h2 (broadcastInDim (⟨2, ![1, N]⟩ : Shape) ![1] h1 b)))
        (broadcastInDim (⟨2, ![M, N]⟩ : Shape) ![] h0 (constant (F := Ideal) (⟨0, ![]⟩ : Shape) .f32 0x00000000#32)) (ix2 r c)
      = max ((a (ix2 r c) : EReal) + (b (ix1 c) : EReal)) 0 := by
  show FloatOps.maximumf (FloatOps.addf (a (ix2 r c)) (broadcastInDim (⟨2, ![M, N]⟩ : Shape) ![0, 1] h2 (broadcastInDim (⟨2, ![1, N]⟩ : Shape) ![1] h1 b) (ix2 r c)))
      (broadcastInDim (⟨2, ![M, N]⟩ : Shape) ![] h0 (constant (F := Ideal) (⟨0, ![]⟩ : Shape) .f32 0x00000000#32) (ix2 r c)) = _
  rw [hostBiasRow_ix2, hostZeros_ix2, Ideal.addf_def, Ideal.maximumf_def]

/-- The host's dense layer x · w + bias at (r, c). -/
theorem hostAffine_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) (r : Fin M) (c : Fin N) :
    addf (Host.dotGeneral d prec x w) (broadcastInDim (⟨2, ![M, N]⟩ : Shape) ![0, 1] h2 (broadcastInDim (⟨2, ![1, N]⟩ : Shape) ![1] h1 b)) (ix2 r c)
      = (∑ k : Fin K, (x (ix2 r k) : EReal) * (w (ix2 k c) : EReal)) + (b (ix1 c) : EReal) := by
  show FloatOps.addf (Host.dotGeneral d prec x w (ix2 r c)) (broadcastInDim (⟨2, ![M, N]⟩ : Shape) ![0, 1] h2 (broadcastInDim (⟨2, ![1, N]⟩ : Shape) ![1] h1 b) (ix2 r c)) = _
  rw [hostDot_ix2 hd, hostBiasRow_ix2, Ideal.addf_def]

/-- The host's dense layer with relu, max(x · w + bias, 0), at (r, c). -/
theorem hostAffineRelu_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (h0 : (⟨0, ![]⟩ : Shape).BroadcastsInDim (⟨2, ![M, N]⟩ : Shape) ![]) (r : Fin M) (c : Fin N) :
    maximumf (addf (Host.dotGeneral d prec x w) (broadcastInDim (⟨2, ![M, N]⟩ : Shape) ![0, 1] h2 (broadcastInDim (⟨2, ![1, N]⟩ : Shape) ![1] h1 b)))
        (broadcastInDim (⟨2, ![M, N]⟩ : Shape) ![] h0 (constant (F := Ideal) (⟨0, ![]⟩ : Shape) .f32 0x00000000#32)) (ix2 r c)
      = max ((∑ k : Fin K, (x (ix2 r k) : EReal) * (w (ix2 k c) : EReal)) + (b (ix1 c) : EReal)) 0 := by
  show FloatOps.maximumf (addf (Host.dotGeneral d prec x w) (broadcastInDim (⟨2, ![M, N]⟩ : Shape) ![0, 1] h2 (broadcastInDim (⟨2, ![1, N]⟩ : Shape) ![1] h1 b)) (ix2 r c))
      (broadcastInDim (⟨2, ![M, N]⟩ : Shape) ![] h0 (constant (F := Ideal) (⟨0, ![]⟩ : Shape) .f32 0x00000000#32) (ix2 r c)) = _
  rw [hostAffine_ix2 hd, hostZeros_ix2, Ideal.maximumf_def]

end Idealize.ShloMosaic.ValueIdx

end
-- ==== Proof.RefStages.lean ====
/-
  The reference program's stages, read where the comparison with the kernel needs them.

  * Its five dense stages at a (row, column): a plain product is the sum over the inner position; a bias vector is
    broadcast down the rows; relu is the maximum with zero.
  * Its two neighbourhood aggregations: each is the edge-list aggregation of a table's rows, gathered at the wrapped
    source numbers, weighted by the symmetric normalisation  scale(source) · weight · scale(destination), and added up at
    the destination numbers. The second layer recomputes the edge vectors, weights and scale factors; they are the first
    layer's, operation for operation.
  * The scale factor of every node is a nonnegative real: the inverse square root of a positive extended real is one
    (zero at +∞), and elsewhere the factor is zero.
-/
import proofs.«105699_j61710090109663_2_alg».proof.Proof.Gen.ReferenceIdeal.Read
import proofs.«105699_j61710090109663_2_alg».proof.Proof.LibHostDense
import proofs.«105699_j61710090109663_2_alg».proof.Proof.LibSymNormAgg

set_option maxRecDepth 16384

noncomputable section

open scoped BigOperators

namespace Cert.ReferenceIdeal.Stages

open Cert.ReferenceIdeal Cert.ReferenceIdeal.Gen Cert.ReferenceIdeal.Read Idealize.ShloMosaic Idealize.ShloMosaic.ValueIdx

/-! ## The products' dimension numbers are those of plain products -/

theorem plain_v4 : PlainDot dot_S50000x4_S4x256_S50000x256_1_0_0_1_n_n :=
  ⟨rfl, rfl, lhs_main_v4_0, lhs_main_v4_1, rhs_main_v4_0, rhs_main_v4_1⟩
theorem plain_v9 : PlainDot dot_S50000x256_S256x256_S50000x256_1_0_0_1_n_n :=
  ⟨rfl, rfl, lhs_main_v9_0, lhs_main_v9_1, rhs_main_v9_0, rhs_main_v9_1⟩
theorem plain_v113 : PlainDot dot_S128x16_S16x256_S128x256_1_0_0_1_n_n :=
  ⟨rfl, rfl, lhs_main_v113_0, lhs_main_v113_1, rhs_main_v113_0, rhs_main_v113_1⟩
theorem plain_v119 : PlainDot dot_S128x512_S512x256_S128x256_1_0_0_1_n_n :=
  ⟨rfl, rfl, lhs_main_v119_0, lhs_main_v119_1, rhs_main_v119_0, rhs_main_v119_1⟩
theorem plain_v124 : PlainDot dot_S128x256_S256x64_S128x64_1_0_0_1_n_n :=
  ⟨rfl, rfl, lhs_main_v124_0, lhs_main_v124_1, rhs_main_v124_0, rhs_main_v124_1⟩

/-! ## The dense stages at a (row, column) -/

/-- The embedded node features relu(x·We + be) at (r, k). -/
theorem embedded_at (x0 : (⟨S50000x4, .f32⟩ : BufTy).Contents (Elt Ideal)) (x5 : (⟨S4x256, .f32⟩ : BufTy).Contents (Elt Ideal)) (x6 : (⟨S256, .f32⟩ : BufTy).Contents (Elt Ideal)) (r : Fin 50000) (k : Fin 256) :
    (val_main_v8 (F := Ideal) x0 x5 x6 (ix2 r k) : EReal)
      = max ((∑ j : Fin 4, (x0 (ix2 r j) : EReal) * (x5 (ix2 j k) : EReal)) + (x6 (ix1 k) : EReal)) 0 := by
  unfold val_main_v8 val_main_v7 val_main_v6 val_main_v5 val_main_v4 val_main_call0_v0 val_main_call0_cst
  exact hostAffineRelu_ix2 plain_v4 none x0 x5 x6 _ _ _ r k

/-- The first layer's linear map at (r, q). -/
theorem lin1_at (x0 : (⟨S50000x4, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) (r : Fin 50000) (q : Fin 256) :
    (val_main_v9 (F := Ideal) x0 x5 x6 x7 (ix2 r q) : EReal)
      = ∑ k : Fin 256, (val_main_v8 (F := Ideal) x0 x5 x6 (ix2 r k) : EReal) * (x7 (ix2 k q) : EReal) := by
  unfold val_main_v9
  exact hostDot_ix2 plain_v9 none _ x7 r q

/-- The first layer's output relu(aggregate + b1) at (r, k). -/
theorem hidden1_at (x0 : (⟨S50000x4, .f32⟩ : BufTy).Contents (Elt Ideal)) (x1 : (⟨S2x400000, .i32⟩ : BufTy).Contents (Elt Ideal)) (x4 : (⟨S400000, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (r : Fin 50000) (k : Fin 256) :
    (val_main_v54 (F := Ideal) x0 x1 x4 x5 x6 x7 x8 (ix2 r k) : EReal)
      = max ((val_main_v50 (F := Ideal) x0 x1 x4 x5 x6 x7 (ix2 r k) : EReal) + (x8 (ix1 k) : EReal)) 0 := by
  unfold val_main_v54 val_main_v53 val_main_v52 val_main_v51 val_main_call2_v0 val_main_call2_cst
  exact hostBiasRelu_ix2 _ x8 _ _ _ r k

/-- The second layer's linear map at (r, q). -/
theorem lin2_at (x0 : (⟨S50000x4, .f32⟩ : BufTy).Contents (Elt Ideal)) (x1 : (⟨S2x400000, .i32⟩ : BufTy).Contents (Elt Ideal)) (x4 : (⟨S400000, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (r : Fin 50000) (q : Fin 256) :
    (val_main_v55 (F := Ideal) x0 x1 x4 x5 x6 x7 x8 x9 (ix2 r q) : EReal)
      = ∑ k : Fin 256, (val_main_v54 (F := Ideal) x0 x1 x4 x5 x6 x7 x8 (ix2 r k) : EReal) * (x9 (ix2 k q) : EReal) := by
  unfold val_main_v55
  exact hostDot_ix2 plain_v9 none _ x9 r q

/-- The second layer's output relu(aggregate + b2) at (r, q). -/
theorem hidden2_at (x0 : (⟨S50000x4, .f32⟩ : BufTy).Contents (Elt Ideal)) (x1 : (⟨S2x400000, .i32⟩ : BufTy).Contents (Elt Ideal)) (x4 : (⟨S400000, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (r : Fin 50000) (q : Fin 256) :
    (val_main_v100 (F := Ideal) x0 x1 x4 x5 x6 x7 x8 x9 x10 (ix2 r q) : EReal)
      = max ((val_main_v96 (F := Ideal) x0 x1 x4 x5 x6 x7 x8 x9 (ix2 r q) : EReal) + (x10 (ix1 q) : EReal)) 0 := by
  unfold val_main_v100 val_main_v99 val_main_v98 val_main_v97 val_main_call4_v0 val_main_call4_cst
  exact hostBiasRelu_ix2 _ x10 _ _ _ r q

/-- The per-graph feature embedding relu(g·Wg + bg) at (r, q). -/
theorem graphFeature_at (x3 : (⟨S128x16, .f32⟩ : BufTy).Contents (Elt Ideal)) (x11 : (⟨S16x256, .f32⟩ : BufTy).Contents (Elt Ideal)) (x12 : (⟨S256, .f32⟩ : BufTy).Contents (Elt Ideal)) (r : Fin 128) (q : Fin 256) :
    (val_main_v117 (F := Ideal) x3 x11 x12 (ix2 r q) : EReal)
      = max ((∑ k : Fin 16, (x3 (ix2 r k) : EReal) * (x11 (ix2 k q) : EReal)) + (x12 (ix1 q) : EReal)) 0 := by
  unfold val_main_v117 val_main_v116 val_main_v115 val_main_v114 val_main_v113 val_main_call5_v0 val_main_call5_cst
  exact hostAffineRelu_ix2 plain_v113 none x3 x11 x12 _ _ _ r q

/-- The read-out's hidden layer relu(cmb·Wh1 + bh1) at (r, k). -/
theorem readoutHidden_at (x0 : (⟨S50000x4, .f32⟩ : BufTy).Contents (Elt Ideal)) (x1 : (⟨S2x400000, .i32⟩ : BufTy).Contents (Elt Ideal)) (x2 : (⟨S50000, .i32⟩ : BufTy).Contents (Elt Ideal)) (x3 : (⟨S128x16, .f32⟩ : BufTy).Contents (Elt Ideal)) (x4 : (⟨S400000, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S16x256, .f32⟩ : BufTy).Contents (Elt Ideal)) (x12 : (⟨S256, .f32⟩ : BufTy).Contents (Elt Ideal)) (x13 : (⟨S512x256, .f32⟩ : BufTy).Contents (Elt Ideal)) (x14 : (⟨S256, .f32⟩ : BufTy).Contents (Elt Ideal)) (r : Fin 128) (k : Fin 256) :
    (val_main_v123 (F := Ideal) x0 x1 x2 x3 x4 x5 x6 x7 x8 x9 x10 x11 x12 x13 x14 (ix2 r k) : EReal)
      = max ((∑ j : Fin 512, (val_main_v118 (F := Ideal) x0 x1 x2 x3 x4 x5 x6 x7 x8 x9 x10 x11 x12 (ix2 r j) : EReal) * (x13 (ix2 j k) : EReal)) + (x14 (ix1 k) : EReal)) 0 := by
  unfold val_main_v123 val_main_v122 val_main_v121 val_main_v120 val_main_v119 val_main_call6_v0 val_main_call6_cst
  exact hostAffineRelu_ix2 plain_v119 none _ x13 x14 _ _ _ r k

/-- The result hidden·Wh2 + bh2 at (r, q). -/
theorem result_at (x0 : (⟨S50000x4, .f32⟩ : BufTy).Contents (Elt Ideal)) (x1 : (⟨S2x400000, .i32⟩ : BufTy).Contents (Elt Ideal)) (x2 : (⟨S50000, .i32⟩ : BufTy).Contents (Elt Ideal)) (x3 : (⟨S128x16, .f32⟩ : BufTy).Contents (Elt Ideal)) (x4 : (⟨S400000, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S16x256, .f32⟩ : BufTy).Contents (Elt Ideal)) (x12 : (⟨S256, .f32⟩ : BufTy).Contents (Elt Ideal)) (x13 : (⟨S512x256, .f32⟩ : BufTy).Contents (Elt Ideal)) (x14 : (⟨S256, .f32⟩ : BufTy).Contents (Elt Ideal)) (x15 : (⟨S256x64, .f32⟩ : BufTy).Contents (Elt Ideal)) (x16 : (⟨S64, .f32⟩ : BufTy).Contents (Elt Ideal)) (r : Fin 128) (q : Fin 64) :
    (val_main_v127 (F := Ideal) x0 x1 x2 x3 x4 x5 x6 x7 x8 x9 x10 x11 x12 x13 x14 x15 x16 (ix2 r q) : EReal)
      = (∑ k : Fin 256, (val_main_v123 (F := Ideal) x0 x1 x2 x3 x4 x5 x6 x7 x8 x9 x10 x11 x12 x13 x14 (ix2 r k) : EReal) * (x15 (ix2 k q) : EReal)) + (x16 (ix1 q) : EReal) := by
  unfold val_main_v127 val_main_v126 val_main_v125 val_main_v124
  exact hostAffine_ix2 plain_v124 none _ x15 x16 _ _ r q

/-! ## The neighbourhood aggregations -/

/-- The first layer's aggregation is the edge-list aggregation of the rows of x₁·W1 under the symmetric normalisation. -/
theorem agg1_eq (x0 : (⟨S50000x4, .f32⟩ : BufTy).Contents (Elt Ideal)) (x1 : (⟨S2x400000, .i32⟩ : BufTy).Contents (Elt Ideal)) (x4 : (⟨S400000, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) :
    val_main_v50 (F := Ideal) x0 x1 x4 x5 x6 x7
      = rowAgg (N := 50000) (E := 450000) (K := 256) (w := 32) gather_S50000x256_S450000x1_S450000x256_1_0_n_n_0_1_1256.wf scatter_S50000x256_S450000x1_S450000x256_1_0_0_1.wf bcast_S_S50000x256 bcast_S450000_S450000x1_0 bcast_S450000x1_S450000x256_0_1 0x00000000#32 (val_main_v12 (F := Ideal) x1) (wrapNeg bcast_S_S450000 50000 (val_main_v11 (F := Ideal) x1))
          (symNorm (N := 50000) (E := 450000) (w := 32) gather_S50000_S450000x1_S450000_n_0_n_n_0_1_1.wf bcast_S450000_S450000x1_0 bcast_S_S450000 (val_main_v12 (F := Ideal) x1) (val_main_v11 (F := Ideal) x1) (val_main_v14 (F := Ideal) x4) (val_main_v21 (F := Ideal) x1 x4))
          (val_main_v9 (F := Ideal) x0 x5 x6 x7) := rfl

/-- The second layer's aggregation, of the rows of h₁·W2, over the same edge vectors, weights and scale factors. -/
theorem agg2_eq (x0 : (⟨S50000x4, .f32⟩ : BufTy).Contents (Elt Ideal)) (x1 : (⟨S2x400000, .i32⟩ : BufTy).Contents (Elt Ideal)) (x4 : (⟨S400000, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) :
    val_main_v96 (F := Ideal) x0 x1 x4 x5 x6 x7 x8 x9
      = rowAgg (N := 50000) (E := 450000) (K := 256) (w := 32) gather_S50000x256_S450000x1_S450000x256_1_0_n_n_0_1_1256.wf scatter_S50000x256_S450000x1_S450000x256_1_0_0_1.wf bcast_S_S50000x256 bcast_S450000_S450000x1_0 bcast_S450000x1_S450000x256_0_1 0x00000000#32 (val_main_v12 (F := Ideal) x1) (wrapNeg bcast_S_S450000 50000 (val_main_v11 (F := Ideal) x1))
          (symNorm (N := 50000) (E := 450000) (w := 32) gather_S50000_S450000x1_S450000_n_0_n_n_0_1_1.wf bcast_S450000_S450000x1_0 bcast_S_S450000 (val_main_v12 (F := Ideal) x1) (val_main_v11 (F := Ideal) x1) (val_main_v14 (F := Ideal) x4) (val_main_v21 (F := Ideal) x1 x4))
          (val_main_v55 (F := Ideal) x0 x1 x4 x5 x6 x7 x8 x9) := rfl

/-! ## The scale factors are nonnegative reals -/

theorem scale_nonneg_real (x1 : (⟨S2x400000, .i32⟩ : BufTy).Contents (Elt Ideal)) (x4 : (⟨S400000, .f32⟩ : BufTy).Contents (Elt Ideal)) (u : Fin 50000) :
    ∃ r : ℝ, 0 ≤ r ∧ (val_main_v21 (F := Ideal) x1 x4 (ix1 u) : EReal) = ((r : ℝ) : EReal) := by
  have hz : (val_main_v18 (F := Ideal) (ix1 u) : EReal) = 0 := by
    unfold val_main_v18 val_main_cst_1
    rw [broadcastInDim_scalar_apply]
    exact Ideal.ofBits_zero_f32
  have hz' : (val_main_call1_v1 (F := Ideal) (ix1 u) : EReal) = 0 := by
    unfold val_main_call1_v1 val_main_call1_v0 val_main_cst_2
    rw [broadcastInDim_scalar_apply]
    exact Ideal.ofBits_zero_f32
  exact scaleVec_nonneg_real (val_main_v17 (F := Ideal) x1 x4) (val_main_v18 (F := Ideal)) (val_main_call1_v1 (F := Ideal)) (ix1 u) hz hz'

end Cert.ReferenceIdeal.Stages

end
-- ==== Proof.DenseBridges.lean ====
/-
  Each dense formula of the network IS the reference program's stage at the same row and column.

  The formulas hold a bias as a one-row array and the per-node scale factors as a one-column array; the reference
  program holds them as vectors. Given that the row reads the bias vector (entry (0, k) is entry k) and the column
  reads the scale vector (entry (r, 0) is entry r):

  * relu(x·We + be)·W1 at (r, q), times the scale factor of row r, is the reference's first linear map at (r, q)
    times that factor;
  * relu(raw·dv + b)·W at (r, q), times the scale factor of row r, is the reference's second linear map at (r, q)
    times that factor, when raw (v, k) · dv v is the reference's first aggregation at (v, k) for every row v;
  * relu(raw (r, q) · dv r + b q) is the reference's second layer's output at (r, q), when raw (v, k) · dv v is the
    reference's second aggregation at (v, k);
  * relu((g·Wg)(r, q) + bg q) is the reference's per-graph feature embedding at (r, q);
  * (relu(cmb·Wh1 + bh1)·Wh2)(r, q) + bh2 q is the reference's result at (r, q), when cmb is the reference's
    combined feature table.

  Every step is a rewriting by the reference's stages read at an index and by the hypotheses; no arithmetic beyond
  matching the two sides term by term.
-/
import proofs.«105699_j61710090109663_2_alg».proof.Proof.RefStages
import proofs.«105699_j61710090109663_2_alg».proof.Proof.LayerFormulas

set_option maxRecDepth 16384

noncomputable section

open scoped BigOperators

namespace Cert.GraphNet.Bridge

open Cert.ReferenceIdeal Cert.ReferenceIdeal.Read Cert.ReferenceIdeal.Stages Idealize.ShloMosaic Idealize.ShloMosaic.ValueIdx

/-- The embedding followed by the first linear map, pre-scaled: the reference's first linear map times the row's factor. -/
theorem embed_bridge (x0 : (⟨S50000x4, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal))
    (be : Cert.GraphNet.Mat 1 256) (dv : Cert.GraphNet.Mat 50000 1) (dvec : (⟨S50000, .f32⟩ : BufTy).Contents (Elt Ideal))
    (hbe : ∀ k : Fin 256, be (ix2 (0 : Fin 1) k) = x6 (ix1 k))
    (hdv : ∀ r : Fin 50000, dv (ix2 r (0 : Fin 1)) = dvec (ix1 r))
    (r : Fin 50000) (q : Fin 256) :
    Cert.GraphNet.embedScaledAt x0 x5 be x7 dv r q
      = (val_main_v9 (F := Ideal) x0 x5 x6 x7 (ix2 r q) : EReal) * (dvec (ix1 r) : EReal) := by
  unfold Cert.GraphNet.embedScaledAt Cert.GraphNet.affineAt
  rw [lin1_at, hdv r]
  refine congrArg (· * _) (Finset.sum_congr rfl fun k _ => ?_)
  rw [embedded_at, hbe k]

/-- A layer's bias and relu on the aggregated rows followed by the next linear map, pre-scaled: the reference's second
    linear map times the row's factor. -/
theorem conv_bridge (x0 : (⟨S50000x4, .f32⟩ : BufTy).Contents (Elt Ideal)) (x1 : (⟨S2x400000, .i32⟩ : BufTy).Contents (Elt Ideal)) (x4 : (⟨S400000, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal))
    (raw : Cert.GraphNet.Mat 50000 256) (dv : Cert.GraphNet.Mat 50000 1) (b : Cert.GraphNet.Mat 1 256) (dvec : (⟨S50000, .f32⟩ : BufTy).Contents (Elt Ideal))
    (hraw : ∀ (v : Fin 50000) (k : Fin 256), raw (ix2 v k) * (dvec (ix1 v) : EReal)
      = (val_main_v50 (F := Ideal) x0 x1 x4 x5 x6 x7 (ix2 v k) : EReal))
    (hb : ∀ k : Fin 256, b (ix2 (0 : Fin 1) k) = x8 (ix1 k))
    (hdv : ∀ r : Fin 50000, dv (ix2 r (0 : Fin 1)) = dvec (ix1 r))
    (r : Fin 50000) (q : Fin 256) :
    Cert.GraphNet.convScaledAt raw dv b x9 r q
      = (val_main_v55 (F := Ideal) x0 x1 x4 x5 x6 x7 x8 x9 (ix2 r q) : EReal) * (dvec (ix1 r) : EReal) := by
  unfold Cert.GraphNet.convScaledAt
  rw [lin2_at, hdv r]
  refine congrArg (· * _) (Finset.sum_congr rfl fun k _ => ?_)
  rw [hidden1_at, hraw r k, hb k]

/-- The last layer's bias and relu on the aggregated rows: the reference's second layer's output. -/
theorem finalBias_bridge (x0 : (⟨S50000x4, .f32⟩ : BufTy).Contents (Elt Ideal)) (x1 : (⟨S2x400000, .i32⟩ : BufTy).Contents (Elt Ideal)) (x4 : (⟨S400000, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal))
    (raw : Cert.GraphNet.Mat 50000 256) (dv : Cert.GraphNet.Mat 50000 1) (b : Cert.GraphNet.Mat 1 256) (dvec : (⟨S50000, .f32⟩ : BufTy).Contents (Elt Ideal))
    (hraw : ∀ (v : Fin 50000) (k : Fin 256), raw (ix2 v k) * (dvec (ix1 v) : EReal)
      = (val_main_v96 (F := Ideal) x0 x1 x4 x5 x6 x7 x8 x9 (ix2 v k) : EReal))
    (hb : ∀ k : Fin 256, b (ix2 (0 : Fin 1) k) = x10 (ix1 k))
    (hdv : ∀ r : Fin 50000, dv (ix2 r (0 : Fin 1)) = dvec (ix1 r))
    (r : Fin 50000) (q : Fin 256) :
    Cert.GraphNet.biasReluAt raw dv b r q
      = val_main_v100 (F := Ideal) x0 x1 x4 x5 x6 x7 x8 x9 x10 (ix2 r q) := by
  unfold Cert.GraphNet.biasReluAt
  rw [hidden2_at, hdv r, hraw r q, hb q]

/-- The per-graph feature embedding: the reference's. -/
theorem graphFeature_bridge (x3 : (⟨S128x16, .f32⟩ : BufTy).Contents (Elt Ideal)) (x11 : (⟨S16x256, .f32⟩ : BufTy).Contents (Elt Ideal)) (x12 : (⟨S256, .f32⟩ : BufTy).Contents (Elt Ideal))
    (b : Cert.GraphNet.Mat 1 256) (hb : ∀ k : Fin 256, b (ix2 (0 : Fin 1) k) = x12 (ix1 k))
    (r : Fin 128) (q : Fin 256) :
    Cert.GraphNet.denseReluAt x3 x11 b r q = val_main_v117 (F := Ideal) x3 x11 x12 (ix2 r q) := by
  unfold Cert.GraphNet.denseReluAt Cert.GraphNet.affineAt
  rw [graphFeature_at, hb q]

/-- The two-layer read-out of the reference's combined feature table: the reference's result. -/
theorem readout_bridge (x0 : (⟨S50000x4, .f32⟩ : BufTy).Contents (Elt Ideal)) (x1 : (⟨S2x400000, .i32⟩ : BufTy).Contents (Elt Ideal)) (x2 : (⟨S50000, .i32⟩ : BufTy).Contents (Elt Ideal)) (x3 : (⟨S128x16, .f32⟩ : BufTy).Contents (Elt Ideal)) (x4 : (⟨S400000, .f32⟩ : BufTy).Contents (Elt Ideal)) (x5 : (⟨S4x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S16x256, .f32⟩ : BufTy).Contents (Elt Ideal)) (x12 : (⟨S256, .f32⟩ : BufTy).Contents (Elt Ideal)) (x13 : (⟨S512x256, .f32⟩ : BufTy).Contents (Elt Ideal)) (x14 : (⟨S256, .f32⟩ : BufTy).Contents (Elt Ideal)) (x15 : (⟨S256x64, .f32⟩ : BufTy).Contents (Elt Ideal)) (x16 : (⟨S64, .f32⟩ : BufTy).Contents (Elt Ideal))
    (cmb : Cert.GraphNet.Mat 128 512) (b1 : Cert.GraphNet.Mat 1 256) (b2 : Cert.GraphNet.Mat 1 64)
    (hcmb : cmb = val_main_v118 (F := Ideal) x0 x1 x2 x3 x4 x5 x6 x7 x8 x9 x10 x11 x12)
    (hb1 : ∀ k : Fin 256, b1 (ix2 (0 : Fin 1) k) = x14 (ix1 k))
    (hb2 : ∀ k : Fin 64, b2 (ix2 (0 : Fin 1) k) = x16 (ix1 k))
    (r : Fin 128) (q : Fin 64) :
    Cert.GraphNet.headAt cmb x13 b1 x15 b2 r q
      = val_main_v127 (F := Ideal) x0 x1 x2 x3 x4 x5 x6 x7 x8 x9 x10 x11 x12 x13 x14 x15 x16 (ix2 r q) := by
  unfold Cert.GraphNet.headAt Cert.GraphNet.affineAt
  rw [result_at, hb2 q]
  refine congrArg₂ (· + ·) ?_ rfl
  refine Finset.sum_congr rfl fun k _ => ?_
  rw [readoutHidden_at, hb1 k, hcmb]

end Cert.GraphNet.Bridge

end
-- ==== Proof.KernelIsReference.lean ====
/-
  The kernel program's result is the reference's result of the same arguments.

  Write dv for the per-node scale factors (nonnegative reals), P₁ = relu(x·We + be)·W1 and P₂ = h₁·W2 for the two layers'
  linear maps as the reference computes them, A₁ and A₂ for its two normalised aggregations.

  * The first region leaves P₁(r, ·) · dv r in row r (its output formula, with the bias row and scale column read back).
  * The aggregation of those rows with the plain edge weights, scaled at row v by dv v, is A₁(v, ·): the symmetric
    normalisation split into a pre-scale at the source and a post-scale at the destination.
  * So the second region's bias-relu input raw₁(r, k) · dv r + b1 k is A₁(r, k) + b1 k, its relu is the reference's h₁, and
    the region leaves P₂(r, ·) · dv r; the second aggregation, scaled, is A₂ likewise.
  * The third region leaves relu(raw₂ · dv + b2) = relu(A₂ + b2) = h₂, the whole array.
  * The mean pool is the same host operations on both sides, applied to equal arrays; the fourth region's dense layer is
    the reference's graph feature embedding; their join is the reference's combined array; the fifth region's two
    dense layers are the reference's read-out.
-/
import proofs.«105699_j61710090109663_2_alg».proof.Proof.HostStagesB
import proofs.«105699_j61710090109663_2_alg».proof.Proof.RegionOutputs
import proofs.«105699_j61710090109663_2_alg».proof.Proof.RefStages
import proofs.«105699_j61710090109663_2_alg».proof.Proof.DenseBridges

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read (val_main_v9 val_main_v11 val_main_v12 val_main_v14 val_main_v21 val_main_v50 val_main_v55 val_main_v96
  val_main_v100 val_main_v112 val_main_v117 val_main_v118 val_main_v127)
open Cert.ReferenceIdeal.Stages (agg1_eq agg2_eq scale_nonneg_real)
open Cert.GraphNet.Bridge

variable (m : (ℓ : Loc nD τ sig) → Buf (Elt Ideal) ℓ) (ρ : Dev nD → PrngReg) (c : Dev nD)

/-- Row r of the first region's output is row r of P₁ times the scale factor of node r. -/
theorem embedOut_scaled (r : Fin 50000) (q : Fin 256) :
    ((W4 m ρ c (Proc.devRef .tc main_v18)) (ix2 r q) : EReal) = ((val_main_v9 (F := Ideal) (m ((c : Thread nD τ).loc main_arg0)) (m ((c : Thread nD τ).loc main_arg5)) (m ((c : Thread nD τ).loc main_arg6)) (m ((c : Thread nD τ).loc main_arg7))) (ix2 r q) : EReal) * ((val_main_v21 (F := Ideal) (m ((c : Thread nD τ).loc main_arg1)) (m ((c : Thread nD τ).loc main_arg4))) (ix1 r) : EReal) :=
  (embed_out m ρ c r q).trans
    (embed_bridge (m ((c : Thread nD τ).loc main_arg0)) (m ((c : Thread nD τ).loc main_arg5)) (m ((c : Thread nD τ).loc main_arg6)) (m ((c : Thread nD τ).loc main_arg7)) _ _ (val_main_v21 (F := Ideal) (m ((c : Thread nD τ).loc main_arg1)) (m ((c : Thread nD τ).loc main_arg4))) (bias0_at m ρ c) (scaleCol0_at m ρ c) r q)

/-- The first aggregation, scaled at the destination, is the reference's normalised aggregation A₁. -/
theorem agg1_scaled (v : Fin 50000) (q : Fin 256) :
    (show EReal from (W5 m ρ c (Proc.devRef .tc main_v31)) (ix2 v q)) * (show EReal from (val_main_v21 (F := Ideal) (m ((c : Thread nD τ).loc main_arg1)) (m ((c : Thread nD τ).loc main_arg4))) (ix1 v))
      = (val_main_v50 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (ix2 v q) : EReal) := by
  have hB := rowAgg_symNorm (N := 50000) (E := 450000) (K := 256) (w := 32) (by norm_num)
      gather_S50000x256_S450000x1_S450000x256_1_0_n_n_0_1_1256.wf scatter_S50000x256_S450000x1_S450000x256_1_0_0_1.wf Cert.ReferenceIdeal.gather_S50000_S450000x1_S450000_n_0_n_n_0_1_1.wf
      bcast_S_S50000x256 bcast_S450000_S450000x1_0 bcast_S450000x1_S450000x256_0_1 bcast_S_S450000
      (val_main_v12 (F := Ideal) (m ((c : Thread nD τ).loc main_arg1))) (val_main_v11 (F := Ideal) (m ((c : Thread nD τ).loc main_arg1))) (val_main_v14 (F := Ideal) (m ((c : Thread nD τ).loc main_arg4))) (val_main_v21 (F := Ideal) (m ((c : Thread nD τ).loc main_arg1)) (m ((c : Thread nD τ).loc main_arg4))) (val_main_v9 (F := Ideal) (m ((c : Thread nD τ).loc main_arg0)) (m ((c : Thread nD τ).loc main_arg5)) (m ((c : Thread nD τ).loc main_arg6)) (m ((c : Thread nD τ).loc main_arg7))) (W4 m ρ c (Proc.devRef .tc main_v18))
      (scale_nonneg_real (m ((c : Thread nD τ).loc main_arg1)) (m ((c : Thread nD τ).loc main_arg4))) (embedOut_scaled m ρ c) v q
  have hC := congrFun (agg1_eq (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (ix2 v q)
  have hBC := hB.trans hC.symm
  rw [agg1_W5 m ρ c]
  exact hBC

/-- Row r of the second region's output is row r of P₂ times the scale factor of node r. -/
theorem convOut_scaled (r : Fin 50000) (q : Fin 256) :
    ((W6 m ρ c (Proc.devRef .tc main_v34)) (ix2 r q) : EReal) = ((val_main_v55 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 r q) : EReal) * ((val_main_v21 (F := Ideal) (m ((c : Thread nD τ).loc main_arg1)) (m ((c : Thread nD τ).loc main_arg4))) (ix1 r) : EReal) :=
by
  have h1 := conv_out m ρ c r q
  have h2 := conv_bridge (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (W5 m ρ c (Proc.devRef .tc main_v31)) (W5 m ρ c (Proc.devRef .tc main_v33)) (W5 m ρ c (Proc.devRef .tc main_v32)) (val_main_v21 (F := Ideal) (m ((c : Thread nD τ).loc main_arg1)) (m ((c : Thread nD τ).loc main_arg4)))
    (agg1_scaled m ρ c) (bias1_at m ρ c) (scaleCol1_at m ρ c) r q
  exact h1.trans h2

/-- The second aggregation, scaled at the destination, is the reference's normalised aggregation A₂. -/
theorem agg2_scaled (v : Fin 50000) (q : Fin 256) :
    (show EReal from (W7 m ρ c (Proc.devRef .tc main_v47)) (ix2 v q)) * (show EReal from (val_main_v21 (F := Ideal) (m ((c : Thread nD τ).loc main_arg1)) (m ((c : Thread nD τ).loc main_arg4))) (ix1 v))
      = (val_main_v96 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 v q) : EReal) := by
  have hB := rowAgg_symNorm (N := 50000) (E := 450000) (K := 256) (w := 32) (by norm_num)
      gather_S50000x256_S450000x1_S450000x256_1_0_n_n_0_1_1256.wf scatter_S50000x256_S450000x1_S450000x256_1_0_0_1.wf Cert.ReferenceIdeal.gather_S50000_S450000x1_S450000_n_0_n_n_0_1_1.wf
      bcast_S_S50000x256 bcast_S450000_S450000x1_0 bcast_S450000x1_S450000x256_0_1 bcast_S_S450000
      (val_main_v12 (F := Ideal) (m ((c : Thread nD τ).loc main_arg1))) (val_main_v11 (F := Ideal) (m ((c : Thread nD τ).loc main_arg1))) (val_main_v14 (F := Ideal) (m ((c : Thread nD τ).loc main_arg4))) (val_main_v21 (F := Ideal) (m ((c : Thread nD τ).loc main_arg1)) (m ((c : Thread nD τ).loc main_arg4))) (val_main_v55 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (W6 m ρ c (Proc.devRef .tc main_v34))
      (scale_nonneg_real (m ((c : Thread nD τ).loc main_arg1)) (m ((c : Thread nD τ).loc main_arg4))) (convOut_scaled m ρ c) v q
  have hC := congrFun (agg2_eq (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 v q)
  have hBC := hB.trans hC.symm
  rw [agg2_W7 m ρ c]
  exact hBC

/-- The third region's output is the reference's second hidden layer h₂, the whole array. -/
theorem finalOut_eq : W8 m ρ c (Proc.devRef .tc main_v50) = val_main_v100 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨r, q, rfl⟩ : ∃ (r : Fin 50000) (q : Fin 256), i = ix2 r q := ⟨i 0, i 1, eq_ix2 i⟩
  have h1 := finalBias_out m ρ c r q
  have h2 := finalBias_bridge (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (W7 m ρ c (Proc.devRef .tc main_v47)) (W7 m ρ c (Proc.devRef .tc main_v49)) (W7 m ρ c (Proc.devRef .tc main_v48)) (val_main_v21 (F := Ideal) (m ((c : Thread nD τ).loc main_arg1)) (m ((c : Thread nD τ).loc main_arg4)))
    (agg2_scaled m ρ c) (bias2_at m ρ c) (scaleCol2_at m ρ c) r q
  exact h1.trans h2

/-- The mean-pooled graph embedding is the reference's. -/
theorem pool_eq : W9 m ρ c (Proc.devRef .tc main_v62) = val_main_v112 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [pool_W9 m ρ c, finalOut_eq m ρ c]
  rfl

/-- The fourth region's output is the reference's graph feature embedding. -/
theorem graphFeatureOut_eq : W10 m ρ c (Proc.devRef .tc main_v64) = val_main_v117 (F := Ideal) (m ((c : Thread nD τ).loc main_arg3)) (m ((c : Thread nD τ).loc main_arg11)) (m ((c : Thread nD τ).loc main_arg12)) := by
  funext i
  obtain ⟨r, q, rfl⟩ : ∃ (r : Fin 128) (q : Fin 256), i = ix2 r q := ⟨i 0, i 1, eq_ix2 i⟩
  exact (graphFeature_out m ρ c r q).trans
    (graphFeature_bridge (m ((c : Thread nD τ).loc main_arg3)) (m ((c : Thread nD τ).loc main_arg11)) (m ((c : Thread nD τ).loc main_arg12)) _ (bias3_at m ρ c) r q)

/-- The joined array the read-out reads is the reference's combined array. -/
theorem join_eq : W11 m ρ c (Proc.devRef .tc main_v65) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [join_W11 m ρ c, pool_eq m ρ c, graphFeatureOut_eq m ρ c]
  rfl

/-- THE RESULT: what the run leaves in the kernel program's result buffer is the reference's result of the arguments. -/
theorem kernel_result : W12 m ρ c (Proc.devRef .tc main_v68) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext i
  obtain ⟨r, q, rfl⟩ : ∃ (r : Fin 128) (q : Fin 64), i = ix2 r q := ⟨i 0, i 1, eq_ix2 i⟩
  exact (readout_out m ρ c r q).trans
    (readout_bridge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) _ _ _ (join_eq m ρ c) (bias4_at m ρ c) (bias5_at m ρ c) r q)

end Cert.KernelIdeal.Stages

end
-- ==== Proof.lean ====
/-
  A two-layer graph convolution network with a mean-pooled read-out, as five pipelined regions among host operations,
  against its plain reference: the five claims.

  * The three programs run (terminate, nothing faulting) and leave their arguments as launched: the two kernel programs
    by their generated frames, the reference by its generated run.
  * The idealisation rewrote no operation, so there is nothing to preserve.
  * At the exact-real instance both programs end with the same result. The reference normalises every edge by
    scale(source) · weight · scale(destination) and aggregates the rows of each layer's linear map; the kernel scales each
    row by its own factor inside the region that computes it, aggregates with the plain weights, and scales the
    aggregated row by the destination's factor inside the next region. The scale factors are nonnegative reals, so the
    destination's factor goes inside the aggregation's sum; the rest is commutativity and associativity of the product
    of extended reals, and the dense layers are the same sums on both sides. The kernel's run names its result buffer's
    final contents (module KernelRun), which module KernelIsReference shows to be the reference's stage of the arguments;
    the reference's run ends at that stage by its generated read-back.
-/
import proofs.«105699_j61710090109663_2_alg».proof.Defs
import proofs.«105699_j61710090109663_2_alg».proof.Proof.Gen.Kernel
import proofs.«105699_j61710090109663_2_alg».proof.Proof.Gen.Kernel.Skeleton
import proofs.«105699_j61710090109663_2_alg».proof.Proof.Gen.Kernel.Launch
import proofs.«105699_j61710090109663_2_alg».proof.Proof.Gen.Kernel.Points
import proofs.«105699_j61710090109663_2_alg».proof.Proof.Gen.Kernel.Frame
import proofs.«105699_j61710090109663_2_alg».proof.Proof.Gen.KernelIdeal
import proofs.«105699_j61710090109663_2_alg».proof.Proof.Gen.KernelIdeal.Skeleton
import proofs.«105699_j61710090109663_2_alg».proof.Proof.Gen.KernelIdeal.Launch
import proofs.«105699_j61710090109663_2_alg».proof.Proof.Gen.KernelIdeal.Points
import proofs.«105699_j61710090109663_2_alg».proof.Proof.Gen.KernelIdeal.Frame
import proofs.«105699_j61710090109663_2_alg».proof.Proof.Gen.ReferenceIdeal
import proofs.«105699_j61710090109663_2_alg».proof.Proof.Gen.ReferenceIdeal.Run
import proofs.«105699_j61710090109663_2_alg».proof.Proof.Gen.ReferenceIdeal.Read
import proofs.«105699_j61710090109663_2_alg».proof.Proof.Gen.Pre_finite_inputs
import proofs.«105699_j61710090109663_2_alg».proof.Proof.KernelRun
import proofs.«105699_j61710090109663_2_alg».proof.Proof.KernelIsReference
import Idealize.ShloMosaic.Adequacy
import Idealize.ShloMosaic.Init

set_option maxRecDepth 16384

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, fun m ρ _ => ?_, trivial, ?_⟩
  · -- the reference's frame is its run with the result dropped
    exact (θ_run Cert.ReferenceIdeal.defs _ _).mono (fun _ h c => (h c).2) (Cert.ReferenceIdeal.Value.run (F := Ideal) m ρ)
  · intro m ρ m' ρ' _ hagree
    refine ⟨fun c => Cert.ReferenceIdeal.Read.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
    · -- the kernel's run ends with its result buffer at the reference's stage of its own arguments
      exact (θ_run Cert.KernelIdeal.defs _ _).mono
        (fun r h c => ⟨(h c).1.trans (Cert.KernelIdeal.Stages.kernel_result m ρ c), (h c).2⟩)
        (Cert.KernelIdeal.RunValue.run_value (F := Ideal) m ρ)
    · -- the reference's run ends at that stage of its arguments, which agree with the kernel's
      refine (θ_run Cert.ReferenceIdeal.defs _ _).mono (fun r h c => ⟨?_, (h c).2⟩) (Cert.ReferenceIdeal.Value.run (F := Ideal) m' ρ')
      obtain ⟨h0, h1, h2, h3, h4, h5, h6, h7, h8, h9, h10, h11, h12, h13, h14, h15, h16⟩ := hagree c
      rw [(h c).1, Cert.ReferenceIdeal.Read.val_main_v127_eq, h0, h1, h2, h3, h4, h5, h6, h7, h8, h9, h10, h11, h12, h13, h14, h15, h16]⟩

end Cert.Proof

end
